-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x5 : Shape := ⟨2, ![1000000, 5]⟩
abbrev S2000000x1 : Shape := ⟨2, ![2000000, 1]⟩
abbrev S1000000 : Shape := ⟨1, ![1000000]⟩
abbrev S2x2000000 : Shape := ⟨2, ![2, 2000000]⟩
abbrev S5 : Shape := ⟨1, ![5]⟩
abbrev S1 : Shape := ⟨1, ![1]⟩
abbrev S5x110 : Shape := ⟨2, ![5, 110]⟩
abbrev S110 : Shape := ⟨1, ![110]⟩
abbrev S1x110 : Shape := ⟨2, ![1, 110]⟩
abbrev S110x5 : Shape := ⟨2, ![110, 5]⟩
abbrev S5x5 : Shape := ⟨2, ![5, 5]⟩
abbrev S_ : Shape := ⟨0, ![]⟩

class Facts : Prop where
  bcast_S_S1000000x5 : S_.BroadcastsInDim S1000000x5 (![] : Fin 0 → Fin S1000000x5.rank)
  reducesTo_S1000000x5_S_d0_1 : S1000000x5.ReducesTo [0, 1] S_
  h_S_ : 0 < S_.numel
  bcast_S_S2000000x1 : S_.BroadcastsInDim S2000000x1 (![] : Fin 0 → Fin S2000000x1.rank)
  reducesTo_S2000000x1_S_d0_1 : S2000000x1.ReducesTo [0, 1] S_
  bcast_S_S5 : S_.BroadcastsInDim S5 (![] : Fin 0 → Fin S5.rank)
  reducesTo_S5_S_d0 : S5.ReducesTo [0] S_
  bcast_S_S1 : S_.BroadcastsInDim S1 (![] : Fin 0 → Fin S1.rank)
  reducesTo_S1_S_d0 : S1.ReducesTo [0] S_
  bcast_S_S5x110 : S_.BroadcastsInDim S5x110 (![] : Fin 0 → Fin S5x110.rank)
  reducesTo_S5x110_S_d0_1 : S5x110.ReducesTo [0, 1] S_
  bcast_S_S110 : S_.BroadcastsInDim S110 (![] : Fin 0 → Fin S110.rank)
  reducesTo_S110_S_d0 : S110.ReducesTo [0] S_
  bcast_S_S1x110 : S_.BroadcastsInDim S1x110 (![] : Fin 0 → Fin S1x110.rank)
  reducesTo_S1x110_S_d0_1 : S1x110.ReducesTo [0, 1] S_
  bcast_S_S110x5 : S_.BroadcastsInDim S110x5 (![] : Fin 0 → Fin S110x5.rank)
  reducesTo_S110x5_S_d0_1 : S110x5.ReducesTo [0, 1] S_
  bcast_S_S5x5 : S_.BroadcastsInDim S5x5 (![] : Fin 0 → Fin S5x5.rank)
  reducesTo_S5x5_S_d0_1 : S5x5.ReducesTo [0, 1] S_

variable [Facts]

def fn_part3 {F : FTy → Type} [FloatOps F] (main_arg13 : FVec F S5x5 .f32) (main_arg14 : FVec F S5 .f32) (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  let main_v54 : FVec F S5x5 .f32 := Host.absf main_arg13
  let main_cst_20 : FVec F S_ .f32 := constant S_ .f32 0x7F800000#32
  let main_v55 : FVec F S5x5 .f32 := broadcastInDim S5x5 ![] bcast_S_S5x5 main_cst_20
  let main_v56 : IVec S5x5 1 := cmpf .olt main_v54 main_v55
  let main_c_21 : IVec S_ 1 := constantI S_ 1 1#1
  let main_v57 : IVec S_ 1 := (fun x v => Host.reduce IntOp.andi x v reducesTo_S5x5_S_d0_1 h_S_) main_v56 main_c_21
  let main_v58 : IVec S_ 1 := andi main_v53 main_v57
  let main_v59 : FVec F S5 .f32 := Host.absf main_arg14
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  main_v63

def fn_part2 {F : FTy → Type} [FloatOps F] (main_arg9 : FVec F S110 .f32) (main_arg10 : FVec F S1x110 .f32) (main_arg11 : FVec F S110x5 .f32) (main_arg12 : FVec F S5 .f32) (main_arg13 : FVec F S5x5 .f32) (main_arg14 : FVec F S5 .f32) (main_v33 : IVec S_ 1) : IVec S_ 1 :=
  let main_v34 : FVec F S110 .f32 := Host.absf main_arg9
  let main_cst_12 : FVec F S_ .f32 := constant S_ .f32 0x7F800000#32
  let main_v35 : FVec F S110 .f32 := broadcastInDim S110 ![] bcast_S_S110 main_cst_12
  let main_v36 : IVec S110 1 := cmpf .olt main_v34 main_v35
  let main_c_13 : IVec S_ 1 := constantI S_ 1 1#1
  let main_v37 : IVec S_ 1 := (fun x v => Host.reduce IntOp.andi x v reducesTo_S110_S_d0 h_S_) main_v36 main_c_13
  let main_v38 : IVec S_ 1 := andi main_v33 main_v37
  let main_v39 : FVec F S1x110 .f32 := Host.absf main_arg10
  let main_cst_14 : FVec F S_ .f32 := constant S_ .f32 0x7F800000#32
  let main_v40 : FVec F S1x110 .f32 := broadcastInDim S1x110 ![] bcast_S_S1x110 main_cst_14
  let main_v41 : IVec S1x110 1 := cmpf .olt main_v39 main_v40
  let main_c_15 : IVec S_ 1 := constantI S_ 1 1#1
  let main_v42 : IVec S_ 1 := (fun x v => Host.reduce IntOp.andi x v reducesTo_S1x110_S_d0_1 h_S_) main_v41 main_c_15
  let main_v43 : IVec S_ 1 := andi main_v38 main_v42
  let main_v44 : FVec F S110x5 .f32 := Host.absf main_arg11
  let main_cst_16 : FVec F S_ .f32 := constant S_ .f32 0x7F800000#32
  let main_v45 : FVec F S110x5 .f32 := broadcastInDim S110x5 ![] bcast_S_S110x5 main_cst_16
  let main_v46 : IVec S110x5 1 := cmpf .olt main_v44 main_v45
  let main_c_17 : IVec S_ 1 := constantI S_ 1 1#1
  let main_v47 : IVec S_ 1 := (fun x v => Host.reduce IntOp.andi x v reducesTo_S110x5_S_d0_1 h_S_) main_v46 main_c_17
  let main_v48 : IVec S_ 1 := andi main_v43 main_v47
  let main_v49 : FVec F S5 .f32 := Host.absf main_arg12
  let main_cst_18 : FVec F S_ .f32 := constant S_ .f32 0x7F800000#32
  let main_v50 : FVec F S5 .f32 := broadcastInDim S5 ![] bcast_S_S5 main_cst_18
  fn_part3 (F := F) main_arg13 main_arg14 main_v48 main_v49 main_v50

def fn_part1 {F : FTy → Type} [FloatOps F] (main_arg6 : FVec F S1 .f32) (main_arg7 : FVec F S1 .f32) (main_arg8 : FVec F S5x110 .f32) (main_arg9 : FVec F S110 .f32) (main_arg10 : FVec F S1x110 .f32) (main_arg11 : FVec F S110x5 .f32) (main_arg12 : FVec F S5 .f32) (main_arg13 : FVec F S5x5 .f32) (main_arg14 : FVec F S5 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S5x110 .f32 := Host.absf main_arg8
  let main_cst_10 : FVec F S_ .f32 := constant S_ .f32 0x7F800000#32
  let main_v30 : FVec F S5x110 .f32 := broadcastInDim S5x110 ![] bcast_S_S5x110 main_cst_10
  let main_v31 : IVec S5x110 1 := cmpf .olt main_v29 main_v30
  let main_c_11 : IVec S_ 1 := constantI S_ 1 1#1
  let main_v32 : IVec S_ 1 := (fun x v => Host.reduce IntOp.andi x v reducesTo_S5x110_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S1000000x5 .f32) (main_arg1 : FVec F S2000000x1 .f32) (main_arg2 : IVec S1000000 32) (main_arg3 : IVec S2x2000000 32) (main_arg4 : FVec F S5 .f32) (main_arg5 : FVec F S5 .f32) (main_arg6 : FVec F S1 .f32) (main_arg7 : FVec F S1 .f32) (main_arg8 : FVec F S5x110 .f32) (main_arg9 : FVec F S110 .f32) (main_arg10 : FVec F S1x110 .f32) (main_arg11 : FVec F S110x5 .f32) (main_arg12 : FVec F S5 .f32) (main_arg13 : FVec F S5x5 .f32) (main_arg14 : FVec F S5 .f32) : IVec S_ 1 :=
  let main_v0 : FVec F S1000000x5 .f32 := Host.absf main_arg0
  let main_cst : FVec F S_ .f32 := constant S_ .f32 0x7F800000#32
  let main_v1 : FVec F S1000000x5 .f32 := broadcastInDim S1000000x5 ![] bcast_S_S1000000x5 main_cst
  let main_v2 : IVec S1000000x5 1 := cmpf .olt main_v0 main_v1
  let main_c : IVec S_ 1 := constantI S_ 1 1#1
  let main_v3 : IVec S_ 1 := (fun x v => Host.reduce IntOp.andi x v reducesTo_S1000000x5_S_d0_1 h_S_) main_v2 main_c
  let main_v4 : FVec F S2000000x1 .f32 := Host.absf main_arg1
  let main_cst_0 : FVec F S_ .f32 := constant S_ .f32 0x7F800000#32
  let main_v5 : FVec F S2000000x1 .f32 := broadcastInDim S2000000x1 ![] bcast_S_S2000000x1 main_cst_0
  let main_v6 : IVec S2000000x1 1 := cmpf .olt main_v4 main_v5
  let main_c_1 : IVec S_ 1 := constantI S_ 1 1#1
  let main_v7 : IVec S_ 1 := (fun x v => Host.reduce IntOp.andi x v reducesTo_S2000000x1_S_d0_1 h_S_) main_v6 main_c_1
  let main_v8 : IVec S_ 1 := andi main_v3 main_v7
  let main_v9 : FVec F S5 .f32 := Host.absf main_arg4
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5 .f32 := Host.absf main_arg5
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg6 main_arg7 main_arg8 main_arg9 main_arg10 main_arg11 main_arg12 main_arg13 main_arg14 main_v13 main_v16
-- ==== Kernel.lean ====
abbrev S1000000x5 : Shape := ⟨2, ![1000000, 5]⟩
abbrev S2000000x1 : Shape := ⟨2, ![2000000, 1]⟩
abbrev S1000000 : Shape := ⟨1, ![1000000]⟩
abbrev S2x2000000 : Shape := ⟨2, ![2, 2000000]⟩
abbrev S5 : Shape := ⟨1, ![5]⟩
abbrev S1 : Shape := ⟨1, ![1]⟩
abbrev S5x110 : Shape := ⟨2, ![5, 110]⟩
abbrev S110 : Shape := ⟨1, ![110]⟩
abbrev S1x110 : Shape := ⟨2, ![1, 110]⟩
abbrev S110x5 : Shape := ⟨2, ![110, 5]⟩
abbrev S5x5 : Shape := ⟨2, ![5, 5]⟩
abbrev S1x5 : Shape := ⟨2, ![1, 5]⟩
abbrev S10000x5 : Shape := ⟨2, ![10000, 5]⟩
abbrev S_ : Shape := ⟨0, ![]⟩
abbrev S1x1 : Shape := ⟨2, ![1, 1]⟩
abbrev S10000x1 : Shape := ⟨2, ![10000, 1]⟩
abbrev S1x2000000 : Shape := ⟨2, ![1, 2000000]⟩
abbrev S2000000 : Shape := ⟨1, ![2000000]⟩
abbrev S1000000x1 : Shape := ⟨2, ![1000000, 1]⟩
abbrev S10000x110 : Shape := ⟨2, ![10000, 110]⟩
abbrev S50000x5 : Shape := ⟨2, ![50000, 5]⟩

abbrev nBuf : Space → Nat
  | .hbm => 60
  | .vmem => 33
  | .smem => 0
  | _ => 0

abbrev bufTy : (tb : Table) → Fin (tcTables nBuf tb) → BufTy
  | .hbm, ⟨0, _⟩ => ⟨S1000000x5, .f32⟩
  | .hbm, ⟨1, _⟩ => ⟨S2000000x1, .f32⟩
  | .hbm, ⟨2, _⟩ => ⟨S1000000, .i32⟩
  | .hbm, ⟨3, _⟩ => ⟨S2x2000000, .i32⟩
  | .hbm, ⟨4, _⟩ => ⟨S5, .f32⟩
  | .hbm, ⟨5, _⟩ => ⟨S5, .f32⟩
  | .hbm, ⟨6, _⟩ => ⟨S1, .f32⟩
  | .hbm, ⟨7, _⟩ => ⟨S1, .f32⟩
  | .hbm, ⟨8, _⟩ => ⟨S5x110, .f32⟩
  | .hbm, ⟨9, _⟩ => ⟨S110, .f32⟩
  | .hbm, ⟨10, _⟩ => ⟨S1x110, .f32⟩
  | .hbm, ⟨11, _⟩ => ⟨S110x5, .f32⟩
  | .hbm, ⟨12, _⟩ => ⟨S5, .f32⟩
  | .hbm, ⟨13, _⟩ => ⟨S5x5, .f32⟩
  | .hbm, ⟨14, _⟩ => ⟨S5, .f32⟩
  | .hbm, ⟨15, _⟩ => ⟨S1x5, .f32⟩
  | .hbm, ⟨16, _⟩ => ⟨S1x5, .f32⟩
  | .hbm, ⟨17, _⟩ => ⟨S_, .f32⟩
  | .hbm, ⟨18, _⟩ => ⟨S1x5, .f32⟩
  | .hbm, ⟨19, _⟩ => ⟨S1x5, .f32⟩
  | .hbm, ⟨20, _⟩ => ⟨S_, .f32⟩
  | .hbm, ⟨21, _⟩ => ⟨S1x5, .f32⟩
  | .hbm, ⟨22, _⟩ => ⟨S1x5, .f32⟩
  | .hbm, ⟨23, _⟩ => ⟨S1x5, .f32⟩
  | .hbm, ⟨24, _⟩ => ⟨S1x5, .f32⟩
  | .hbm, ⟨25, _⟩ => ⟨S_, .f32⟩
  | .hbm, ⟨26, _⟩ => ⟨S1x5, .f32⟩
  | .hbm, ⟨27, _⟩ => ⟨S1x5, .f32⟩
  | .hbm, ⟨28, _⟩ => ⟨S1x1, .f32⟩
  | .hbm, ⟨29, _⟩ => ⟨S1x1, .f32⟩
  | .hbm, ⟨30, _⟩ => ⟨S_, .f32⟩
  | .hbm, ⟨31, _⟩ => ⟨S1x1, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S1x1, .f32⟩
  | .hbm, ⟨36, _⟩ => ⟨S1x1, .f32⟩
  | .hbm, ⟨37, _⟩ => ⟨S1x1, .f32⟩
  | .hbm, ⟨38, _⟩ => ⟨S_, .f32⟩
  | .hbm, ⟨39, _⟩ => ⟨S1x1, .f32⟩
  | .hbm, ⟨40, _⟩ => ⟨S1x1, .f32⟩
  | .hbm, ⟨41, _⟩ => ⟨S1x1, .f32⟩
  | .hbm, ⟨42, _⟩ => ⟨S1x1, .f32⟩
  | .hbm, ⟨43, _⟩ => ⟨S2000000x1, .f32⟩
  | .hbm, ⟨44, _⟩ => ⟨S1x2000000, .i32⟩
  | .hbm, ⟨45, _⟩ => ⟨S2000000, .i32⟩
  | .hbm, ⟨46, _⟩ => ⟨S_, .f32⟩
  | .hbm, ⟨47, _⟩ => ⟨S1000000x1, .f32⟩
  | .hbm, ⟨48, _⟩ => ⟨S2000000x1, .i32⟩
  | .hbm, ⟨49, _⟩ => ⟨S1000000x1, .f32⟩
  | .hbm, ⟨50, _⟩ => ⟨S1x5, .f32⟩
  | .hbm, ⟨51, _⟩ => ⟨S1x5, .f32⟩
  | .hbm, ⟨52, _⟩ => ⟨S1x110, .f32⟩
  | .hbm, ⟨53, _⟩ => ⟨S1x5, .f32⟩
  | .hbm, ⟨54, _⟩ => ⟨S1x5, .f32⟩
  | .hbm, ⟨55, _⟩ => ⟨S1000000x5, .f32⟩
  | .hbm, ⟨56, _⟩ => ⟨S_, .f32⟩
  | .hbm, ⟨57, _⟩ => ⟨S50000x5, .f32⟩
  | .hbm, ⟨58, _⟩ => ⟨S1000000x1, .i32⟩
  | .hbm, ⟨59, _⟩ => ⟨S50000x5, .f32⟩
  | .local _ .vmem, ⟨0, _⟩ => ⟨S10000x5, .f32⟩
  | .local _ .vmem, ⟨1, _⟩ => ⟨S10000x5, .f32⟩
  | .local _ .vmem, ⟨2, _⟩ => ⟨S1x5, .f32⟩
  | .local _ .vmem, ⟨3, _⟩ => ⟨S1x5, .f32⟩
  | .local _ .vmem, ⟨4, _⟩ => ⟨S10000x1, .f32⟩
  | .local _ .vmem, ⟨5, _⟩ => ⟨S10000x1, .f32⟩
  | .local _ .vmem, ⟨6, _⟩ => ⟨S1x1, .f32⟩
  | .local _ .vmem, ⟨7, _⟩ => ⟨S1x1, .f32⟩
  | .local _ .vmem, ⟨8, _⟩ => ⟨S10000x1, .f32⟩
  | .local _ .vmem, ⟨9, _⟩ => ⟨S10000x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | .local _ .vmem, ⟨16, _⟩ => ⟨S10000x5, .f32⟩
  | .local _ .vmem, ⟨17, _⟩ => ⟨S10000x5, .f32⟩
  | .local _ .vmem, ⟨18, _⟩ => ⟨S10000x1, .f32⟩
  | .local _ .vmem, ⟨19, _⟩ => ⟨S10000x1, .f32⟩
  | .local _ .vmem, ⟨20, _⟩ => ⟨S1x5, .f32⟩
  | .local _ .vmem, ⟨21, _⟩ => ⟨S1x5, .f32⟩
  | .local _ .vmem, ⟨22, _⟩ => ⟨S1x5, .f32⟩
  | .local _ .vmem, ⟨23, _⟩ => ⟨S1x5, .f32⟩
  | .local _ .vmem, ⟨24, _⟩ => ⟨S5x110, .f32⟩
  | .local _ .vmem, ⟨25, _⟩ => ⟨S1x110, .f32⟩
  | .local _ .vmem, ⟨26, _⟩ => ⟨S1x110, .f32⟩
  | .local _ .vmem, ⟨27, _⟩ => ⟨S110x5, .f32⟩
  | .local _ .vmem, ⟨28, _⟩ => ⟨S1x5, .f32⟩
  | .local _ .vmem, ⟨29, _⟩ => ⟨S5x5, .f32⟩
  | .local _ .vmem, ⟨30, _⟩ => ⟨S1x5, .f32⟩
  | .local _ .vmem, ⟨31, _⟩ => ⟨S10000x5, .f32⟩
  | .local _ .vmem, ⟨32, _⟩ => ⟨S10000x5, .f32⟩
  | _, _ => ⟨S1000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg5_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg9_0 : Ref sig .tc := ⟨.vmem, 27, rfl⟩
abbrev cc3_stg10_0 : Ref sig .tc := ⟨.vmem, 28, rfl⟩
abbrev cc3_stg11_0 : Ref sig .tc := ⟨.vmem, 29, rfl⟩
abbrev cc3_stg12_0 : Ref sig .tc := ⟨.vmem, 30, rfl⟩
abbrev cc3_stg13_0 : Ref sig .tc := ⟨.vmem, 31, rfl⟩
abbrev cc3_stg13_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem5_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem9_0 : DmaSem sig := 27
abbrev cc3_sem10_0 : DmaSem sig := 28
abbrev cc3_sem11_0 : DmaSem sig := 29
abbrev cc3_sem12_0 : DmaSem sig := 30
abbrev cc3_sem13_0 : DmaSem sig := 31
abbrev cc3_sem13_1 : DmaSem sig := 32

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x5 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x5 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x5 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x5 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x5 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S5x110 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x110 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x110 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S110x5 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x5 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S5x5 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x5 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S10000x5 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  inb_S1x5_S1x5_0_0 : ∀ a, (![0, 0] : Fin 2 → Nat) a + S1x5.size a ≤ S1x5.size a
  h_S1x5 : 0 < S1x5.numel
  inb_S10000x5_S10000x5_0_0 : ∀ a, (![0, 0] : Fin 2 → Nat) a + S10000x5.size a ≤ S10000x5.size a
  h_S10000x5 : 0 < S10000x5.numel
  shapeCasts_S1x5_S1x5 : S1x5.ShapeCasts S1x5
  reduces_S10000x5_S5 : S10000x5.Reduces [0] S5
  shapeCasts_S5_S1x5 : S5.ShapeCasts S1x5
  bcast_S_S1x5 : S_.BroadcastsInDim S1x5 (![] : Fin 0 → Fin S1x5.rank)
  inb_S1x1_S1x1_0_0 : ∀ a, (![0, 0] : Fin 2 → Nat) a + S1x1.size a ≤ S1x1.size a
  h_S1x1 : 0 < S1x1.numel
  inb_S10000x1_S10000x1_0_0 : ∀ a, (![0, 0] : Fin 2 → Nat) a + S10000x1.size a ≤ S10000x1.size a
  h_S10000x1 : 0 < S10000x1.numel
  shapeCasts_S1x1_S1x1 : S1x1.ShapeCasts S1x1
  reduces_S10000x1_S1 : S10000x1.Reduces [0] S1
  shapeCasts_S1_S1x1 : S1.ShapeCasts S1x1
  bcast_S_S1x1 : S_.BroadcastsInDim S1x1 (![] : Fin 0 → Fin S1x1.rank)
  broadcasts_S1x1_S10000x1 : S1x1.Broadcasts S10000x1
  slices_S2x2000000_S1x2000000_1_0 : S2x2000000.Slices ![1, 0] S1x2000000
  shapeCasts_S1x2000000_S2000000 : S1x2000000.ShapeCasts S2000000
  bcast_S_S1000000x1 : S_.BroadcastsInDim S1000000x1 (![] : Fin 0 → Fin S1000000x1.rank)
  bcast_S2000000_S2000000x1_0 : S2000000.BroadcastsInDim S2000000x1 (![0] : Fin 1 → Fin S2000000x1.rank)
  shapeCasts_S110_S1x110 : S110.ShapeCasts S1x110
  broadcasts_S1x5_S10000x5 : S1x5.Broadcasts S10000x5
  bitsLt_bf16_f32 : FTy.bits .bf16 < FTy.bits .f32
  inb_S5x110_S5x110_0_0 : ∀ a, (![0, 0] : Fin 2 → Nat) a + S5x110.size a ≤ S5x110.size a
  h_S5x110 : 0 < S5x110.numel
  inb_S1x110_S1x110_0_0 : ∀ a, (![0, 0] : Fin 2 → Nat) a + S1x110.size a ≤ S1x110.size a
  h_S1x110 : 0 < S1x110.numel
  shapeCasts_S1x110_S1x110 : S1x110.ShapeCasts S1x110
  broadcasts_S1x110_S10000x110 : S1x110.Broadcasts S10000x110
  shapeCasts_S10000x1_S10000x1 : S10000x1.ShapeCasts S10000x1
  inb_S110x5_S110x5_0_0 : ∀ a, (![0, 0] : Fin 2 → Nat) a + S110x5.size a ≤ S110x5.size a
  h_S110x5 : 0 < S110x5.numel
  inb_S5x5_S5x5_0_0 : ∀ a, (![0, 0] : Fin 2 → Nat) a + S5x5.size a ≤ S5x5.size a
  h_S5x5 : 0 < S5x5.numel
  bcast_S_S50000x5 : S_.BroadcastsInDim S50000x5 (![] : Fin 0 → Fin S50000x5.rank)
  bcast_S1000000_S1000000x1_0 : S1000000.BroadcastsInDim S1000000x1 (![0] : Fin 1 → Fin S1000000x1.rank)
  scatter_S1000000x1_S2000000x1_S2000000x1_1_0_0_1_wf : ScatterDims.WF S1000000x1 S2000000x1 S2000000x1 [1] [0] [0] 1
  dot_S10000x5_S5x110_S10000x110_1_0_0_1_n_n_wf : DotDims.WF S10000x5 S5x110 S10000x110 [1] [0] [0] [1] [] []
  dot_S10000x1_S1x110_S10000x110_1_0_0_1_n_n_wf : DotDims.WF S10000x1 S1x110 S10000x110 [1] [0] [0] [1] [] []
  dot_S10000x110_S110x5_S10000x5_1_0_0_1_n_n_wf : DotDims.WF S10000x110 S110x5 S10000x5 [1] [0] [0] [1] [] []
  dot_S10000x5_S5x5_S10000x5_1_0_0_1_n_n_wf : DotDims.WF S10000x5 S5x5 S10000x5 [1] [0] [0] [1] [] []
  scatter_S50000x5_S1000000x1_S1000000x5_1_0_0_1_wf : ScatterDims.WF S50000x5 S1000000x1 S1000000x5 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S1000000x5.size a
  hwx0_0 : ∀ i : grid0.Coords, EltTy.bits .f32 = 32 ∨ (Rect.block (s := S1000000x5) S10000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x5.size a ≤ S1x5.size a
  hwx0_1 : ∀ i : grid0.Coords, EltTy.bits .f32 = 32 ∨ (Rect.block (s := S1x5) S1x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S2000000x1.size a
  hwx1_0 : ∀ i : grid1.Coords, EltTy.bits .f32 = 32 ∨ (Rect.block (s := S2000000x1) S10000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S2000000x1.size a
  hwx2_0 : ∀ i : grid2.Coords, EltTy.bits .f32 = 32 ∨ (Rect.block (s := S2000000x1) S10000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S2000000x1.size a
  hwx2_5 : ∀ i : grid2.Coords, EltTy.bits .f32 = 32 ∨ (Rect.block (s := S2000000x1) S10000x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x5.size a ≤ S1000000x5.size a
  hwx3_0 : ∀ i : grid3.Coords, EltTy.bits .f32 = 32 ∨ (Rect.block (s := S1000000x5) S10000x5.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S1000000x1.size a
  hwx3_1 : ∀ i : grid3.Coords, EltTy.bits .f32 = 32 ∨ (Rect.block (s := S1000000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x5.size a ≤ S1x5.size a
  hwx3_2 : ∀ i : grid3.Coords, EltTy.bits .f32 = 32 ∨ (Rect.block (s := S1x5) S1x5.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x5.size a ≤ S1x5.size a
  hwx3_3 : ∀ i : grid3.Coords, EltTy.bits .f32 = 32 ∨ (Rect.block (s := S1x5) S1x5.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x5.size a ≤ S1x5.size a
  hwx3_4 : ∀ i : grid3.Coords, EltTy.bits .f32 = 32 ∨ (Rect.block (s := S1x5) S1x5.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x5.size a ≤ S1x5.size a
  hwx3_5 : ∀ i : grid3.Coords, EltTy.bits .f32 = 32 ∨ (Rect.block (s := S1x5) S1x5.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S5x110.size a ≤ S5x110.size a
  hwx3_6 : ∀ i : grid3.Coords, EltTy.bits .f32 = 32 ∨ (Rect.block (s := S5x110) S5x110.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x110.size a ≤ S1x110.size a
  hwx3_7 : ∀ i : grid3.Coords, EltTy.bits .f32 = 32 ∨ (Rect.block (s := S1x110) S1x110.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x110.size a ≤ S1x110.size a
  hwx3_8 : ∀ i : grid3.Coords, EltTy.bits .f32 = 32 ∨ (Rect.block (s := S1x110) S1x110.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S110x5.size a ≤ S110x5.size a
  hwx3_9 : ∀ i : grid3.Coords, EltTy.bits .f32 = 32 ∨ (Rect.block (s := S110x5) S110x5.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x5.size a ≤ S1x5.size a
  hwx3_10 : ∀ i : grid3.Coords, EltTy.bits .f32 = 32 ∨ (Rect.block (s := S1x5) S1x5.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S5x5.size a ≤ S5x5.size a
  hwx3_11 : ∀ i : grid3.Coords, EltTy.bits .f32 = 32 ∨ (Rect.block (s := S5x5) S5x5.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x5.size a ≤ S1x5.size a
  hwx3_12 : ∀ i : grid3.Coords, EltTy.bits .f32 = 32 ∨ (Rect.block (s := S1x5) S1x5.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S10000x5.size a ≤ S1000000x5.size a
  hwx3_13 : ∀ i : grid3.Coords, EltTy.bits .f32 = 32 ∨ (Rect.block (s := S1000000x5) S10000x5.size (cc3_transform_13 i) (hinb3_13 i)).WholeWords (EltTy.packing .f32)

variable [Facts₀]

def scatter_S1000000x1_S2000000x1_S2000000x1_1_0_0_1 : ScatterDims S1000000x1 S2000000x1 S2000000x1 where
  updateWindowDims := [1]
  insertedWindowDims := [0]
  scatterDimsToOperandDims := [0]
  indexVectorDim := 1
  wf := scatter_S1000000x1_S2000000x1_S2000000x1_1_0_0_1_wf
def dot_S10000x5_S5x110_S10000x110_1_0_0_1_n_n : DotDims S10000x5 S5x110 S10000x110 where
  lhsContracting := [1]
  rhsContracting := [0]
  lhsNonContracting := [0]
  rhsNonContracting := [1]
  lhsBatch := []
  rhsBatch := []
  wf := dot_S10000x5_S5x110_S10000x110_1_0_0_1_n_n_wf
def dot_S10000x1_S1x110_S10000x110_1_0_0_1_n_n : DotDims S10000x1 S1x110 S10000x110 where
  lhsContracting := [1]
  rhsContracting := [0]
  lhsNonContracting := [0]
  rhsNonContracting := [1]
  lhsBatch := []
  rhsBatch := []
  wf := dot_S10000x1_S1x110_S10000x110_1_0_0_1_n_n_wf
def dot_S10000x110_S110x5_S10000x5_1_0_0_1_n_n : DotDims S10000x110 S110x5 S10000x5 where
  lhsContracting := [1]
  rhsContracting := [0]
  lhsNonContracting := [0]
  rhsNonContracting := [1]
  lhsBatch := []
  rhsBatch := []
  wf := dot_S10000x110_S110x5_S10000x5_1_0_0_1_n_n_wf
def dot_S10000x5_S5x5_S10000x5_1_0_0_1_n_n : DotDims S10000x5 S5x5 S10000x5 where
  lhsContracting := [1]
  rhsContracting := [0]
  lhsNonContracting := [0]
  rhsNonContracting := [1]
  lhsBatch := []
  rhsBatch := []
  wf := dot_S10000x5_S5x5_S10000x5_1_0_0_1_n_n_wf
def scatter_S50000x5_S1000000x1_S1000000x5_1_0_0_1 : ScatterDims S50000x5 S1000000x1 S1000000x5 where
  updateWindowDims := [1]
  insertedWindowDims := [0]
  scatterDimsToOperandDims := [0]
  indexVectorDim := 1
  wf := scatter_S50000x5_S1000000x1_S1000000x5_1_0_0_1_wf

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x5.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x5.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_0) S1x1.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9_1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S10000x5.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x5.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x5.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x5.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27) S1x5.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg8) S5x110.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v28) S1x110.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg10) S1x110.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg11) S110x5.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v29) S1x5.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg13) S5x5.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v30) S1x5.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v31) S10000x5.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S1000000x5 : Shape := ⟨2, ![1000000, 5]⟩
abbrev S2000000x1 : Shape := ⟨2, ![2000000, 1]⟩
abbrev S1000000 : Shape := ⟨1, ![1000000]⟩
abbrev S2x2000000 : Shape := ⟨2, ![2, 2000000]⟩
abbrev S5 : Shape := ⟨1, ![5]⟩
abbrev S1 : Shape := ⟨1, ![1]⟩
abbrev S5x110 : Shape := ⟨2, ![5, 110]⟩
abbrev S110 : Shape := ⟨1, ![110]⟩
abbrev S1x110 : Shape := ⟨2, ![1, 110]⟩
abbrev S110x5 : Shape := ⟨2, ![110, 5]⟩
abbrev S5x5 : Shape := ⟨2, ![5, 5]⟩
abbrev S_ : Shape := ⟨0, ![]⟩
abbrev S1x5 : Shape := ⟨2, ![1, 5]⟩
abbrev S1x1 : Shape := ⟨2, ![1, 1]⟩
abbrev S1000000x110 : Shape := ⟨2, ![1000000, 110]⟩
abbrev S1x2000000 : Shape := ⟨2, ![1, 2000000]⟩
abbrev S2000000 : Shape := ⟨1, ![2000000]⟩
abbrev S1000000x1 : Shape := ⟨2, ![1000000, 1]⟩
abbrev S50000x5 : Shape := ⟨2, ![50000, 5]⟩

abbrev nBuf : Space → Nat
  | .hbm => 108
  | .vmem => 0
  | .smem => 0
  | _ => 0

abbrev bufTy : (tb : Table) → Fin (tcTables nBuf tb) → BufTy
  | .hbm, ⟨0, _⟩ => ⟨S1000000x5, .f32⟩
  | .hbm, ⟨1, _⟩ => ⟨S2000000x1, .f32⟩
  | .hbm, ⟨2, _⟩ => ⟨S1000000, .i32⟩
  | .hbm, ⟨3, _⟩ => ⟨S2x2000000, .i32⟩
  | .hbm, ⟨4, _⟩ => ⟨S5, .f32⟩
  | .hbm, ⟨5, _⟩ => ⟨S5, .f32⟩
  | .hbm, ⟨6, _⟩ => ⟨S1, .f32⟩
  | .hbm, ⟨7, _⟩ => ⟨S1, .f32⟩
  | .hbm, ⟨8, _⟩ => ⟨S5x110, .f32⟩
  | .hbm, ⟨9, _⟩ => ⟨S110, .f32⟩
  | .hbm, ⟨10, _⟩ => ⟨S1x110, .f32⟩
  | .hbm, ⟨11, _⟩ => ⟨S110x5, .f32⟩
  | .hbm, ⟨12, _⟩ => ⟨S5, .f32⟩
  | .hbm, ⟨13, _⟩ => ⟨S5x5, .f32⟩
  | .hbm, ⟨14, _⟩ => ⟨S5, .f32⟩
  | .hbm, ⟨15, _⟩ => ⟨S_, .f32⟩
  | .hbm, ⟨16, _⟩ => ⟨S5, .f32⟩
  | .hbm, ⟨17, _⟩ => ⟨S_, .f32⟩
  | .hbm, ⟨18, _⟩ => ⟨S5, .f32⟩
  | .hbm, ⟨19, _⟩ => ⟨S5, .f32⟩
  | .hbm, ⟨20, _⟩ => ⟨S1x5, .f32⟩
  | .hbm, ⟨21, _⟩ => ⟨S1000000x5, .f32⟩
  | .hbm, ⟨22, _⟩ => ⟨S1000000x5, .f32⟩
  | .hbm, ⟨23, _⟩ => ⟨S1000000x5, .f32⟩
  | .hbm, ⟨24, _⟩ => ⟨S_, .f32⟩
  | .hbm, ⟨25, _⟩ => ⟨S5, .f32⟩
  | .hbm, ⟨26, _⟩ => ⟨S_, .f32⟩
  | .hbm, ⟨27, _⟩ => ⟨S5, .f32⟩
  | .hbm, ⟨28, _⟩ => ⟨S5, .f32⟩
  | .hbm, ⟨29, _⟩ => ⟨S1x5, .f32⟩
  | .hbm, ⟨30, _⟩ => ⟨S1000000x5, .f32⟩
  | .hbm, ⟨31, _⟩ => ⟨S1000000x5, .f32⟩
  | .hbm, ⟨32, _⟩ => ⟨S_, .f32⟩
  | .hbm, ⟨33, _⟩ => ⟨S5, .f32⟩
  | .hbm, ⟨34, _⟩ => ⟨S5, .f32⟩
  | .hbm, ⟨35, _⟩ => ⟨S5, .f32⟩
  | .hbm, ⟨36, _⟩ => ⟨S1x5, .f32⟩
  | .hbm, ⟨37, _⟩ => ⟨S1000000x5, .f32⟩
  | .hbm, ⟨38, _⟩ => ⟨S1000000x5, .f32⟩
  | .hbm, ⟨39, _⟩ => ⟨S1x5, .f32⟩
  | .hbm, ⟨40, _⟩ => ⟨S1000000x5, .f32⟩
  | .hbm, ⟨41, _⟩ => ⟨S1000000x5, .f32⟩
  | .hbm, ⟨42, _⟩ => ⟨S1x5, .f32⟩
  | .hbm, ⟨43, _⟩ => ⟨S1000000x5, .f32⟩
  | .hbm, ⟨44, _⟩ => ⟨S1000000x5, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S1x1, .f32⟩
  | .hbm, ⟨51, _⟩ => ⟨S2000000x1, .f32⟩
  | .hbm, ⟨52, _⟩ => ⟨S2000000x1, .f32⟩
  | .hbm, ⟨53, _⟩ => ⟨S2000000x1, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1x1, .f32⟩
  | .hbm, ⟨60, _⟩ => ⟨S2000000x1, .f32⟩
  | .hbm, ⟨61, _⟩ => ⟨S2000000x1, .f32⟩
  | .hbm, ⟨62, _⟩ => ⟨S_, .f32⟩
  | .hbm, ⟨63, _⟩ => ⟨S1, .f32⟩
  | .hbm, ⟨64, _⟩ => ⟨S1, .f32⟩
  | .hbm, ⟨65, _⟩ => ⟨S1, .f32⟩
  | .hbm, ⟨66, _⟩ => ⟨S1x1, .f32⟩
  | .hbm, ⟨67, _⟩ => ⟨S2000000x1, .f32⟩
  | .hbm, ⟨68, _⟩ => ⟨S2000000x1, .f32⟩
  | .hbm, ⟨69, _⟩ => ⟨S1x1, .f32⟩
  | .hbm, ⟨70, _⟩ => ⟨S2000000x1, .f32⟩
  | .hbm, ⟨71, _⟩ => ⟨S2000000x1, .f32⟩
  | .hbm, ⟨72, _⟩ => ⟨S1x1, .f32⟩
  | .hbm, ⟨73, _⟩ => ⟨S2000000x1, .f32⟩
  | .hbm, ⟨74, _⟩ => ⟨S2000000x1, .f32⟩
  | .hbm, ⟨75, _⟩ => ⟨S1000000x110, .f32⟩
  | .hbm, ⟨76, _⟩ => ⟨S1x110, .f32⟩
  | .hbm, ⟨77, _⟩ => ⟨S1000000x110, .f32⟩
  | .hbm, ⟨78, _⟩ => ⟨S1000000x110, .f32⟩
  | .hbm, ⟨79, _⟩ => ⟨S1x2000000, .i32⟩
  | .hbm, ⟨80, _⟩ => ⟨S2000000, .i32⟩
  | .hbm, ⟨81, _⟩ => ⟨S_, .f32⟩
  | .hbm, ⟨82, _⟩ => ⟨S1000000x1, .f32⟩
  | .hbm, ⟨83, _⟩ => ⟨S2000000x1, .i32⟩
  | .hbm, ⟨84, _⟩ => ⟨S1000000x1, .f32⟩
  | .hbm, ⟨85, _⟩ => ⟨S1000000x110, .f32⟩
  | .hbm, ⟨86, _⟩ => ⟨S1000000x110, .f32⟩
  | .hbm, ⟨87, _⟩ => ⟨S1000000x5, .f32⟩
  | .hbm, ⟨88, _⟩ => ⟨S1x5, .f32⟩
  | .hbm, ⟨89, _⟩ => ⟨S1000000x5, .f32⟩
  | .hbm, ⟨90, _⟩ => ⟨S1000000x5, .f32⟩
  | .hbm, ⟨91, _⟩ => ⟨S1000000x5, .f32⟩
  | .hbm, ⟨92, _⟩ => ⟨S1000000x5, .f32⟩
  | .hbm, ⟨93, _⟩ => ⟨S_, .f32⟩
  | .hbm, ⟨94, _⟩ => ⟨S1000000x5, .f32⟩
  | .hbm, ⟨95, _⟩ => ⟨S1000000x5, .f32⟩
  | .hbm, ⟨96, _⟩ => ⟨S_, .f32⟩
  | .hbm, ⟨97, _⟩ => ⟨S1000000x5, .f32⟩
  | .hbm, ⟨98, _⟩ => ⟨S1000000x5, .f32⟩
  | .hbm, ⟨99, _⟩ => ⟨S1000000x5, .f32⟩
  | .hbm, ⟨100, _⟩ => ⟨S1000000x5, .f32⟩
  | .hbm, ⟨101, _⟩ => ⟨S1x5, .f32⟩
  | .hbm, ⟨102, _⟩ => ⟨S1000000x5, .f32⟩
  | .hbm, ⟨103, _⟩ => ⟨S1000000x5, .f32⟩
  | .hbm, ⟨104, _⟩ => ⟨S_, .f32⟩
  | .hbm, ⟨105, _⟩ => ⟨S50000x5, .f32⟩
  | .hbm, ⟨106, _⟩ => ⟨S1000000x1, .i32⟩
  | .hbm, ⟨107, _⟩ => ⟨S50000x5, .f32⟩
  | _, _ => ⟨S1000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_12 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  reducesTo_S1000000x5_S5_d0 : S1000000x5.ReducesTo [0] S5
  h_S_ : 0 < S_.numel
  bcast_S_S5 : S_.BroadcastsInDim S5 (![] : Fin 0 → Fin S5.rank)
  bcast_S5_S1x5_1 : S5.BroadcastsInDim S1x5 (![1] : Fin 1 → Fin S1x5.rank)
  bcast_S1x5_S1000000x5_0_1 : S1x5.BroadcastsInDim S1000000x5 (![0, 1] : Fin 2 → Fin S1000000x5.rank)
  reducesTo_S2000000x1_S1_d0 : S2000000x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S110_S1x110_1 : S110.BroadcastsInDim S1x110 (![1] : Fin 1 → Fin S1x110.rank)
  bcast_S1x110_S1000000x110_0_1 : S1x110.BroadcastsInDim S1000000x110 (![0, 1] : Fin 2 → Fin S1000000x110.rank)
  slices_S2x2000000_S1x2000000_1_0 : S2x2000000.Slices ![1, 0] S1x2000000
  shapeCasts_S1x2000000_S2000000 : S1x2000000.ShapeCasts S2000000
  bcast_S_S1000000x1 : S_.BroadcastsInDim S1000000x1 (![] : Fin 0 → Fin S1000000x1.rank)
  bcast_S2000000_S2000000x1_0 : S2000000.BroadcastsInDim S2000000x1 (![0] : Fin 1 → Fin S2000000x1.rank)
  bcast_S_S1000000x5 : S_.BroadcastsInDim S1000000x5 (![] : Fin 0 → Fin S1000000x5.rank)
  bcast_S_S50000x5 : S_.BroadcastsInDim S50000x5 (![] : Fin 0 → Fin S50000x5.rank)
  bcast_S1000000_S1000000x1_0 : S1000000.BroadcastsInDim S1000000x1 (![0] : Fin 1 → Fin S1000000x1.rank)
  dot_S1000000x5_S5x110_S1000000x110_1_0_0_1_n_n_wf : DotDims.WF S1000000x5 S5x110 S1000000x110 [1] [0] [0] [1] [] []
  scatter_S1000000x1_S2000000x1_S2000000x1_1_0_0_1_wf : ScatterDims.WF S1000000x1 S2000000x1 S2000000x1 [1] [0] [0] 1
  dot_S1000000x1_S1x110_S1000000x110_1_0_0_1_n_n_wf : DotDims.WF S1000000x1 S1x110 S1000000x110 [1] [0] [0] [1] [] []
  dot_S1000000x110_S110x5_S1000000x5_1_0_0_1_n_n_wf : DotDims.WF S1000000x110 S110x5 S1000000x5 [1] [0] [0] [1] [] []
  dot_S1000000x5_S5x5_S1000000x5_1_0_0_1_n_n_wf : DotDims.WF S1000000x5 S5x5 S1000000x5 [1] [0] [0] [1] [] []
  scatter_S50000x5_S1000000x1_S1000000x5_1_0_0_1_wf : ScatterDims.WF S50000x5 S1000000x1 S1000000x5 [1] [0] [0] 1

variable [Facts₀]

def dot_S1000000x5_S5x110_S1000000x110_1_0_0_1_n_n : DotDims S1000000x5 S5x110 S1000000x110 where
  lhsContracting := [1]
  rhsContracting := [0]
  lhsNonContracting := [0]
  rhsNonContracting := [1]
  lhsBatch := []
  rhsBatch := []
  wf := dot_S1000000x5_S5x110_S1000000x110_1_0_0_1_n_n_wf
def scatter_S1000000x1_S2000000x1_S2000000x1_1_0_0_1 : ScatterDims S1000000x1 S2000000x1 S2000000x1 where
  updateWindowDims := [1]
  insertedWindowDims := [0]
  scatterDimsToOperandDims := [0]
  indexVectorDim := 1
  wf := scatter_S1000000x1_S2000000x1_S2000000x1_1_0_0_1_wf
def dot_S1000000x1_S1x110_S1000000x110_1_0_0_1_n_n : DotDims S1000000x1 S1x110 S1000000x110 where
  lhsContracting := [1]
  rhsContracting := [0]
  lhsNonContracting := [0]
  rhsNonContracting := [1]
  lhsBatch := []
  rhsBatch := []
  wf := dot_S1000000x1_S1x110_S1000000x110_1_0_0_1_n_n_wf
def dot_S1000000x110_S110x5_S1000000x5_1_0_0_1_n_n : DotDims S1000000x110 S110x5 S1000000x5 where
  lhsContracting := [1]
  rhsContracting := [0]
  lhsNonContracting := [0]
  rhsNonContracting := [1]
  lhsBatch := []
  rhsBatch := []
  wf := dot_S1000000x110_S110x5_S1000000x5_1_0_0_1_n_n_wf
def dot_S1000000x5_S5x5_S1000000x5_1_0_0_1_n_n : DotDims S1000000x5 S5x5 S1000000x5 where
  lhsContracting := [1]
  rhsContracting := [0]
  lhsNonContracting := [0]
  rhsNonContracting := [1]
  lhsBatch := []
  rhsBatch := []
  wf := dot_S1000000x5_S5x5_S1000000x5_1_0_0_1_n_n_wf
def scatter_S50000x5_S1000000x1_S1000000x5_1_0_0_1 : ScatterDims S50000x5 S1000000x1 S1000000x5 where
  updateWindowDims := [1]
  insertedWindowDims := [0]
  scatterDimsToOperandDims := [0]
  indexVectorDim := 1
  wf := scatter_S50000x5_S1000000x1_S1000000x5_1_0_0_1_wf

class Facts : Prop extends Facts₀ where

variable [Facts]
-- ==== Proof.KRun.lean ====
/-
  The run of the idealized kernel program with its RESULT named: every weakly fair execution of @main ends, faultless,
  with the result buffer holding what the last stretch of host operations leaves in it (the fold of the program's eight
  segments from the launch memory, read at the result's buffer) and with the fifteen argument arrays as launched.
  The segments, their proof data and the fold are the generated frame's; only the final reading differs: the last
  thread state holds EVERY unscoped buffer at the fold's contents, so the result's buffer can be read beside the
  arguments.
-/
import proofs.«155275_j36498632081408_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the fold's contents
    after the last host stretch, and the argument arrays end as launched. -/
theorem run_result : θ_run defs (onTc (τ := τ) (main (F := F))) ⟨m, fun _ => 0, ρ⟩ (fun r => ∀ c : Dev nD,
      r.2.mem ((c.tc : Thread nD τ).loc main_v34) = W8 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v34 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Whole

end
-- ==== Proof.KBoundary.lean ====
/-
  The buffers of the idealized kernel program at the boundaries of its segments. An argument array is written by no
  host operation and by no region (a region reads it through an input window, whose array ends as it was entered), so
  at every boundary it still holds its launch contents; the column means and variances computed after the first
  statistics region are likewise untouched until the node region reads them.
-/
import proofs.«155275_j36498632081408_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

theorem at2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

theorem at4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

theorem at3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

theorem at3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c : Thread nD τ).loc main_arg7) := rfl

theorem at6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem at6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl

theorem at6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := W1_of_ne m ρ c main_arg10 (by decide)
    _ = m ((c : Thread nD τ).loc main_arg10) := rfl

theorem at6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := W3_of_ne m ρ c main_arg11 (by decide)
    _ = W1 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := W1_of_ne m ρ c main_arg11 (by decide)
    _ = m ((c : Thread nD τ).loc main_arg11) := rfl

theorem at6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := W3_of_ne m ρ c main_arg13 (by decide)
    _ = W1 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := W1_of_ne m ρ c main_arg13 (by decide)
    _ = m ((c : Thread nD τ).loc main_arg13) := rfl

theorem at5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

theorem at5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

theorem at5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

theorem at5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl

theorem at5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := W1_of_ne m ρ c main_arg12 (by decide)
    _ = m ((c : Thread nD τ).loc main_arg12) := rfl

theorem at5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := W1_of_ne m ρ c main_arg14 (by decide)
    _ = m ((c : Thread nD τ).loc main_arg14) := rfl

theorem at7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem at6_main_v2_from2 (c : Dev nD) : W6 m ρ c (Proc.devRef .tc main_v2) = W2 m ρ c (Proc.devRef .tc main_v2) :=
  calc W6 m ρ c (Proc.devRef .tc main_v2)
    _ = W5 m ρ c (Proc.devRef .tc main_v2) := StableHlo.after_of_forall_not_mem (b := Proc.devRef .tc main_v2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v2) := W5_of_ne m ρ c main_v2 (by decide)
    _ = W3 m ρ c (Proc.devRef .tc main_v2) := StableHlo.after_of_forall_not_mem (b := Proc.devRef .tc main_v2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v2) := W3_of_ne m ρ c main_v2 (by decide)

theorem at6_main_v8_from2 (c : Dev nD) : W6 m ρ c (Proc.devRef .tc main_v8) = W2 m ρ c (Proc.devRef .tc main_v8) :=
  calc W6 m ρ c (Proc.devRef .tc main_v8)
    _ = W5 m ρ c (Proc.devRef .tc main_v8) := StableHlo.after_of_forall_not_mem (b := Proc.devRef .tc main_v8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v8) := W5_of_ne m ρ c main_v8 (by decide)
    _ = W3 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v8) := W3_of_ne m ρ c main_v8 (by decide)

end Cert.KernelIdeal.Whole

end
-- ==== Proof.KFold.lean ====
/-
  What the host operations between the regions of the idealized kernel program compute, entry by entry, on the
  extended reals: the column means (a column sum divided by the population size), the clamped variances (the mean of
  squares minus the squared mean, clamped at zero), the row forms of the scale, shift and bias vectors, and the two
  segment sums, each as a function of the buffers at the previous boundary.
-/
import proofs.«155275_j36498632081408_2_alg».proof.Proof.KBoundary
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.KernelIdeal.Whole

open Idealize.ShloMosaic Idealize.ShloMosaic.TcCoe Idealize.ShloMosaic.Tactic Idealize.ShloMosaic.ValueIdx
open Idealize.ShloMosaic.StableHlo
open Idealize.SL.Sem
open Cert.KernelIdeal Cert.KernelIdeal.Gen

variable (m : (ℓ : Loc nD τ sig) → Buf (Elt Ideal) ℓ) (ρ : Dev nD → PrngReg) (c : Dev nD)

/-- A scalar constant broadcast to any shape reads, everywhere, the constant's value. -/
theorem splat_apply {t : Shape} (h : S_.BroadcastsInDim t ![]) (w : BitVec 32) (i : t.Idx) :
    broadcastInDim t ![] h (constant (F := Ideal) S_ .f32 w) i = Ideal.ofBits .f32 w :=
  broadcastInDim_apply _ h _ i (fun a => a.elim0) (fun a => a.elim0)

/-- The clamped variance: mean of squares minus squared mean, clamped at zero. `Q` is the sum of squares, `S` the sum,
    `N` the population size. -/
def cvar (Q S N : EReal) : EReal :=
  max (Ideal.div Q N - Ideal.div S N * Ideal.div S N) (Ideal.ofBits .f32 0x00000000#32)

theorem v2_at (q : Fin 5) :
    (W2 m ρ c (Proc.devRef .tc main_v2) : S1x5.Idx → EReal) (ix2 (0 : Fin 1) q)
      = Ideal.div ((W1 m ρ c (Proc.devRef .tc main_v0_0) : S1x5.Idx → EReal) (ix2 (0 : Fin 1) q)) (Ideal.ofBits .f32 0x49742400#32) := by
  have e : (W2 m ρ c (Proc.devRef .tc main_v2) : S1x5.Idx → EReal)
      = Host.divf (W1 m ρ c (Proc.devRef .tc main_v0_0)) (broadcastInDim S1x5 ![] bcast_S_S1x5 (constant (F := Ideal) S_ .f32 0x49742400#32)) := by
    dsimp only [W2, hostOps1]; after_results
  rw [e]
  show Ideal.div _ (broadcastInDim S1x5 ![] bcast_S_S1x5 (constant (F := Ideal) S_ .f32 0x49742400#32) (ix2 (0 : Fin 1) q)) = _
  rw [splat_apply]

theorem v8_at (q : Fin 5) :
    (W2 m ρ c (Proc.devRef .tc main_v8) : S1x5.Idx → EReal) (ix2 (0 : Fin 1) q)
      = cvar ((W1 m ρ c (Proc.devRef .tc main_v0_1) : S1x5.Idx → EReal) (ix2 (0 : Fin 1) q))
          ((W1 m ρ c (Proc.devRef .tc main_v0_0) : S1x5.Idx → EReal) (ix2 (0 : Fin 1) q)) (Ideal.ofBits .f32 0x49742400#32) := by
  have e : (W2 m ρ c (Proc.devRef .tc main_v8) : S1x5.Idx → EReal)
      = maximumf (subf (Host.divf (W1 m ρ c (Proc.devRef .tc main_v0_1)) (broadcastInDim S1x5 ![] bcast_S_S1x5 (constant (F := Ideal) S_ .f32 0x49742400#32)))
          (mulf (Host.divf (W1 m ρ c (Proc.devRef .tc main_v0_0)) (broadcastInDim S1x5 ![] bcast_S_S1x5 (constant (F := Ideal) S_ .f32 0x49742400#32)))
            (Host.divf (W1 m ρ c (Proc.devRef .tc main_v0_0)) (broadcastInDim S1x5 ![] bcast_S_S1x5 (constant (F := Ideal) S_ .f32 0x49742400#32)))))
        (broadcastInDim S1x5 ![] bcast_S_S1x5 (constant (F := Ideal) S_ .f32 0x00000000#32)) := by
    dsimp only [W2, hostOps1]; after_results
  rw [e]
  show max (Ideal.div _ (broadcastInDim S1x5 ![] bcast_S_S1x5 (constant (F := Ideal) S_ .f32 0x49742400#32) (ix2 (0 : Fin 1) q))
      - Ideal.div _ (broadcastInDim S1x5 ![] bcast_S_S1x5 (constant (F := Ideal) S_ .f32 0x49742400#32) (ix2 (0 : Fin 1) q))
        * Ideal.div _ (broadcastInDim S1x5 ![] bcast_S_S1x5 (constant (F := Ideal) S_ .f32 0x49742400#32) (ix2 (0 : Fin 1) q)))
      (broadcastInDim S1x5 ![] bcast_S_S1x5 (constant (F := Ideal) S_ .f32 0x00000000#32) (ix2 (0 : Fin 1) q)) = _
  simp only [splat_apply]
  rfl

theorem v11_at (q : Fin 1) :
    (W4 m ρ c (Proc.devRef .tc main_v11) : S1x1.Idx → EReal) (ix2 (0 : Fin 1) q)
      = Ideal.div ((W3 m ρ c (Proc.devRef .tc main_v9_0) : S1x1.Idx → EReal) (ix2 (0 : Fin 1) q)) (Ideal.ofBits .f32 0x49F42400#32) := by
  have e : (W4 m ρ c (Proc.devRef .tc main_v11) : S1x1.Idx → EReal)
      = Host.divf (W3 m ρ c (Proc.devRef .tc main_v9_0)) (broadcastInDim S1x1 ![] bcast_S_S1x1 (constant (F := Ideal) S_ .f32 0x49F42400#32)) := by
    dsimp only [W4, hostOps2]; after_results
  rw [e]
  show Ideal.div _ (broadcastInDim S1x1 ![] bcast_S_S1x1 (constant (F := Ideal) S_ .f32 0x49F42400#32) (ix2 (0 : Fin 1) q)) = _
  rw [splat_apply]

theorem v17_at (q : Fin 1) :
    (W4 m ρ c (Proc.devRef .tc main_v17) : S1x1.Idx → EReal) (ix2 (0 : Fin 1) q)
      = cvar ((W3 m ρ c (Proc.devRef .tc main_v9_1) : S1x1.Idx → EReal) (ix2 (0 : Fin 1) q))
          ((W3 m ρ c (Proc.devRef .tc main_v9_0) : S1x1.Idx → EReal) (ix2 (0 : Fin 1) q)) (Ideal.ofBits .f32 0x49F42400#32) := by
  have e : (W4 m ρ c (Proc.devRef .tc main_v17) : S1x1.Idx → EReal)
      = maximumf (subf (Host.divf (W3 m ρ c (Proc.devRef .tc main_v9_1)) (broadcastInDim S1x1 ![] bcast_S_S1x1 (constant (F := Ideal) S_ .f32 0x49F42400#32)))
          (mulf (Host.divf (W3 m ρ c (Proc.devRef .tc main_v9_0)) (broadcastInDim S1x1 ![] bcast_S_S1x1 (constant (F := Ideal) S_ .f32 0x49F42400#32)))
            (Host.divf (W3 m ρ c (Proc.devRef .tc main_v9_0)) (broadcastInDim S1x1 ![] bcast_S_S1x1 (constant (F := Ideal) S_ .f32 0x49F42400#32)))))
        (broadcastInDim S1x1 ![] bcast_S_S1x1 (constant (F := Ideal) S_ .f32 0x00000000#32)) := by
    dsimp only [W4, hostOps2]; after_results
  rw [e]
  show max (Ideal.div _ (broadcastInDim S1x1 ![] bcast_S_S1x1 (constant (F := Ideal) S_ .f32 0x49F42400#32) (ix2 (0 : Fin 1) q))
      - Ideal.div _ (broadcastInDim S1x1 ![] bcast_S_S1x1 (constant (F := Ideal) S_ .f32 0x49F42400#32) (ix2 (0 : Fin 1) q))
        * Ideal.div _ (broadcastInDim S1x1 ![] bcast_S_S1x1 (constant (F := Ideal) S_ .f32 0x49F42400#32) (ix2 (0 : Fin 1) q)))
      (broadcastInDim S1x1 ![] bcast_S_S1x1 (constant (F := Ideal) S_ .f32 0x00000000#32) (ix2 (0 : Fin 1) q)) = _
  simp only [splat_apply]
  rfl

theorem v18_at (q : Fin 1) :
    (W4 m ρ c (Proc.devRef .tc main_v18) : S1x1.Idx → EReal) (ix2 (0 : Fin 1) q) = (W3 m ρ c (Proc.devRef .tc main_arg6) : S1.Idx → EReal) (ix1 q) := by
  have e : (W4 m ρ c (Proc.devRef .tc main_v18) : S1x1.Idx → EReal) = shapeCast S1x1 (W3 m ρ c (Proc.devRef .tc main_arg6)) shapeCasts_S1_S1x1 := by
    dsimp only [W4, hostOps2]; after_results; rfl
  rw [e]
  exact shapeCast_a_1a_apply _ shapeCasts_S1_S1x1 (0 : Fin 1) q

theorem v19_at (q : Fin 1) :
    (W4 m ρ c (Proc.devRef .tc main_v19) : S1x1.Idx → EReal) (ix2 (0 : Fin 1) q) = (W3 m ρ c (Proc.devRef .tc main_arg7) : S1.Idx → EReal) (ix1 q) := by
  have e : (W4 m ρ c (Proc.devRef .tc main_v19) : S1x1.Idx → EReal) = shapeCast S1x1 (W3 m ρ c (Proc.devRef .tc main_arg7)) shapeCasts_S1_S1x1 := by
    dsimp only [W4, hostOps2]; after_results; rfl
  rw [e]
  exact shapeCast_a_1a_apply _ shapeCasts_S1_S1x1 (0 : Fin 1) q

theorem v26_at (q : Fin 5) :
    (W6 m ρ c (Proc.devRef .tc main_v26) : S1x5.Idx → EReal) (ix2 (0 : Fin 1) q) = (W5 m ρ c (Proc.devRef .tc main_arg4) : S5.Idx → EReal) (ix1 q) := by
  have e : (W6 m ρ c (Proc.devRef .tc main_v26) : S1x5.Idx → EReal) = shapeCast S1x5 (W5 m ρ c (Proc.devRef .tc main_arg4)) shapeCasts_S5_S1x5 := by
    dsimp only [W6, hostOps3]; after_results; rfl
  rw [e]
  exact shapeCast_a_1a_apply _ shapeCasts_S5_S1x5 (0 : Fin 1) q

theorem v27_at (q : Fin 5) :
    (W6 m ρ c (Proc.devRef .tc main_v27) : S1x5.Idx → EReal) (ix2 (0 : Fin 1) q) = (W5 m ρ c (Proc.devRef .tc main_arg5) : S5.Idx → EReal) (ix1 q) := by
  have e : (W6 m ρ c (Proc.devRef .tc main_v27) : S1x5.Idx → EReal) = shapeCast S1x5 (W5 m ρ c (Proc.devRef .tc main_arg5)) shapeCasts_S5_S1x5 := by
    dsimp only [W6, hostOps3]; after_results; rfl
  rw [e]
  exact shapeCast_a_1a_apply _ shapeCasts_S5_S1x5 (0 : Fin 1) q

theorem v28_at (q : Fin 110) :
    (W6 m ρ c (Proc.devRef .tc main_v28) : S1x110.Idx → EReal) (ix2 (0 : Fin 1) q) = (W5 m ρ c (Proc.devRef .tc main_arg9) : S110.Idx → EReal) (ix1 q) := by
  have e : (W6 m ρ c (Proc.devRef .tc main_v28) : S1x110.Idx → EReal) = shapeCast S1x110 (W5 m ρ c (Proc.devRef .tc main_arg9)) shapeCasts_S110_S1x110 := by
    dsimp only [W6, hostOps3]; after_results; rfl
  rw [e]
  exact shapeCast_a_1a_apply _ shapeCasts_S110_S1x110 (0 : Fin 1) q

theorem v29_at (q : Fin 5) :
    (W6 m ρ c (Proc.devRef .tc main_v29) : S1x5.Idx → EReal) (ix2 (0 : Fin 1) q) = (W5 m ρ c (Proc.devRef .tc main_arg12) : S5.Idx → EReal) (ix1 q) := by
  have e : (W6 m ρ c (Proc.devRef .tc main_v29) : S1x5.Idx → EReal) = shapeCast S1x5 (W5 m ρ c (Proc.devRef .tc main_arg12)) shapeCasts_S5_S1x5 := by
    dsimp only [W6, hostOps3]; after_results; rfl
  rw [e]
  exact shapeCast_a_1a_apply _ shapeCasts_S5_S1x5 (0 : Fin 1) q

theorem v30_at (q : Fin 5) :
    (W6 m ρ c (Proc.devRef .tc main_v30) : S1x5.Idx → EReal) (ix2 (0 : Fin 1) q) = (W5 m ρ c (Proc.devRef .tc main_arg14) : S5.Idx → EReal) (ix1 q) := by
  have e : (W6 m ρ c (Proc.devRef .tc main_v30) : S1x5.Idx → EReal) = shapeCast S1x5 (W5 m ρ c (Proc.devRef .tc main_arg14)) shapeCasts_S5_S1x5 := by
    dsimp only [W6, hostOps3]; after_results; rfl
  rw [e]
  exact shapeCast_a_1a_apply _ shapeCasts_S5_S1x5 (0 : Fin 1) q

/-- The aggregated edge messages: the normalised edge attributes summed into their destination nodes. -/
theorem v25_eq :
    (W6 m ρ c (Proc.devRef .tc main_v25) : S1000000x1.Idx → EReal)
      = Host.scatterAdd scatter_S1000000x1_S2000000x1_S2000000x1_1_0_0_1
          (broadcastInDim S1000000x1 ![] bcast_S_S1000000x1 (constant (F := Ideal) S_ .f32 0x00000000#32))
          (broadcastInDim S2000000x1 ![0] bcast_S2000000_S2000000x1_0
            (shapeCast S2000000 (extractStridedSlice S1x2000000 ![1, 0] (W5 m ρ c (Proc.devRef .tc main_arg3)) slices_S2x2000000_S1x2000000_1_0)
              shapeCasts_S1x2000000_S2000000))
          (W5 m ρ c (Proc.devRef .tc main_v20)) := by
  dsimp only [W6, hostOps3]; after_results; rfl

/-- The pooled result: the node outputs summed into their graphs. -/
theorem v34_eq :
    (W8 m ρ c (Proc.devRef .tc main_v34) : S50000x5.Idx → EReal)
      = Host.scatterAdd scatter_S50000x5_S1000000x1_S1000000x5_1_0_0_1
          (broadcastInDim S50000x5 ![] bcast_S_S50000x5 (constant (F := Ideal) S_ .f32 0x00000000#32))
          (broadcastInDim S1000000x1 ![0] bcast_S1000000_S1000000x1_0 (W7 m ρ c (Proc.devRef .tc main_arg2)))
          (W7 m ρ c (Proc.devRef .tc main_v31)) := by
  dsimp only [W8, hostOps4]; after_results

end Cert.KernelIdeal.Whole

end
-- ==== Proof.NodeSpec.lean ====
/-
  The node-level arithmetic of the graph readout, on the extended reals, as plain scalar functions: one normalised
  feature, one hidden unit of the message-passing layer, one unit of the first readout layer under the
  x · logistic x gate, and one output of the second readout layer. Both programs are read against these.
-/
import Idealize.ShloMosaic.PureOps.Ideal
import Mathlib

noncomputable section

namespace Cert.NodeSpec

open Idealize.ShloMosaic

/-- A feature normalised by a mean and a variance (the variance offset is the shared single-precision literal),
    scaled and shifted: ((x − μ) · (σ² + ε)^(−1/2)) · γ + β. -/
def bn (x mu var g b : EReal) : EReal := ((x - mu) * Ideal.rsqrt (var + Ideal.ofBits .f32 0x3727C5AC#32)) * g + b

/-- Hidden unit `e` of a node: its normalised features against column `e` of the node weights, the bias, and the
    node's aggregated edge message against the edge weight (a contraction over one coordinate). -/
def hid (xb : Fin 5 → EReal) (msg : EReal) (Wg : Fin 5 → Fin 110 → EReal) (bg : Fin 110 → EReal) (We : Fin 110 → EReal)
    (e : Fin 110) : EReal :=
  ((∑ k : Fin 5, xb k * Wg k e) + bg e) + (∑ _k : Fin 1, msg * We e)

/-- Unit `j` of the first readout layer under the gate r · logistic r. -/
def act (h : Fin 110 → EReal) (W1 : Fin 110 → Fin 5 → EReal) (b1 : Fin 5 → EReal) (j : Fin 5) : EReal :=
  ((∑ e : Fin 110, h e * W1 e j) + b1 j) * Ideal.logistic ((∑ e : Fin 110, h e * W1 e j) + b1 j)

/-- Output `q` of the second readout layer. -/
def outp (s : Fin 5 → EReal) (W2 : Fin 5 → Fin 5 → EReal) (b2 : Fin 5 → EReal) (q : Fin 5) : EReal :=
  (∑ j : Fin 5, s j * W2 j q) + b2 q

end Cert.NodeSpec

end
-- ==== Proof.LibSilu.lean ====
/-
  `silu z = z · 1 / (1 + e^{-z})` on the extended reals, in the two spellings programs use.

  * A kernel's vector unit multiplies a vector by its logistic, entry by entry: entry `i` of `x · logistic x` is
    `x i · logistic (x i)` (`vector_form`).
  * The host expands the logistic into negate, exponential, add and divide, and writes the number one as the
    f32 literal `0x3F800000`: `z · (one / (one + exp (−z)))` is `z · logistic z` (`host_spelling`), since that
    literal is the number one and the host's negation, exponential, sum and quotient are the extended reals'.
  Both hold at every extended real, the infinities included.
-/
import Idealize.ShloMosaic.PureOps.Ideal
import Idealize.ShloMosaic.Lib.IdealHost

noncomputable section

namespace Cert.LibSilu

open Idealize.ShloMosaic

/-- The vector unit's `x · logistic x` at entry `i`. -/
theorem vector_form {s : Shape} (x : FVec Ideal s .f32) (i : s.Idx) :
    mulf x (logistic x) i = x i * Ideal.logistic (x i) := rfl

/-- The host's `z · (one / (one + exp (−z)))`, with both ones the f32 literal for one. -/
theorem host_spelling (z : Ideal .f32) :
    FloatOps.mulf z (FloatOps.hostDivf (FloatOps.ofBits .f32 0x3F800000#32)
      (FloatOps.addf (FloatOps.ofBits .f32 0x3F800000#32) (FloatOps.hostUnary .exp (FloatOps.hostNegf z))))
      = z * Ideal.logistic z := by
  show z * Ideal.div (Ideal.ofBits .f32 0x3F800000#32) (Ideal.ofBits .f32 0x3F800000#32 + Ideal.exp (-z))
    = z * Ideal.div 1 (1 + Ideal.exp (-z))
  rw [Ideal.ofBits_one_f32]

end Cert.LibSilu

end
-- ==== Proof.RefNode.lean ====
/-
  The reference program read at a node. Its batch statistics are the column mean and the mean squared deviation about
  it; a normalised feature, a hidden unit, a gated readout unit and an output of a node are the scalar functions of
  the node specification, applied to the node's row, the column statistics and the weights.
-/
import proofs.«155275_j36498632081408_2_alg».proof.Proof.Gen.ReferenceIdeal.Read
import proofs.«155275_j36498632081408_2_alg».proof.Proof.NodeSpec
import Idealize.ShloMosaic.Lib.ValueIdx
import proofs.«155275_j36498632081408_2_alg».proof.Proof.LibSilu

noncomputable section

namespace Cert.ReferenceIdeal.Node

open Cert.ReferenceIdeal Cert.ReferenceIdeal.Gen Cert.ReferenceIdeal.Read Idealize.ShloMosaic Idealize.ShloMosaic.ValueIdx Cert.NodeSpec

/-- Two index functions of small rank agree: coordinate by coordinate. -/
local macro "idx" : tactic => `(tactic| first
  | rfl
  | (funext a; apply Fin.ext; match a with | ⟨0, _⟩ => rfl))

/-- The same for indices of rank two. -/
local macro "idx2" : tactic => `(tactic| first
  | rfl
  | (funext a; apply Fin.ext; match a with | ⟨0, _⟩ => rfl | ⟨1, _⟩ => rfl))

/-- An array of single-precision numbers at the ideal instance. -/
abbrev Arr (s : Shape) : Type := (⟨s, .f32⟩ : BufTy).Contents (Elt Ideal)

/-- The reference's mean of feature column `k` over the million nodes. -/
def muX (x0 : Arr S1000000x5) (k : Fin 5) : EReal :=
  Ideal.div (Ideal.ofBits .f32 0x00000000#32 + ∑ r : Fin 1000000, x0 (ix2 r k)) (Ideal.ofBits .f32 0x49742400#32)

/-- The reference's variance of feature column `k`: the mean squared deviation about the column mean. -/
def varX (x0 : Arr S1000000x5) (k : Fin 5) : EReal :=
  Ideal.div (Ideal.ofBits .f32 0x00000000#32
      + ∑ r : Fin 1000000, (x0 (ix2 r k) - muX x0 k) * (x0 (ix2 r k) - muX x0 k)) (Ideal.ofBits .f32 0x49742400#32)

/-- The reference's mean of the edge attribute over the two million edges. -/
def muE (x1 : Arr S2000000x1) : EReal :=
  Ideal.div (Ideal.ofBits .f32 0x00000000#32 + ∑ r : Fin 2000000, x1 (ix2 r (0 : Fin 1))) (Ideal.ofBits .f32 0x49F42400#32)

/-- The reference's variance of the edge attribute. -/
def varE (x1 : Arr S2000000x1) : EReal :=
  Ideal.div (Ideal.ofBits .f32 0x00000000#32
      + ∑ r : Fin 2000000, (x1 (ix2 r (0 : Fin 1)) - muE x1) * (x1 (ix2 r (0 : Fin 1)) - muE x1)) (Ideal.ofBits .f32 0x49F42400#32)

theorem mean_x (x0 : Arr S1000000x5) (k : Fin 5) : val_main_v2 (F := Ideal) x0 (ix1 k) = muX x0 k := by
  rw [val_main_v2_apply, val_main_v0_apply, val_main_v1_apply]
  unfold muX
  refine congrArg₂ Ideal.div (congrArg (_ + ·) (Finset.sum_congr rfl fun r _ => congrArg x0 (by idx2))) rfl

theorem dev_x (x0 : Arr S1000000x5) (r : Fin 1000000) (k : Fin 5) :
    val_main_v5 (F := Ideal) x0 (ix2 r k) = x0 (ix2 r k) - muX x0 k := by
  rw [val_main_v5_apply, val_main_v4_apply, val_main_v3_apply]
  refine congrArg (x0 (ix2 r k) - ·) ?_
  exact (congrArg (val_main_v2 (F := Ideal) x0) (by idx)).trans (mean_x x0 k)

theorem var_x (x0 : Arr S1000000x5) (k : Fin 5) : val_main_v9 (F := Ideal) x0 (ix1 k) = varX x0 k := by
  rw [val_main_v9_apply, val_main_v7_apply, val_main_v8_apply]
  unfold varX
  refine congrArg₂ Ideal.div (congrArg (_ + ·) (Finset.sum_congr rfl fun r _ => ?_)) rfl
  rw [val_main_v6_apply]
  have e : idx_main_v7 (ix1 k) r = ix2 r k := by idx2
  rw [e, dev_x]
  rfl

theorem xb (x0 : Arr S1000000x5) (x4 x5 : Arr S5) (i : Fin 1000000) (k : Fin 5) :
    val_main_v24 (F := Ideal) x0 x4 x5 (ix2 i k)
      = bn (x0 (ix2 i k)) (muX x0 k) (varX x0 k) (x4 (ix1 k)) (x5 (ix1 k)) := by
  rw [val_main_v24_apply, val_main_v21_apply, val_main_v18_apply, val_main_v12_apply, val_main_v11_apply,
    val_main_v10_apply, val_main_v17_apply, val_main_v16_apply, val_main_v15_apply, val_main_v14_apply,
    val_main_v13_apply, val_main_v20_apply, val_main_v19_apply, val_main_v23_apply, val_main_v22_apply]
  have e1 : idx_main_v10 (idx_main_v11 (ix2 i k)) = ix1 k := by idx
  have e2 : idx_main_v16 (idx_main_v17 (ix2 i k)) = ix1 k := by idx
  have e3 : idx_main_v19 (idx_main_v20 (ix2 i k)) = ix1 k := by idx
  have e4 : idx_main_v22 (idx_main_v23 (ix2 i k)) = ix1 k := by idx
  rw [e1, e2, e3, e4, mean_x, var_x]
  rfl

section Node

variable (x0 : Arr S1000000x5) (x1 : Arr S2000000x1) (x3 : (⟨S2x2000000, .i32⟩ : BufTy).Contents (Elt Ideal))
  (x4 x5 : Arr S5) (x6 x7 : Arr S1) (x8 : Arr S5x110) (x9 : Arr S110) (x10 : Arr S1x110) (x11 : Arr S110x5)
  (x12 : Arr S5) (x13 : Arr S5x5) (x14 : Arr S5)

theorem mean_e : val_main_v27 (F := Ideal) x1 (ix1 (0 : Fin 1)) = muE x1 := by
  rw [val_main_v27_apply, val_main_v25_apply, val_main_v26_apply]
  unfold muE
  refine congrArg₂ Ideal.div (congrArg (_ + ·) (Finset.sum_congr rfl fun r _ => congrArg x1 (by idx2))) rfl

theorem dev_e (r : Fin 2000000) :
    val_main_v30 (F := Ideal) x1 (ix2 r (0 : Fin 1)) = x1 (ix2 r (0 : Fin 1)) - muE x1 := by
  rw [val_main_v30_apply, val_main_v29_apply, val_main_v28_apply]
  refine congrArg (x1 (ix2 r (0 : Fin 1)) - ·) ?_
  exact (congrArg (val_main_v27 (F := Ideal) x1) (by idx)).trans (mean_e x1)

theorem var_e : val_main_v34 (F := Ideal) x1 (ix1 (0 : Fin 1)) = varE x1 := by
  rw [val_main_v34_apply, val_main_v32_apply, val_main_v33_apply]
  unfold varE
  refine congrArg₂ Ideal.div (congrArg (_ + ·) (Finset.sum_congr rfl fun r _ => ?_)) rfl
  rw [val_main_v31_apply]
  have e : idx_main_v32 (ix1 (0 : Fin 1)) r = ix2 r (0 : Fin 1) := by idx2
  rw [e, dev_e]
  rfl

/-- A normalised edge attribute of the reference. -/
theorem eb (i : Fin 2000000) :
    val_main_v49 (F := Ideal) x1 x6 x7 (ix2 i (0 : Fin 1))
      = bn (x1 (ix2 i (0 : Fin 1))) (muE x1) (varE x1) (x6 (ix1 (0 : Fin 1))) (x7 (ix1 (0 : Fin 1))) := by
  rw [val_main_v49_apply, val_main_v46_apply, val_main_v43_apply, val_main_v37_apply, val_main_v36_apply,
    val_main_v35_apply, val_main_v42_apply, val_main_v41_apply, val_main_v40_apply, val_main_v39_apply,
    val_main_v38_apply, val_main_v45_apply, val_main_v44_apply, val_main_v48_apply, val_main_v47_apply]
  have e1 : idx_main_v35 (idx_main_v36 (ix2 i (0 : Fin 1))) = ix1 (0 : Fin 1) := by idx
  have e2 : idx_main_v41 (idx_main_v42 (ix2 i (0 : Fin 1))) = ix1 (0 : Fin 1) := by idx
  have e3 : idx_main_v44 (idx_main_v45 (ix2 i (0 : Fin 1))) = ix1 (0 : Fin 1) := by idx
  have e4 : idx_main_v47 (idx_main_v48 (ix2 i (0 : Fin 1))) = ix1 (0 : Fin 1) := by idx
  rw [e1, e2, e3, e4, mean_e, var_e]
  rfl

/-- A hidden unit of a node in the reference: the specification's, over the node's normalised row and its
    aggregated message. -/
theorem hidden (i : Fin 1000000) (e : Fin 110) :
    val_main_v60 (F := Ideal) x0 x1 x3 x4 x5 x6 x7 x8 x9 x10 (ix2 i e)
      = hid (fun k => bn (x0 (ix2 i k)) (muX x0 k) (varX x0 k) (x4 (ix1 k)) (x5 (ix1 k)))
          (val_main_v58 (F := Ideal) x1 x3 x6 x7 (ix2 i (0 : Fin 1)))
          (fun k e => x8 (ix2 k e)) (fun e => x9 (ix1 e)) (fun e => x10 (ix2 (0 : Fin 1) e)) e := by
  rw [val_main_v60_apply, val_main_v53_apply, val_main_v50_apply, val_main_v52_apply, val_main_v51_apply,
    val_main_v59_apply]
  unfold hid
  refine congrArg₂ (· + ·) (congrArg₂ (· + ·) (Finset.sum_congr rfl fun k _ => ?_) ?_)
    (Finset.sum_congr rfl fun k _ => ?_)
  · have e1 : lidx_main_v50 (ix2 i e) k = ix2 i k := by idx2
    have e2 : ridx_main_v50 (ix2 i e) k = ix2 k e := by idx2
    rw [e1, e2, xb]
  · exact congrArg x9 (by idx)
  · obtain rfl : k = 0 := Subsingleton.elim k 0
    have e1 : lidx_main_v59 (ix2 i e) (0 : Fin 1) = ix2 i (0 : Fin 1) := by idx2
    have e2 : ridx_main_v59 (ix2 i e) (0 : Fin 1) = ix2 (0 : Fin 1) e := by idx2
    rw [e1, e2]

/-- The first readout layer at a node, before the gate. -/
theorem pre_gate (i : Fin 1000000) (j : Fin 5) :
    val_main_v64 (F := Ideal) x0 x1 x3 x4 x5 x6 x7 x8 x9 x10 x11 x12 (ix2 i j)
      = (∑ e : Fin 110, val_main_v60 (F := Ideal) x0 x1 x3 x4 x5 x6 x7 x8 x9 x10 (ix2 i e) * x11 (ix2 e j)) + x12 (ix1 j) := by
  rw [val_main_v64_apply, val_main_v61_apply, val_main_v63_apply, val_main_v62_apply]
  refine congrArg₂ (· + ·) (Finset.sum_congr rfl fun k _ => ?_) (congrArg x12 (by idx))
  have e1 : lidx_main_v61 (ix2 i j) k = ix2 i k := by idx2
  have e2 : ridx_main_v61 (ix2 i j) k = ix2 k j := by idx2
  rw [e1, e2]

/-- A gated readout unit of a node in the reference. -/
theorem gated (i : Fin 1000000) (j : Fin 5) :
    val_main_v71 (F := Ideal) x0 x1 x3 x4 x5 x6 x7 x8 x9 x10 x11 x12 (ix2 i j)
      = act (fun e => val_main_v60 (F := Ideal) x0 x1 x3 x4 x5 x6 x7 x8 x9 x10 (ix2 i e)) (fun e j => x11 (ix2 e j)) (fun j => x12 (ix1 j)) j := by
  rw [val_main_v71_apply, val_main_v70_apply, val_main_v68_apply, val_main_v66_apply, val_main_v65_apply,
    val_main_v69_apply, val_main_v67_apply, pre_gate]
  unfold act
  exact Cert.LibSilu.host_spelling _

/-- An output of a node in the reference. -/
theorem out (i : Fin 1000000) (q : Fin 5) :
    val_main_v75 (F := Ideal) x0 x1 x3 x4 x5 x6 x7 x8 x9 x10 x11 x12 x13 x14 (ix2 i q)
      = outp (fun j => val_main_v71 (F := Ideal) x0 x1 x3 x4 x5 x6 x7 x8 x9 x10 x11 x12 (ix2 i j)) (fun j q => x13 (ix2 j q))
          (fun q => x14 (ix1 q)) q := by
  rw [val_main_v75_apply, val_main_v72_apply, val_main_v74_apply, val_main_v73_apply]
  unfold outp
  refine congrArg₂ (· + ·) (Finset.sum_congr rfl fun k _ => ?_) (congrArg x14 (by idx))
  have e1 : lidx_main_v72 (ix2 i q) k = ix2 i k := by idx2
  have e2 : ridx_main_v72 (ix2 i q) k = ix2 k q := by idx2
  rw [e1, e2]

/-- The reference's value at node `i`, output `q`, before the pooling: the node specification composed. -/
theorem node (i : Fin 1000000) (q : Fin 5) :
    val_main_v75 (F := Ideal) x0 x1 x3 x4 x5 x6 x7 x8 x9 x10 x11 x12 x13 x14 (ix2 i q)
      = outp (fun j => act (fun e => hid (fun k => bn (x0 (ix2 i k)) (muX x0 k) (varX x0 k) (x4 (ix1 k)) (x5 (ix1 k)))
            (val_main_v58 (F := Ideal) x1 x3 x6 x7 (ix2 i (0 : Fin 1)))
            (fun k e => x8 (ix2 k e)) (fun e => x9 (ix1 e)) (fun e => x10 (ix2 (0 : Fin 1) e)) e)
          (fun e j => x11 (ix2 e j)) (fun j => x12 (ix1 j)) j)
        (fun j q => x13 (ix2 j q)) (fun q => x14 (ix1 q)) q :=
  (out x0 x1 x3 x4 x5 x6 x7 x8 x9 x10 x11 x12 x13 x14 i q).trans
    (congrArg (fun s => outp s (fun j q => x13 (ix2 j q)) (fun q => x14 (ix1 q)) q)
      (funext fun j => (gated x0 x1 x3 x4 x5 x6 x7 x8 x9 x10 x11 x12 i j).trans
        (congrArg (fun h => act h (fun e j => x11 (ix2 e j)) (fun j => x12 (ix1 j)) j)
          (funext fun e => hidden x0 x1 x3 x4 x5 x6 x7 x8 x9 x10 i e))))

end Node

end Cert.ReferenceIdeal.Node

end
-- ==== Proof.Consts.lean ====
/-
  The single-precision literals the two programs share, as the extended reals their bit patterns denote: zero, the
  two population sizes 1 000 000 and 2 000 000 by which the column sums are divided. (The variance offset is never
  evaluated: the same word stands on both sides.)
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern 0x49742400 denotes the real 1 000 000. -/
theorem ofBits_million : Ideal.ofBits .f32 0x49742400#32 = ((1000000 : ℝ) : EReal) := by
  simp [Ideal.ofBits, Ideal.ieee, -EReal.coe_mul]; norm_num

/-- The pattern 0x49F42400 denotes the real 2 000 000. -/
theorem ofBits_two_million : Ideal.ofBits .f32 0x49F42400#32 = ((2000000 : ℝ) : EReal) := by
  simp [Ideal.ofBits, Ideal.ieee, -EReal.coe_mul]; norm_num

end Cert.Consts

end
-- ==== Proof.StatsMath.lean ====
/-
  The one law that joins the two spellings of a batch variance. For finitely many REAL samples x_i, with mean
  μ = (∑ x_i)/N, the mean of squares minus the squared mean, (∑ x_i²)/N − μ², equals the mean squared deviation
  (∑ (x_i − μ)²)/N; the latter is nonnegative, so clamping the former at zero changes nothing. On the extended
  reals the law needs the samples to be real: the proof chooses real witnesses and works in ℝ.
-/
import Idealize.ShloMosaic.PureOps.Ideal
import Mathlib

noncomputable section

namespace Cert.StatsMath

open Idealize.ShloMosaic

/-- A finite sum of coerced reals is the coercion of the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The real identity: ∑ (f_i − S/N)² = ∑ f_i² − S²/N when N is the number of samples. -/
theorem sum_sq_dev {n : ℕ} (N : ℝ) (hN : N = (n : ℝ)) (hn : N ≠ 0) (f : Fin n → ℝ) :
    ∑ i, (f i - (∑ j, f j) / N) * (f i - (∑ j, f j) / N) = (∑ i, f i * f i) - (∑ j, f j) * (∑ j, f j) / N := by
  have h : ∀ i, (f i - (∑ j, f j) / N) * (f i - (∑ j, f j) / N)
      = f i * f i - 2 * ((∑ j, f j) / N) * f i + ((∑ j, f j) / N) * ((∑ j, f j) / N) := fun i => by ring
  simp only [h, Finset.sum_add_distrib, Finset.sum_sub_distrib, ← Finset.mul_sum, Finset.sum_const,
    Finset.card_univ, Fintype.card_fin, nsmul_eq_mul, ← hN]
  field_simp
  ring

/-- The variance law on the extended reals, for real samples: clamp(mean of squares − mean², 0) is the mean squared
    deviation about the mean. `N` is the population size as a real. -/
theorem variance_forms {n : ℕ} (N : ℝ) (hN : N = (n : ℝ)) (hn : N ≠ 0) (x : Fin n → EReal)
    (hx : ∀ i, ∃ r : ℝ, x i = (r : EReal)) :
    max (Ideal.div (∑ i, x i * x i) (N : EReal)
          - Ideal.div (∑ i, x i) (N : EReal) * Ideal.div (∑ i, x i) (N : EReal)) 0
      = Ideal.div (∑ i, (x i - Ideal.div (∑ j, x j) (N : EReal)) * (x i - Ideal.div (∑ j, x j) (N : EReal))) (N : EReal) := by
  choose f hf using hx
  have hxf : x = fun i => ((f i : ℝ) : EReal) := funext hf
  subst hxf
  simp only [Ideal.div_coe hn, ← EReal.coe_mul, coe_sum, ← EReal.coe_sub]
  have hdev : ∑ i, (f i - (∑ j, f j) * (1 / N)) * (f i - (∑ j, f j) * (1 / N))
      = (∑ i, f i * f i) - (∑ j, f j) * (∑ j, f j) / N := by
    have := sum_sq_dev N hN hn f
    simpa [div_eq_mul_inv] using this
  rw [hdev]
  have hge : 0 ≤ ((∑ i, f i * f i) - (∑ j, f j) * (∑ j, f j) / N) * (1 / N) := by
    rw [← hdev]
    have hNpos : 0 < N := by
      rcases Nat.eq_zero_or_pos n with h0 | hp
      · exact absurd (by rw [hN, h0]; simp) hn
      · rw [hN]; exact_mod_cast hp
    exact mul_nonneg (Finset.sum_nonneg fun i _ => mul_self_nonneg _) (by positivity)
  have heq : (∑ i, f i * f i) * (1 / N) - (∑ j, f j) * (1 / N) * ((∑ j, f j) * (1 / N))
      = ((∑ i, f i * f i) - (∑ j, f j) * (∑ j, f j) / N) * (1 / N) := by
    field_simp
  rw [heq]
  exact max_eq_left (by exact_mod_cast hge)

end Cert.StatsMath

end
-- ==== Proof.KStats.lean ====
/-
  The kernel's batch statistics are the reference's. The kernel accumulates a column's sum and sum of squares and
  forms mean = sum / N and variance = max(sum of squares / N − mean², 0); the reference forms the mean and the mean
  squared deviation about it. For real samples the two variances agree (the variance law), and the means agree
  outright. Stated once for the node features (N = 1 000 000, five columns) and once for the edge attribute
  (N = 2 000 000, one column), from the two column sums the statistics regions leave.
-/
import proofs.«155275_j36498632081408_2_alg».proof.Proof.KFold
import proofs.«155275_j36498632081408_2_alg».proof.Proof.RefNode
import proofs.«155275_j36498632081408_2_alg».proof.Proof.Consts
import proofs.«155275_j36498632081408_2_alg».proof.Proof.StatsMath

noncomputable section

namespace Cert.KernelIdeal.Whole

open Idealize.ShloMosaic Idealize.ShloMosaic.ValueIdx
open Cert.ReferenceIdeal.Node

/-- Mean and clamped variance from a column's sum and sum of squares are the reference's mean and variance of the
    column, for a million real samples. -/
theorem stats_million (x : Fin 1000000 → EReal) (hx : ∀ i, ∃ r : ℝ, x i = (r : EReal)) :
    Ideal.div (∑ i, x i) (Ideal.ofBits .f32 0x49742400#32)
        = Ideal.div (Ideal.ofBits .f32 0x00000000#32 + ∑ i, x i) (Ideal.ofBits .f32 0x49742400#32)
      ∧ cvar (∑ i, x i * x i) (∑ i, x i) (Ideal.ofBits .f32 0x49742400#32)
        = Ideal.div (Ideal.ofBits .f32 0x00000000#32
            + ∑ i, (x i - Ideal.div (Ideal.ofBits .f32 0x00000000#32 + ∑ j, x j) (Ideal.ofBits .f32 0x49742400#32))
                * (x i - Ideal.div (Ideal.ofBits .f32 0x00000000#32 + ∑ j, x j) (Ideal.ofBits .f32 0x49742400#32)))
            (Ideal.ofBits .f32 0x49742400#32) := by
  unfold cvar
  simp only [Cert.Consts.ofBits_zero, zero_add, Cert.Consts.ofBits_million]
  exact ⟨trivial, Cert.StatsMath.variance_forms (n := 1000000) 1000000 (by norm_num) (by norm_num) x hx⟩

/-- The same for two million real samples. -/
theorem stats_two_million (x : Fin 2000000 → EReal) (hx : ∀ i, ∃ r : ℝ, x i = (r : EReal)) :
    Ideal.div (∑ i, x i) (Ideal.ofBits .f32 0x49F42400#32)
        = Ideal.div (Ideal.ofBits .f32 0x00000000#32 + ∑ i, x i) (Ideal.ofBits .f32 0x49F42400#32)
      ∧ cvar (∑ i, x i * x i) (∑ i, x i) (Ideal.ofBits .f32 0x49F42400#32)
        = Ideal.div (Ideal.ofBits .f32 0x00000000#32
            + ∑ i, (x i - Ideal.div (Ideal.ofBits .f32 0x00000000#32 + ∑ j, x j) (Ideal.ofBits .f32 0x49F42400#32))
                * (x i - Ideal.div (Ideal.ofBits .f32 0x00000000#32 + ∑ j, x j) (Ideal.ofBits .f32 0x49F42400#32)))
            (Ideal.ofBits .f32 0x49F42400#32) := by
  unfold cvar
  simp only [Cert.Consts.ofBits_zero, zero_add, Cert.Consts.ofBits_two_million]
  exact ⟨trivial, Cert.StatsMath.variance_forms (n := 2000000) 2000000 (by norm_num) (by norm_num) x hx⟩

end Cert.KernelIdeal.Whole

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.LibMinAxis.lean ====
/-
  Minima and sums along one axis of an array of extended reals, read at an index written by its coordinates.

  A minimum taken along one axis, started from a given value, is the fold of `min` from that value over the axis's
  coordinates; started from the top element it is the infimum.  This is proved for the host's reduction of a rank-3 array
  along its last or its middle axis, and for a vector reduction along any one axis; the sum of a matrix along its first
  axis is the sum over the row coordinate.  Last, the infimum of a function over the first `(j + 1) * w` indices is the
  smaller of its infimum over the first `j * w` and its infimum over the next run of `w`.
-/
import Idealize.ShloMosaic.PureOps.Ideal
import Idealize.ShloMosaic.PureOps.Ideal.Laws
import Idealize.ShloMosaic.PureOps.Reduce
import Idealize.ShloMosaic.Lib.ValueIdx

noncomputable section

namespace Idealize.ShloMosaic.MinAxis

open Idealize.ShloMosaic Idealize.ShloMosaic.ValueIdx

/-! ## The index with the reduced coordinate inserted -/

section Lift
variable {a b c : ℕ}

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

end Lift

/-! ## The host's minimum along one axis of a rank-3 array -/

section Host
variable {a b c : ℕ} {φ : FTy}

/-- The host's minimum along the last axis, at `(i, j)`: the fold of `min` from the initial value over `k`. -/
theorem hostReduce_min_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.minimumf (F := Ideal) (φ := φ)) x init h' hu (ix2 i j)
      = (Finset.univ : Finset (Fin c)).fold min (init (Shape.Idx.first hu)) fun k => x (ix3 i j k) := by
  refine (Host.reduce_eq_fold_single (FloatOps.minimumf (F := Ideal) (φ := φ)) x init h' h hu (ix2 i j)).trans ?_
  refine congrArg (Finset.fold min (init (Shape.Idx.first hu)) · Finset.univ) (funext fun k => ?_)
  exact congrArg x (lift_last h i j k)

/-- The host's minimum along the middle axis, at `(i, k)`: the fold of `min` from the initial value over `j`. -/
theorem hostReduce_min_middle {u : Shape} (x : (⟨3, ![a, b, c]⟩ : Shape).Idx → Ideal φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce (FloatOps.minimumf (F := Ideal) (φ := φ)) x init h' hu (ix2 i k)
      = (Finset.univ : Finset (Fin b)).fold min (init (Shape.Idx.first hu)) fun j => x (ix3 i j k) := by
  refine (Host.reduce_eq_fold_single (FloatOps.minimumf (F := Ideal) (φ := φ)) x init h' h hu (ix2 i k)).trans ?_
  refine congrArg (Finset.fold min (init (Shape.Idx.first hu)) · Finset.univ) (funext fun j => ?_)
  exact congrArg x (lift_middle h i j k)

end Host

/-- A fold of `min` from the top of the extended reals is the infimum. -/
theorem fold_min_top {ι : Type} (s : Finset ι) (f : ι → EReal) : s.fold min ⊤ f = s.inf f := rfl

/-! ## A vector reduction along one axis -/

/-- A vector minimum along one axis, read on the extended reals: the fold of `min` from the accumulator's value over
    that axis's coordinates. -/
theorem min_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum of a `[b, a]` matrix along its first axis, read at lane `q` on the extended reals, is the sum over the
    row coordinate of that lane's entries (the accumulator word is the neutral one, zero). -/
theorem sum_first_apply {a b : ℕ} (x : FVec Ideal ⟨2, ![b, a]⟩ .f32) (h : (⟨2, ![b, a]⟩ : Shape).Reduces [0] ⟨1, ![a]⟩)
    (hφ : FKind.Formats .f32) (hacc : (0x00000000#32 : BitVec 32) = FKind.add.neutral .f32 hφ) (q : Fin a) :
    multiReduction .add [0] ⟨1, ![a]⟩ x 0x00000000#32 h hφ hacc (ix1 q) = ∑ d : Fin b, x (ix2 d q) := by
  refine (Ideal.multiReduction_add_single x 0x00000000#32 h hφ hacc (ix1 q)).trans ?_
  show ∑ d : Fin b, x (h.lift (ix1 q) d) = ∑ d : Fin b, x (ix2 d q)
  refine Finset.sum_congr rfl fun d _ => congrArg x (funext fun c => Fin.ext ?_)
  match c with
  | ⟨0, _⟩ => rfl
  | ⟨1, _⟩ => rfl

/-! ## An infimum over the indices below a bound, one run of `w` at a time -/

section Runs
variable {N w : ℕ}

/-- Below zero there is no index: the infimum is the top. -/
theorem inf_below_zero (f : Fin N → EReal) : (Finset.univ.filter fun q : Fin N => q.val < 0).inf f = ⊤ := by
  have e : (Finset.univ.filter fun q : Fin N => q.val < 0) = ∅ :=
    Finset.filter_false_of_mem fun q _ => Nat.not_lt_zero _
  rw [e, Finset.inf_empty]

/-- Below `N` there is every index. -/
theorem inf_below_all (f : Fin N → EReal) :
    (Finset.univ.filter fun q : Fin N => q.val < N).inf f = Finset.univ.inf f := by
  rw [Finset.filter_true_of_mem fun q _ => q.isLt]

/-- Index `r` of run `j` is below `N` when the first `j + 1` runs are. -/
theorem run_lt (j : ℕ) (hj : (j + 1) * w ≤ N) (r : Fin w) : j * w + r.val < N := by
  have h : (j + 1) * w = j * w + w := Nat.succ_mul j w
  have := r.isLt
  omega

/-- The indices below `(j + 1) * w` are those below `j * w` and the run `j * w + r`, `r` below `w`. -/
theorem below_succ (j : ℕ) (hj : (j + 1) * w ≤ N) :
    (Finset.univ.filter fun q : Fin N => q.val < (j + 1) * w)
      = (Finset.univ.filter fun q : Fin N => q.val < j * w)
          ∪ Finset.univ.image fun r : Fin w => (⟨j * w + r.val, run_lt j hj r⟩ : Fin N) := by
  have h : (j + 1) * w = j * w + w := Nat.succ_mul j w
  ext q
  simp only [Finset.mem_filter, Finset.mem_univ, true_and, Finset.mem_union, Finset.mem_image]
  constructor
  · intro hq
    by_cases hq' : q.val < j * w
    · exact Or.inl hq'
    · exact Or.inr ⟨⟨q.val - j * w, by omega⟩, Fin.ext (by show j * w + (q.val - j * w) = q.val; omega)⟩
  · rintro (hq | ⟨r, rfl⟩)
    · omega
    · show j * w + r.val < (j + 1) * w
      have := r.isLt
      omega

/-- So the infimum below `(j + 1) * w` is the smaller of the infimum below `j * w` and the infimum over run `j`. -/
theorem inf_below_succ (f : Fin N → EReal) (j : ℕ) (hj : (j + 1) * w ≤ N) :
    (Finset.univ.filter fun q : Fin N => q.val < (j + 1) * w).inf f
      = min ((Finset.univ.filter fun q : Fin N => q.val < j * w).inf f)
          (Finset.univ.inf fun r : Fin w => f ⟨j * w + r.val, run_lt j hj r⟩) := by
  rw [below_succ j hj, Finset.inf_union, Finset.inf_image]
  rfl

end Runs

end Idealize.ShloMosaic.MinAxis

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.StatsRegions.lean ====
/-
  The two statistics regions: each reads an array of `R` rows and `D` lanes in blocks of 10000 rows, one block per
  grid point, and keeps two one-row outputs whose block never moves, so their buffer is carried from point to point
  and written back once, after the last point.  At the first point both rows are set to zero; every point then adds to
  the first row the block's column sums and to the second the block's column sums of squares.

  Read on the extended reals: after point `n` lane `q` of the first row is the sum of `x (r, q)` over the rows `r` of
  blocks `0 … n` (by induction on the point: the first point gives `0 +` the block's sum, a later one adds its block's
  sum to what the point before left), and likewise with `x (r, q) * x (r, q)` for the second row.  The last point's block
  of either output is its whole array, so the array ends holding what that point leaves; and the sum over the blocks
  of the sums inside a block is the sum over all rows (addition on the extended reals is a commutative monoid, which is
  all the regrouping uses).
-/
import proofs.«155275_j36498632081408_2_alg».proof.Proof.Gen.KernelIdeal.Frame
import proofs.«155275_j36498632081408_2_alg».proof.Proof.LibBlockSum
import proofs.«155275_j36498632081408_2_alg».proof.Proof.LibMinAxis
import proofs.«155275_j36498632081408_2_alg».proof.Proof.LibRowMax
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Stats

open Cert.KernelIdeal Cert.KernelIdeal.Gen

/-! ## What each case of the body leaves in the two outputs' buffers, for any float values -/

section Pieces
variable {F : FTy → Type} [FloatOps F]

theorem hz : (![0, 0] : Fin 2 → Nat) = fun _ => 0 := funext fun a => by fin_cases a <;> rfl

theorem out0_B_1_eq (c : Dev nD) (i : grid0.Coords) (a1 : Memref sig .tc .vmem S10000x5 .f32) (h1 : a1.IsWhole)
    (a2 : Memref sig .tc .vmem S1x5 .f32) (h2 : a2.IsWhole) (a3 : Memref sig .tc .vmem S1x5 .f32) (h3 : a3.IsWhole)
    (hc : ¬cond0_0 i) (x : Vec F S10000x5 .f32) (xo1 xo2 : Vec F S1x5 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, View.ld_unit_zero (S := S10000x5) hz,
    View.ld_unit_zero (S := S1x5) hz]

theorem out0_B_2_eq (c : Dev nD) (i : grid0.Coords) (a1 : Memref sig .tc .vmem S10000x5 .f32) (h1 : a1.IsWhole)
    (a2 : Memref sig .tc .vmem S1x5 .f32) (h2 : a2.IsWhole) (a3 : Memref sig .tc .vmem S1x5 .f32) (h3 : a3.IsWhole)
    (hc : ¬cond0_0 i) (x : Vec F S10000x5 .f32) (xo1 xo2 : Vec F S1x5 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h3.read_unread, View.ld_unit_zero (S := S10000x5) hz,
    View.ld_unit_zero (S := S1x5) hz]

theorem out0_A_1_eq (c : Dev nD) (i : grid0.Coords) (a1 : Memref sig .tc .vmem S10000x5 .f32) (h1 : a1.IsWhole)
    (a2 : Memref sig .tc .vmem S1x5 .f32) (h2 : a2.IsWhole) (a3 : Memref sig .tc .vmem S1x5 .f32) (h3 : a3.IsWhole)
    (hc : cond0_0 i) (x : Vec F S10000x5 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x5) hz, View.readCov_unit_zero (S := S1x5) _ hz]
  simp only [View.readAt_eq_ld, h1.read_unread, View.ld_unit_zero (S := S10000x5) hz]

theorem out0_A_2_eq (c : Dev nD) (i : grid0.Coords) (a1 : Memref sig .tc .vmem S10000x5 .f32) (h1 : a1.IsWhole)
    (a2 : Memref sig .tc .vmem S1x5 .f32) (h2 : a2.IsWhole) (a3 : Memref sig .tc .vmem S1x5 .f32) (h3 : a3.IsWhole)
    (hc : cond0_0 i) (x : Vec F S10000x5 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x5) hz, View.readCov_unit_zero (S := S1x5) _ hz]
  simp only [View.readAt_eq_ld, h1.read_unread, View.ld_unit_zero (S := S10000x5) hz]

theorem out1_B_1_eq (c : Dev nD) (i : grid1.Coords) (a1 : Memref sig .tc .vmem S10000x1 .f32) (h1 : a1.IsWhole)
    (a2 : Memref sig .tc .vmem S1x1 .f32) (h2 : a2.IsWhole) (a3 : Memref sig .tc .vmem S1x1 .f32) (h3 : a3.IsWhole)
    (hc : ¬cond1_0 i) (x : Vec F S10000x1 .f32) (xo1 xo2 : Vec F S1x1 .f32) :
    out1_B_1 c i a1 h1 a2 h2 a3 h3 hc x xo1 xo2 = k1_pay3 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S10000x1) hz,
    View.ld_unit_zero (S := S1x1) hz]

theorem out1_B_2_eq (c : Dev nD) (i : grid1.Coords) (a1 : Memref sig .tc .vmem S10000x1 .f32) (h1 : a1.IsWhole)
    (a2 : Memref sig .tc .vmem S1x1 .f32) (h2 : a2.IsWhole) (a3 : Memref sig .tc .vmem S1x1 .f32) (h3 : a3.IsWhole)
    (hc : ¬cond1_0 i) (x : Vec F S10000x1 .f32) (xo1 xo2 : Vec F S1x1 .f32) :
    out1_B_2 c i a1 h1 a2 h2 a3 h3 hc x xo1 xo2 = k1_pay4 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S10000x1) hz,
    View.ld_unit_zero (S := S1x1) hz]

theorem out1_A_1_eq (c : Dev nD) (i : grid1.Coords) (a1 : Memref sig .tc .vmem S10000x1 .f32) (h1 : a1.IsWhole)
    (a2 : Memref sig .tc .vmem S1x1 .f32) (h2 : a2.IsWhole) (a3 : Memref sig .tc .vmem S1x1 .f32) (h3 : a3.IsWhole)
    (hc : cond1_0 i) (x : Vec F S10000x1 .f32) :
    out1_A_1 c i a1 h1 a2 h2 a3 h3 hc x = k1_pay3 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x1) hz, View.readCov_unit_zero (S := S1x1) _ hz]
  simp only [View.readAt_eq_ld, h1.read_unread, View.ld_unit_zero (S := S10000x1) hz]

theorem out1_A_2_eq (c : Dev nD) (i : grid1.Coords) (a1 : Memref sig .tc .vmem S10000x1 .f32) (h1 : a1.IsWhole)
    (a2 : Memref sig .tc .vmem S1x1 .f32) (h2 : a2.IsWhole) (a3 : Memref sig .tc .vmem S1x1 .f32) (h3 : a3.IsWhole)
    (hc : cond1_0 i) (x : Vec F S10000x1 .f32) :
    out1_A_2 c i a1 h1 a2 h2 a3 h3 hc x = k1_pay4 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x1) hz, View.readCov_unit_zero (S := S1x1) _ hz]
  simp only [View.readAt_eq_ld, h1.read_unread, View.ld_unit_zero (S := S10000x1) hz]

end Pieces

/-! ## The body's arithmetic at an entry, on the extended reals -/

theorem pay0_1_apply (q : Fin 5) : k0_pay1 (F := Ideal) (ix2 (0 : Fin 1) q) = 0 := by
  unfold k0_pay1
  exact Ideal.ofBits_zero_f32

theorem pay0_2_apply (q : Fin 5) : k0_pay2 (F := Ideal) (ix2 (0 : Fin 1) q) = 0 := by
  unfold k0_pay2
  exact Ideal.ofBits_zero_f32

/-- The first output's new row: the old row plus the block's column sums. -/
theorem pay0_3_apply (v3 : Vec Ideal S10000x5 .f32) (v4 : Vec Ideal S1x5 .f32) (q : Fin 5) :
    k0_pay3 (F := Ideal) v3 v4 (ix2 (0 : Fin 1) q) = v4 (ix2 (0 : Fin 1) q) + ∑ d : Fin 10000, v3 (ix2 d q) := by
  unfold k0_pay3
  refine (addf_apply _ _ _).trans ?_
  refine congrArg₂ (· + ·) ?_ ?_
  · exact congrFun (shapeCast_self v4 _) _
  · refine (shapeCast_a_1a_apply _ _ (0 : Fin 1) q).trans ?_
    exact MinAxis.sum_first_apply v3 _ _ _ q

/-- The second output's new row: the old row plus the block's column sums of squares. -/
theorem pay0_4_apply (v3 : Vec Ideal S10000x5 .f32) (v10 : Vec Ideal S1x5 .f32) (q : Fin 5) :
    k0_pay4 (F := Ideal) v3 v10 (ix2 (0 : Fin 1) q)
      = v10 (ix2 (0 : Fin 1) q) + ∑ d : Fin 10000, v3 (ix2 d q) * v3 (ix2 d q) := by
  unfold k0_pay4
  refine (addf_apply _ _ _).trans ?_
  refine congrArg₂ (· + ·) ?_ ?_
  · exact congrFun (shapeCast_self v10 _) _
  · refine (shapeCast_a_1a_apply _ _ (0 : Fin 1) q).trans ?_
    exact MinAxis.sum_first_apply (mulf v3 v3) _ _ _ q

theorem pay1_1_apply (q : Fin 1) : k1_pay1 (F := Ideal) (ix2 (0 : Fin 1) q) = 0 := by
  unfold k1_pay1
  exact Ideal.ofBits_zero_f32

theorem pay1_2_apply (q : Fin 1) : k1_pay2 (F := Ideal) (ix2 (0 : Fin 1) q) = 0 := by
  unfold k1_pay2
  exact Ideal.ofBits_zero_f32

/-- The first output's new row: the old row plus the block's column sums. -/
theorem pay1_3_apply (v3 : Vec Ideal S10000x1 .f32) (v4 : Vec Ideal S1x1 .f32) (q : Fin 1) :
    k1_pay3 (F := Ideal) v3 v4 (ix2 (0 : Fin 1) q) = v4 (ix2 (0 : Fin 1) q) + ∑ d : Fin 10000, v3 (ix2 d q) := by
  unfold k1_pay3
  refine (addf_apply _ _ _).trans ?_
  refine congrArg₂ (· + ·) ?_ ?_
  · exact congrFun (shapeCast_self v4 _) _
  · refine (shapeCast_a_1a_apply _ _ (0 : Fin 1) q).trans ?_
    exact MinAxis.sum_first_apply v3 _ _ _ q

/-- The second output's new row: the old row plus the block's column sums of squares. -/
theorem pay1_4_apply (v3 : Vec Ideal S10000x1 .f32) (v10 : Vec Ideal S1x1 .f32) (q : Fin 1) :
    k1_pay4 (F := Ideal) v3 v10 (ix2 (0 : Fin 1) q)
      = v10 (ix2 (0 : Fin 1) q) + ∑ d : Fin 10000, v3 (ix2 d q) * v3 (ix2 d q) := by
  unfold k1_pay4
  refine (addf_apply _ _ _).trans ?_
  refine congrArg₂ (· + ·) ?_ ?_
  · exact congrFun (shapeCast_self v10 _) _
  · refine (shapeCast_a_1a_apply _ _ (0 : Fin 1) q).trans ?_
    exact MinAxis.sum_first_apply (mulf v3 v3) _ _ _ q

/-- Lane `q` of a two-axis array of extended reals as a function of the row number, zero past the last row. -/
def lane {N D : ℕ} (X : (⟨2, ![N, D]⟩ : Shape).Idx → EReal) (q : Fin D) (i : ℕ) : EReal :=
  if h : i < N then X (ix2 ⟨i, h⟩ q) else 0

theorem lane_of_lt {N D : ℕ} (X : (⟨2, ![N, D]⟩ : Shape).Idx → EReal) (q : Fin D) (i : ℕ) (h : i < N) :
    lane X q i = X (ix2 ⟨i, h⟩ q) := dif_pos h

/-! ## Region 0: the column sums and sums of squares of an array of 1000000 rows, 100 blocks of 10000 rows -/

section Region0
variable (V : (c : Dev nD) → (b : Ref sig .tc) → Buf (Elt Ideal) ((c : Thread nD τ).loc b)) (c : Dev nD)

/-- Block `t` of the input starts at row `10000 * t`, lane 0. -/
theorem idx0_0 : ∀ t : Fin cfg0.N, win0_0.index t 0 = t.val ∧ win0_0.index t 1 = 0 :=
  (by decide +kernel : ∀ t : Fin grid0.N, win0_0.index t 0 = t.val ∧ win0_0.index t 1 = 0)

/-- The two outputs' block is always the whole one-row array. -/
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)

/-- Entry `(d, q)` of the input's block at point `t` is entry `(d + 10000 * t, q)` of the array. -/
theorem blk0_apply (t : Fin cfg0.N) (d : Fin 10000) (q : Fin 5) :
    (iblk0 (F := Ideal) V c 0 t : S10000x5.Idx → EReal) (ix2 d q)
      = lane (V c main_arg0 : S1000000x5.Idx → EReal) q (d.val + 10000 * t.val) := by
  have hN : t.val < 100 := lt_of_lt_of_eq t.isLt N_0
  have h : d.val + 10000 * t.val < 1000000 := by have := d.isLt; omega
  rw [lane_of_lt _ q _ h]
  unfold iblk0
  rw [View.read_apply]
  show V c main_arg0 _ = V c main_arg0 _
  congr 1
  funext a
  apply Fin.ext
  match a with
  | ⟨0, _⟩ => show win0_0.index t 0 * 10000 + 1 * d.val = d.val + 10000 * t.val; rw [(idx0_0 t).1]; omega
  | ⟨1, _⟩ => show win0_0.index t 1 * 5 + 1 * q.val = q.val; rw [(idx0_0 t).2]; omega

/-- At the first point the outputs are the block's sums over zero rows. -/
theorem outs0_A (t : Fin cfg0.N) (h0 : t.val % 100 = 0) :
    outsAt0 (F := Ideal) V c t.val t.isLt
      = (k0_pay3 (iblk0 V c 0 t) (k0_pay1 (F := Ideal)), k0_pay4 (iblk0 V c 0 t) (k0_pay2 (F := Ideal))) :=
  (outsAt0_A V c t h0).trans (congrArg₂ Prod.mk
    (out0_A_1_eq c (grid0.coords t) (ms0_0 t) (hs0_0 t) (ms0_1 t) (hs0_1 t) (ms0_2 t) (hs0_2 t) ((hcond0_0 t).mpr h0) (iblk0 V c 0 t))
    (out0_A_2_eq c (grid0.coords t) (ms0_0 t) (hs0_0 t) (ms0_1 t) (hs0_1 t) (ms0_2 t) (hs0_2 t) ((hcond0_0 t).mpr h0) (iblk0 V c 0 t)))

/-- At every later point they are the block's sums over what the point before left. -/
theorem outs0_B (t : Fin cfg0.N) (h0 : ¬t.val % 100 = 0) :
    outsAt0 (F := Ideal) V c t.val t.isLt
      = (k0_pay3 (iblk0 V c 0 t) (outsAt0 V c (t.val - 1) (Nat.lt_of_le_of_lt (Nat.sub_le _ _) t.isLt)).1, k0_pay4 (iblk0 V c 0 t) (outsAt0 V c (t.val - 1) (Nat.lt_of_le_of_lt (Nat.sub_le _ _) t.isLt)).2) :=
  (outsAt0_B V c t h0).trans (congrArg₂ Prod.mk
    (out0_B_1_eq c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2)
    (out0_B_2_eq c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2))

/-- After point `n` the outputs hold, lane by lane, the sums over the rows of blocks `0 … n`. -/
theorem outs0_inv : ∀ (n : ℕ) (h : n < cfg0.N) (q : Fin 5),
    (outsAt0 (F := Ideal) V c n h).1 (ix2 (0 : Fin 1) q)
        = ∑ s ∈ Finset.range (n + 1), ∑ e : Fin 10000, lane (V c main_arg0 : S1000000x5.Idx → EReal) q (e.val + 10000 * s)
    ∧ (outsAt0 (F := Ideal) V c n h).2 (ix2 (0 : Fin 1) q)
        = ∑ s ∈ Finset.range (n + 1), ∑ e : Fin 10000,
            lane (V c main_arg0 : S1000000x5.Idx → EReal) q (e.val + 10000 * s) * lane (V c main_arg0 : S1000000x5.Idx → EReal) q (e.val + 10000 * s)
  | 0, h, q => by
    have e := outs0_A V c ⟨0, h⟩ (Nat.zero_mod _)
    constructor
    · refine (congrFun (congrArg Prod.fst e) _).trans ?_
      refine (pay0_3_apply _ _ q).trans ?_
      rw [pay0_1_apply, zero_add, Finset.sum_range_one]
      exact Finset.sum_congr rfl fun d _ => blk0_apply V c ⟨0, h⟩ d q
    · refine (congrFun (congrArg Prod.snd e) _).trans ?_
      refine (pay0_4_apply _ _ q).trans ?_
      rw [pay0_2_apply, zero_add, Finset.sum_range_one]
      exact Finset.sum_congr rfl fun d _ =>
        congrArg₂ (· * ·) (blk0_apply V c ⟨0, h⟩ d q) (blk0_apply V c ⟨0, h⟩ d q)
  | n + 1, h, q => by
    have hN : cfg0.N = 100 := N_0
    have hB : ¬(⟨n + 1, h⟩ : Fin cfg0.N).val % 100 = 0 := by dsimp only; omega
    have e := outs0_B V c ⟨n + 1, h⟩ hB
    have ih := outs0_inv n (Nat.lt_of_succ_lt h) q
    constructor
    · refine (congrFun (congrArg Prod.fst e) _).trans ?_
      refine (pay0_3_apply _ _ q).trans ?_
      rw [Finset.sum_range_succ _ (n + 1)]
      refine congrArg₂ (· + ·) ih.1 ?_
      exact Finset.sum_congr rfl fun d _ => blk0_apply V c ⟨n + 1, h⟩ d q
    · refine (congrFun (congrArg Prod.snd e) _).trans ?_
      refine (pay0_4_apply _ _ q).trans ?_
      rw [Finset.sum_range_succ _ (n + 1)]
      refine congrArg₂ (· + ·) ih.2 ?_
      exact Finset.sum_congr rfl fun d _ =>
        congrArg₂ (· * ·) (blk0_apply V c ⟨n + 1, h⟩ d q) (blk0_apply V c ⟨n + 1, h⟩ d q)

/-- The last point is point 99. -/
theorem hlast0 : 99 < cfg0.N := by rw [show cfg0.N = 100 from N_0]; decide

theorem outs0_at_last (n : ℕ) (h : n < cfg0.N) (e : n = 99) :
    outsAt0 (F := Ideal) V c n h = outsAt0 (F := Ideal) V c 99 hlast0 := by subst e; rfl

/-- What the last point leaves in output 1's buffer, as contents of its array. -/
abbrev res0_1 : Buf (Elt Ideal) ((c : Thread nD τ).loc main_v0_0) := (outsAt0 (F := Ideal) V c 99 hlast0).1

/-- The one write-back of output 1, at the last point, writes the whole one-row array. -/
theorem flushed0_1_eq (t : Fin cfg0.N) (hf : (cfg0.win 1).flush t = true) :
    (dat0 (F := Ideal) V c).flushed 1 t = ((cfg0.win 1).blk t).view.read (Elt Ideal) (res0_1 V c) := by
  have hN : cfg0.N = 100 := N_0
  have hl : t.val = 99 := by have := (flush0_1 t).mp hf; have := t.isLt; omega
  show (cfg0.win 1).cut (grid0.coords t) ((dat0 (F := Ideal) V c).after 1 t) = _
  rw [after0_1, outs0_at_last V c t.val t.isLt hl]
  funext j
  show (outsAt0 (F := Ideal) V c 99 hlast0).1 j = (outsAt0 (F := Ideal) V c 99 hlast0).1 (((cfg0.win 1).blk t).view.emb j)
  refine congrArg _ (funext fun a => Fin.ext ?_)
  have hj0 : (j 0).val < 1 := (j 0).isLt
  match a with
  | ⟨0, _⟩ => show (j 0).val = win0_1.index t 0 * 1 + 1 * (j 0).val; rw [(idx0_1 t).1]; omega
  | ⟨1, _⟩ => show (j 1).val = win0_1.index t 1 * 5 + 1 * (j 1).val; rw [(idx0_1 t).2]; omega

/-- Every index of the one-row array is in any point's block of output 1. -/
theorem mem_blk0_1 (t : Fin cfg0.N) (i : S1x5.Idx) : i ∈ ((cfg0.win 1).blk t).view.set := by
  show i ∈ ((View.whole main_v0_0).slice (win0_1.rect t)).set
  rw [View.set_slice_whole, Rect.mem_set_unit]
  intro a
  have h0 : (i 0).val < 1 := (i 0).isLt
  have h1 : (i 1).val < 5 := (i 1).isLt
  match a with
  | ⟨0, _⟩ => show win0_1.index t 0 * 1 ≤ (i 0).val ∧ (i 0).val < win0_1.index t 0 * 1 + 1
              rw [(idx0_1 t).1]; omega
  | ⟨1, _⟩ => show win0_1.index t 1 * 5 ≤ (i 1).val ∧ (i 1).val < win0_1.index t 1 * 5 + 5
              rw [(idx0_1 t).2]; omega

/-- So output 1's array ends holding what the last point left. -/
theorem final0_1 : (dat0 (F := Ideal) V c).arrAt 1 cfg0.N = res0_1 V c :=
  (dat0 (F := Ideal) V c).arrAt_eq_of_cover 1 (res0_1 V c) (flushed0_1_eq V c) fun i =>
    ⟨⟨99, hlast0⟩, (flush0_1 ⟨99, hlast0⟩).mpr rfl, mem_blk0_1 ⟨99, hlast0⟩ i⟩

/-- What the last point leaves in output 2's buffer, as contents of its array. -/
abbrev res0_2 : Buf (Elt Ideal) ((c : Thread nD τ).loc main_v0_1) := (outsAt0 (F := Ideal) V c 99 hlast0).2

/-- The one write-back of output 2, at the last point, writes the whole one-row array. -/
theorem flushed0_2_eq (t : Fin cfg0.N) (hf : (cfg0.win 2).flush t = true) :
    (dat0 (F := Ideal) V c).flushed 2 t = ((cfg0.win 2).blk t).view.read (Elt Ideal) (res0_2 V c) := by
  have hN : cfg0.N = 100 := N_0
  have hl : t.val = 99 := by have := (flush0_2 t).mp hf; have := t.isLt; omega
  show (cfg0.win 2).cut (grid0.coords t) ((dat0 (F := Ideal) V c).after 2 t) = _
  rw [after0_2, outs0_at_last V c t.val t.isLt hl]
  funext j
  show (outsAt0 (F := Ideal) V c 99 hlast0).2 j = (outsAt0 (F := Ideal) V c 99 hlast0).2 (((cfg0.win 2).blk t).view.emb j)
  refine congrArg _ (funext fun a => Fin.ext ?_)
  have hj0 : (j 0).val < 1 := (j 0).isLt
  match a with
  | ⟨0, _⟩ => show (j 0).val = win0_2.index t 0 * 1 + 1 * (j 0).val; rw [(idx0_2 t).1]; omega
  | ⟨1, _⟩ => show (j 1).val = win0_2.index t 1 * 5 + 1 * (j 1).val; rw [(idx0_2 t).2]; omega

/-- Every index of the one-row array is in any point's block of output 2. -/
theorem mem_blk0_2 (t : Fin cfg0.N) (i : S1x5.Idx) : i ∈ ((cfg0.win 2).blk t).view.set := by
  show i ∈ ((View.whole main_v0_1).slice (win0_2.rect t)).set
  rw [View.set_slice_whole, Rect.mem_set_unit]
  intro a
  have h0 : (i 0).val < 1 := (i 0).isLt
  have h1 : (i 1).val < 5 := (i 1).isLt
  match a with
  | ⟨0, _⟩ => show win0_2.index t 0 * 1 ≤ (i 0).val ∧ (i 0).val < win0_2.index t 0 * 1 + 1
              rw [(idx0_2 t).1]; omega
  | ⟨1, _⟩ => show win0_2.index t 1 * 5 ≤ (i 1).val ∧ (i 1).val < win0_2.index t 1 * 5 + 5
              rw [(idx0_2 t).2]; omega

/-- So output 2's array ends holding what the last point left. -/
theorem final0_2 : (dat0 (F := Ideal) V c).arrAt 2 cfg0.N = res0_2 V c :=
  (dat0 (F := Ideal) V c).arrAt_eq_of_cover 2 (res0_2 V c) (flushed0_2_eq V c) fun i =>
    ⟨⟨99, hlast0⟩, (flush0_2 ⟨99, hlast0⟩).mpr rfl, mem_blk0_2 ⟨99, hlast0⟩ i⟩

/-- The sums over the blocks are the sums over all 1000000 rows. -/
theorem total0 (X : S1000000x5.Idx → EReal) (q : Fin 5) (g : EReal → EReal) :
    ∑ s ∈ Finset.range 100, ∑ e : Fin 10000, g (lane X q (e.val + 10000 * s)) = ∑ i : Fin 1000000, g (X (ix2 i q)) := by
  rw [Finset.sum_range]
  refine (Cert.Lib.BlockSum.sum_fin_mul 100 10000 fun i => g (lane X q i)).symm.trans ?_
  show ∑ i : Fin 1000000, g (lane X q i.val) = _
  exact Finset.sum_congr rfl fun i _ => congrArg g (lane_of_lt X q i.val i.isLt)

/-- The region's input array as it finds it, as a function of (row, lane) on the extended reals. -/
abbrev X0 : S1000000x5.Idx → EReal := V c main_arg0

/-- The first output array ends holding the column sums of the whole input. -/
theorem sum0 (q : Fin 5) :
    (dat0 (F := Ideal) V c).arrAt 1 cfg0.N (ix2 (0 : Fin 1) q) = ∑ i : Fin 1000000, X0 V c (ix2 i q) :=
  (congrFun (final0_1 V c) _).trans
    (((outs0_inv V c 99 hlast0 q).1).trans (total0 (X0 V c) q fun x => x))

/-- The second output array ends holding the column sums of squares of the whole input. -/
theorem sumsq0 (q : Fin 5) :
    (dat0 (F := Ideal) V c).arrAt 2 cfg0.N (ix2 (0 : Fin 1) q)
      = ∑ i : Fin 1000000, X0 V c (ix2 i q) * X0 V c (ix2 i q) :=
  (congrFun (final0_2 V c) _).trans
    (((outs0_inv V c 99 hlast0 q).2).trans (total0 (X0 V c) q fun x => x * x))

end Region0

/-! ## Region 1: the column sums and sums of squares of an array of 2000000 rows, 200 blocks of 10000 rows -/

section Region1
variable (V : (c : Dev nD) → (b : Ref sig .tc) → Buf (Elt Ideal) ((c : Thread nD τ).loc b)) (c : Dev nD)

/-- Block `t` of the input starts at row `10000 * t`, lane 0. -/
theorem idx1_0 : ∀ t : Fin cfg1.N, win1_0.index t 0 = t.val ∧ win1_0.index t 1 = 0 :=
  (by decide +kernel : ∀ t : Fin grid1.N, win1_0.index t 0 = t.val ∧ win1_0.index t 1 = 0)

/-- The two outputs' block is always the whole one-row array. -/
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)

/-- Entry `(d, q)` of the input's block at point `t` is entry `(d + 10000 * t, q)` of the array. -/
theorem blk1_apply (t : Fin cfg1.N) (d : Fin 10000) (q : Fin 1) :
    (iblk1 (F := Ideal) V c 0 t : S10000x1.Idx → EReal) (ix2 d q)
      = lane (V c main_arg1 : S2000000x1.Idx → EReal) q (d.val + 10000 * t.val) := by
  have hN : t.val < 200 := lt_of_lt_of_eq t.isLt N_1
  have h : d.val + 10000 * t.val < 2000000 := by have := d.isLt; omega
  rw [lane_of_lt _ q _ h]
  unfold iblk1
  rw [View.read_apply]
  show V c main_arg1 _ = V c main_arg1 _
  congr 1
  funext a
  apply Fin.ext
  match a with
  | ⟨0, _⟩ => show win1_0.index t 0 * 10000 + 1 * d.val = d.val + 10000 * t.val; rw [(idx1_0 t).1]; omega
  | ⟨1, _⟩ => show win1_0.index t 1 * 1 + 1 * q.val = q.val; rw [(idx1_0 t).2]; omega

/-- At the first point the outputs are the block's sums over zero rows. -/
theorem outs1_A (t : Fin cfg1.N) (h0 : t.val % 200 = 0) :
    outsAt1 (F := Ideal) V c t.val t.isLt
      = (k1_pay3 (iblk1 V c 0 t) (k1_pay1 (F := Ideal)), k1_pay4 (iblk1 V c 0 t) (k1_pay2 (F := Ideal))) :=
  (outsAt1_A V c t h0).trans (congrArg₂ Prod.mk
    (out1_A_1_eq c (grid1.coords t) (ms1_0 t) (hs1_0 t) (ms1_1 t) (hs1_1 t) (ms1_2 t) (hs1_2 t) ((hcond1_0 t).mpr h0) (iblk1 V c 0 t))
    (out1_A_2_eq c (grid1.coords t) (ms1_0 t) (hs1_0 t) (ms1_1 t) (hs1_1 t) (ms1_2 t) (hs1_2 t) ((hcond1_0 t).mpr h0) (iblk1 V c 0 t)))

/-- At every later point they are the block's sums over what the point before left. -/
theorem outs1_B (t : Fin cfg1.N) (h0 : ¬t.val % 200 = 0) :
    outsAt1 (F := Ideal) V c t.val t.isLt
      = (k1_pay3 (iblk1 V c 0 t) (outsAt1 V c (t.val - 1) (Nat.lt_of_le_of_lt (Nat.sub_le _ _) t.isLt)).1, k1_pay4 (iblk1 V c 0 t) (outsAt1 V c (t.val - 1) (Nat.lt_of_le_of_lt (Nat.sub_le _ _) t.isLt)).2) :=
  (outsAt1_B V c t h0).trans (congrArg₂ Prod.mk
    (out1_B_1_eq c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2)
    (out1_B_2_eq c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2))

/-- After point `n` the outputs hold, lane by lane, the sums over the rows of blocks `0 … n`. -/
theorem outs1_inv : ∀ (n : ℕ) (h : n < cfg1.N) (q : Fin 1),
    (outsAt1 (F := Ideal) V c n h).1 (ix2 (0 : Fin 1) q)
        = ∑ s ∈ Finset.range (n + 1), ∑ e : Fin 10000, lane (V c main_arg1 : S2000000x1.Idx → EReal) q (e.val + 10000 * s)
    ∧ (outsAt1 (F := Ideal) V c n h).2 (ix2 (0 : Fin 1) q)
        = ∑ s ∈ Finset.range (n + 1), ∑ e : Fin 10000,
            lane (V c main_arg1 : S2000000x1.Idx → EReal) q (e.val + 10000 * s) * lane (V c main_arg1 : S2000000x1.Idx → EReal) q (e.val + 10000 * s)
  | 0, h, q => by
    have e := outs1_A V c ⟨0, h⟩ (Nat.zero_mod _)
    constructor
    · refine (congrFun (congrArg Prod.fst e) _).trans ?_
      refine (pay1_3_apply _ _ q).trans ?_
      rw [pay1_1_apply, zero_add, Finset.sum_range_one]
      exact Finset.sum_congr rfl fun d _ => blk1_apply V c ⟨0, h⟩ d q
    · refine (congrFun (congrArg Prod.snd e) _).trans ?_
      refine (pay1_4_apply _ _ q).trans ?_
      rw [pay1_2_apply, zero_add, Finset.sum_range_one]
      exact Finset.sum_congr rfl fun d _ =>
        congrArg₂ (· * ·) (blk1_apply V c ⟨0, h⟩ d q) (blk1_apply V c ⟨0, h⟩ d q)
  | n + 1, h, q => by
    have hN : cfg1.N = 200 := N_1
    have hB : ¬(⟨n + 1, h⟩ : Fin cfg1.N).val % 200 = 0 := by dsimp only; omega
    have e := outs1_B V c ⟨n + 1, h⟩ hB
    have ih := outs1_inv n (Nat.lt_of_succ_lt h) q
    constructor
    · refine (congrFun (congrArg Prod.fst e) _).trans ?_
      refine (pay1_3_apply _ _ q).trans ?_
      rw [Finset.sum_range_succ _ (n + 1)]
      refine congrArg₂ (· + ·) ih.1 ?_
      exact Finset.sum_congr rfl fun d _ => blk1_apply V c ⟨n + 1, h⟩ d q
    · refine (congrFun (congrArg Prod.snd e) _).trans ?_
      refine (pay1_4_apply _ _ q).trans ?_
      rw [Finset.sum_range_succ _ (n + 1)]
      refine congrArg₂ (· + ·) ih.2 ?_
      exact Finset.sum_congr rfl fun d _ =>
        congrArg₂ (· * ·) (blk1_apply V c ⟨n + 1, h⟩ d q) (blk1_apply V c ⟨n + 1, h⟩ d q)

/-- The last point is point 199. -/
theorem hlast1 : 199 < cfg1.N := by rw [show cfg1.N = 200 from N_1]; decide

theorem outs1_at_last (n : ℕ) (h : n < cfg1.N) (e : n = 199) :
    outsAt1 (F := Ideal) V c n h = outsAt1 (F := Ideal) V c 199 hlast1 := by subst e; rfl

/-- What the last point leaves in output 1's buffer, as contents of its array. -/
abbrev res1_1 : Buf (Elt Ideal) ((c : Thread nD τ).loc main_v9_0) := (outsAt1 (F := Ideal) V c 199 hlast1).1

/-- The one write-back of output 1, at the last point, writes the whole one-row array. -/
theorem flushed1_1_eq (t : Fin cfg1.N) (hf : (cfg1.win 1).flush t = true) :
    (dat1 (F := Ideal) V c).flushed 1 t = ((cfg1.win 1).blk t).view.read (Elt Ideal) (res1_1 V c) := by
  have hN : cfg1.N = 200 := N_1
  have hl : t.val = 199 := by have := (flush1_1 t).mp hf; have := t.isLt; omega
  show (cfg1.win 1).cut (grid1.coords t) ((dat1 (F := Ideal) V c).after 1 t) = _
  rw [after1_1, outs1_at_last V c t.val t.isLt hl]
  funext j
  show (outsAt1 (F := Ideal) V c 199 hlast1).1 j = (outsAt1 (F := Ideal) V c 199 hlast1).1 (((cfg1.win 1).blk t).view.emb j)
  refine congrArg _ (funext fun a => Fin.ext ?_)
  have hj0 : (j 0).val < 1 := (j 0).isLt
  match a with
  | ⟨0, _⟩ => show (j 0).val = win1_1.index t 0 * 1 + 1 * (j 0).val; rw [(idx1_1 t).1]; omega
  | ⟨1, _⟩ => show (j 1).val = win1_1.index t 1 * 1 + 1 * (j 1).val; rw [(idx1_1 t).2]; omega

/-- Every index of the one-row array is in any point's block of output 1. -/
theorem mem_blk1_1 (t : Fin cfg1.N) (i : S1x1.Idx) : i ∈ ((cfg1.win 1).blk t).view.set := by
  show i ∈ ((View.whole main_v9_0).slice (win1_1.rect t)).set
  rw [View.set_slice_whole, Rect.mem_set_unit]
  intro a
  have h0 : (i 0).val < 1 := (i 0).isLt
  have h1 : (i 1).val < 1 := (i 1).isLt
  match a with
  | ⟨0, _⟩ => show win1_1.index t 0 * 1 ≤ (i 0).val ∧ (i 0).val < win1_1.index t 0 * 1 + 1
              rw [(idx1_1 t).1]; omega
  | ⟨1, _⟩ => show win1_1.index t 1 * 1 ≤ (i 1).val ∧ (i 1).val < win1_1.index t 1 * 1 + 1
              rw [(idx1_1 t).2]; omega

/-- So output 1's array ends holding what the last point left. -/
theorem final1_1 : (dat1 (F := Ideal) V c).arrAt 1 cfg1.N = res1_1 V c :=
  (dat1 (F := Ideal) V c).arrAt_eq_of_cover 1 (res1_1 V c) (flushed1_1_eq V c) fun i =>
    ⟨⟨199, hlast1⟩, (flush1_1 ⟨199, hlast1⟩).mpr rfl, mem_blk1_1 ⟨199, hlast1⟩ i⟩

/-- What the last point leaves in output 2's buffer, as contents of its array. -/
abbrev res1_2 : Buf (Elt Ideal) ((c : Thread nD τ).loc main_v9_1) := (outsAt1 (F := Ideal) V c 199 hlast1).2

/-- The one write-back of output 2, at the last point, writes the whole one-row array. -/
theorem flushed1_2_eq (t : Fin cfg1.N) (hf : (cfg1.win 2).flush t = true) :
    (dat1 (F := Ideal) V c).flushed 2 t = ((cfg1.win 2).blk t).view.read (Elt Ideal) (res1_2 V c) := by
  have hN : cfg1.N = 200 := N_1
  have hl : t.val = 199 := by have := (flush1_2 t).mp hf; have := t.isLt; omega
  show (cfg1.win 2).cut (grid1.coords t) ((dat1 (F := Ideal) V c).after 2 t) = _
  rw [after1_2, outs1_at_last V c t.val t.isLt hl]
  funext j
  show (outsAt1 (F := Ideal) V c 199 hlast1).2 j = (outsAt1 (F := Ideal) V c 199 hlast1).2 (((cfg1.win 2).blk t).view.emb j)
  refine congrArg _ (funext fun a => Fin.ext ?_)
  have hj0 : (j 0).val < 1 := (j 0).isLt
  match a with
  | ⟨0, _⟩ => show (j 0).val = win1_2.index t 0 * 1 + 1 * (j 0).val; rw [(idx1_2 t).1]; omega
  | ⟨1, _⟩ => show (j 1).val = win1_2.index t 1 * 1 + 1 * (j 1).val; rw [(idx1_2 t).2]; omega

/-- Every index of the one-row array is in any point's block of output 2. -/
theorem mem_blk1_2 (t : Fin cfg1.N) (i : S1x1.Idx) : i ∈ ((cfg1.win 2).blk t).view.set := by
  show i ∈ ((View.whole main_v9_1).slice (win1_2.rect t)).set
  rw [View.set_slice_whole, Rect.mem_set_unit]
  intro a
  have h0 : (i 0).val < 1 := (i 0).isLt
  have h1 : (i 1).val < 1 := (i 1).isLt
  match a with
  | ⟨0, _⟩ => show win1_2.index t 0 * 1 ≤ (i 0).val ∧ (i 0).val < win1_2.index t 0 * 1 + 1
              rw [(idx1_2 t).1]; omega
  | ⟨1, _⟩ => show win1_2.index t 1 * 1 ≤ (i 1).val ∧ (i 1).val < win1_2.index t 1 * 1 + 1
              rw [(idx1_2 t).2]; omega

/-- So output 2's array ends holding what the last point left. -/
theorem final1_2 : (dat1 (F := Ideal) V c).arrAt 2 cfg1.N = res1_2 V c :=
  (dat1 (F := Ideal) V c).arrAt_eq_of_cover 2 (res1_2 V c) (flushed1_2_eq V c) fun i =>
    ⟨⟨199, hlast1⟩, (flush1_2 ⟨199, hlast1⟩).mpr rfl, mem_blk1_2 ⟨199, hlast1⟩ i⟩

/-- The sums over the blocks are the sums over all 2000000 rows. -/
theorem total1 (X : S2000000x1.Idx → EReal) (q : Fin 1) (g : EReal → EReal) :
    ∑ s ∈ Finset.range 200, ∑ e : Fin 10000, g (lane X q (e.val + 10000 * s)) = ∑ i : Fin 2000000, g (X (ix2 i q)) := by
  rw [Finset.sum_range]
  refine (Cert.Lib.BlockSum.sum_fin_mul 200 10000 fun i => g (lane X q i)).symm.trans ?_
  show ∑ i : Fin 2000000, g (lane X q i.val) = _
  exact Finset.sum_congr rfl fun i _ => congrArg g (lane_of_lt X q i.val i.isLt)

/-- The region's input array as it finds it, as a function of (row, lane) on the extended reals. -/
abbrev X1 : S2000000x1.Idx → EReal := V c main_arg1

/-- The first output array ends holding the column sums of the whole input. -/
theorem sum1 :
    (dat1 (F := Ideal) V c).arrAt 1 cfg1.N (ix2 (0 : Fin 1) (0 : Fin 1)) = ∑ i : Fin 2000000, X1 V c (ix2 i (0 : Fin 1)) :=
  (congrFun (final1_1 V c) _).trans
    (((outs1_inv V c 199 hlast1 (0 : Fin 1)).1).trans (total1 (X1 V c) (0 : Fin 1) fun x => x))

/-- The second output array ends holding the column sums of squares of the whole input. -/
theorem sumsq1 :
    (dat1 (F := Ideal) V c).arrAt 2 cfg1.N (ix2 (0 : Fin 1) (0 : Fin 1))
      = ∑ i : Fin 2000000, X1 V c (ix2 i (0 : Fin 1)) * X1 V c (ix2 i (0 : Fin 1)) :=
  (congrFun (final1_2 V c) _).trans
    (((outs1_inv V c 199 hlast1 (0 : Fin 1)).2).trans (total1 (X1 V c) (0 : Fin 1) fun x => x * x))

end Region1

end Cert.KernelIdeal.Stats
end
-- ==== Proof.ApplyRegion2.lean ====
/-
  Region 2 (the edge-feature normalisation): the output column, entry by entry.

  The region's grid has 200 points; point t stages rows 10000·t … 10000·t + 9999 of the [2000000, 1] input column and
  the four [1, 1] statistics (mean, variance, scale, shift) unchanged at every point, and stores the whole
  [10000, 1] result block at block index (t, 0). The stored block is, row by row,
  ((x − mean) · rsqrt(var + ε)) · scale + shift with the four scalars broadcast down the rows. The blocks tile the
  output column exactly (row r lies in the block of point r / 10000), so after the run every entry of the output
  column holds that expression of the same row of the input column.
-/
import proofs.«155275_j36498632081408_2_alg».proof.Proof.Gen.KernelIdeal.Frame
import proofs.«155275_j36498632081408_2_alg».proof.Proof.NodeSpec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Apply2

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- The stored block at row p: the normalisation of the staged entry by the four staged scalars. -/
theorem pay_apply (x0 : Vec Ideal S10000x1 .f32) (x1 x2 x3 x4 : Vec Ideal S1x1 .f32) (p : Fin 10000) (q : Fin 1) :
    Gen.k2_pay1 (F := Ideal) x0 x1 x2 x3 x4 (ix2 p q)
      = ((x0 (ix2 p q) - x1 (ix2 (0 : Fin 1) q)) * Ideal.rsqrt (x2 (ix2 (0 : Fin 1) q) + Ideal.ofBits .f32 0x3727C5AC#32))
          * x3 (ix2 (0 : Fin 1) q) + x4 (ix2 (0 : Fin 1) q) := by
  unfold Gen.k2_pay1
  simp only [shapeCast_self]
  show ((x0 (ix2 p q) - broadcastTo S10000x1 x1 broadcasts_S1x1_S10000x1 (ix2 p q))
        * broadcastTo S10000x1 (rsqrt (addf x2 (broadcast S1x1 (Scalar.ofBits (F := Ideal) .f32 0x3727C5AC#32)))) broadcasts_S1x1_S10000x1 (ix2 p q))
        * broadcastTo S10000x1 x3 broadcasts_S1x1_S10000x1 (ix2 p q)
        + broadcastTo S10000x1 x4 broadcasts_S1x1_S10000x1 (ix2 p q) = _
  rw [broadcastTo_1b_ab_apply x1 broadcasts_S1x1_S10000x1 p q, broadcastTo_1b_ab_apply x3 broadcasts_S1x1_S10000x1 p q,
    broadcastTo_1b_ab_apply x4 broadcasts_S1x1_S10000x1 p q, broadcastTo_1b_ab_apply _ broadcasts_S1x1_S10000x1 p q]
  rfl

/-! ## The blocks' positions -/

/-- The printed index maps over the grid: the blocked windows' block row is the point, every other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The output column as one function of the arrays the region finds: row by row, the normalised input entry. -/
def G (c : Dev nD) : S2000000x1.Idx → EReal := fun j =>
  Cert.NodeSpec.bn (V c main_arg1 j) (V c main_v11 (ix2 (0 : Fin 1) (0 : Fin 1))) (V c main_v17 (ix2 (0 : Fin 1) (0 : Fin 1)))
    (V c main_v18 (ix2 (0 : Fin 1) (0 : Fin 1))) (V c main_v19 (ix2 (0 : Fin 1) (0 : Fin 1)))

/-- A stored block is any row-indexed function that agrees with the normalisation of the staged values row by row. -/
theorem pay_eq_of (x0 : Vec Ideal S10000x1 .f32) (x1 x2 x3 x4 : Vec Ideal S1x1 .f32) (g : S10000x1.Idx → EReal)
    (h : ∀ (p : Fin 10000) (q : Fin 1), g (ix2 p q) = Cert.NodeSpec.bn (x0 (ix2 p q)) (x1 (ix2 (0 : Fin 1) q)) (x2 (ix2 (0 : Fin 1) q))
      (x3 (ix2 (0 : Fin 1) q)) (x4 (ix2 (0 : Fin 1) q))) :
    Gen.k2_pay1 (F := Ideal) x0 x1 x2 x3 x4 = g := by
  funext j
  obtain ⟨p, q, rfl⟩ : ∃ (p : Fin 10000) (q : Fin 1), j = ix2 p q := ⟨j 0, j 1, eq_ix2 j⟩
  rw [pay_apply, h]
  rfl

/-- What point t writes back is block t of G. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero hz]
  simp only [View.ld_unit_zero (S := S10000x1) hz, View.ld_unit_zero (S := S1x1) hz]
  refine pay_eq_of (iblk2 V c 0 t) (iblk2 V c 1 t) (iblk2 V c 2 t) (iblk2 V c 3 t) (iblk2 V c 4 t) _ (fun p q => ?_)
  obtain ⟨e00, e01, e10, e11, e20, e21, e30, e31, e40, e41, e50, e51⟩ := idx_facts t
  show G V c (((cfg2.win 5).blk t).view.emb (ix2 p q))
    = Cert.NodeSpec.bn (V c main_arg1 (((cfg2.win 0).blk t).view.emb (ix2 p q))) (V c main_v11 (((cfg2.win 1).blk t).view.emb (ix2 (0 : Fin 1) q)))
        (V c main_v17 (((cfg2.win 2).blk t).view.emb (ix2 (0 : Fin 1) q))) (V c main_v18 (((cfg2.win 3).blk t).view.emb (ix2 (0 : Fin 1) q)))
        (V c main_v19 (((cfg2.win 4).blk t).view.emb (ix2 (0 : Fin 1) q)))
  have h0 : ((cfg2.win 0).blk t).view.emb (ix2 p q) = ((cfg2.win 5).blk t).view.emb (ix2 p q) := by
    funext a; apply Fin.ext
    match a with
    | ⟨0, _⟩ => show win2_0.index t (0 : Fin 2) * 10000 + 1 * p.val = win2_5.index t (0 : Fin 2) * 10000 + 1 * p.val; omega
    | ⟨1, _⟩ => show win2_0.index t (1 : Fin 2) * 1 + 1 * q.val = win2_5.index t (1 : Fin 2) * 1 + 1 * q.val; omega
  have h1 : ((cfg2.win 1).blk t).view.emb (ix2 (0 : Fin 1) q) = ix2 (0 : Fin 1) (0 : Fin 1) := by
    funext a; apply Fin.ext
    match a with
    | ⟨0, _⟩ => show win2_1.index t (0 : Fin 2) * 1 + 1 * 0 = 0; omega
    | ⟨1, _⟩ => show win2_1.index t (1 : Fin 2) * 1 + 1 * q.val = 0; have := q.isLt; omega
  have h2 : ((cfg2.win 2).blk t).view.emb (ix2 (0 : Fin 1) q) = ix2 (0 : Fin 1) (0 : Fin 1) := by
    funext a; apply Fin.ext
    match a with
    | ⟨0, _⟩ => show win2_2.index t (0 : Fin 2) * 1 + 1 * 0 = 0; omega
    | ⟨1, _⟩ => show win2_2.index t (1 : Fin 2) * 1 + 1 * q.val = 0; have := q.isLt; omega
  have h3 : ((cfg2.win 3).blk t).view.emb (ix2 (0 : Fin 1) q) = ix2 (0 : Fin 1) (0 : Fin 1) := by
    funext a; apply Fin.ext
    match a with
    | ⟨0, _⟩ => show win2_3.index t (0 : Fin 2) * 1 + 1 * 0 = 0; omega
    | ⟨1, _⟩ => show win2_3.index t (1 : Fin 2) * 1 + 1 * q.val = 0; have := q.isLt; omega
  have h4 : ((cfg2.win 4).blk t).view.emb (ix2 (0 : Fin 1) q) = ix2 (0 : Fin 1) (0 : Fin 1) := by
    funext a; apply Fin.ext
    match a with
    | ⟨0, _⟩ => show win2_4.index t (0 : Fin 2) * 1 + 1 * 0 = 0; omega
    | ⟨1, _⟩ => show win2_4.index t (1 : Fin 2) * 1 + 1 * q.val = 0; have := q.isLt; omega
  rw [h0, h1, h2, h3, h4]
  rfl

/-! ## The blocks tile the column -/

/-- An index of the output column lies in point t's block iff each coordinate lies in the block's range on its axis. -/
theorem mem_blk (t : Fin cfg2.N) (i : S2000000x1.Idx) :
    i ∈ ((cfg2.win 5).blk t).view.set ↔ ∀ a : Fin 2, win2_5.index t a * S10000x1.size a ≤ (i a).val ∧ (i a).val < win2_5.index t a * S10000x1.size a + S10000x1.size a := by
  show i ∈ ((View.whole main_v20).slice (win2_5.rect t)).set ↔ _
  rw [View.set_slice_whole, Rect.mem_set_unit]
  exact Iff.rfl

/-- Row r lies in the block of point r / 10000, which is written back. -/
theorem cover (i : S2000000x1.Idx) :
    ∃ t : Fin cfg2.N, (cfg2.win 5).flush t = true ∧ i ∈ ((cfg2.win 5).blk t).view.set := by
  have hi0 : (i 0).val < 2000000 := (i 0).isLt
  have hi1 : (i 1).val < 1 := (i 1).isLt
  have hN : cfg2.N = 200 := N_2
  obtain ⟨t, ht⟩ : ∃ t : Fin cfg2.N, t.val = (i 0).val / 10000 := ⟨⟨(i 0).val / 10000, by rw [hN]; omega⟩, rfl⟩
  obtain ⟨-, -, -, -, -, -, -, -, -, -, e50, e51⟩ := idx_facts t
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 1 ≤ (i 1).val ∧ (i 1).val < win2_5.index t (1 : Fin 2) * 1 + 1; omega

/-! ## The output column after the run -/

/-- The whole output column after the region's run. -/
theorem final (c : Dev nD) : (dat2 (F := Ideal) V c).arrAt 5 cfg2.N = G V c :=
  (dat2 (F := Ideal) V c).arrAt_eq_of_cover 5 (G V c) (fun t _ => flushed_eq V c t) cover

/-- Entry i of the output column: the normalisation of entry i of the input column by the four statistics. -/
theorem final2 (c : Dev nD) (i : Fin 2000000) :
    (dat2 (F := Ideal) V c).arrAt 5 cfg2.N (ix2 i (0 : Fin 1))
      = Cert.NodeSpec.bn (V c main_arg1 (ix2 i (0 : Fin 1))) (V c main_v11 (ix2 (0 : Fin 1) (0 : Fin 1)))
          (V c main_v17 (ix2 (0 : Fin 1) (0 : Fin 1))) (V c main_v18 (ix2 (0 : Fin 1) (0 : Fin 1)))
          (V c main_v19 (ix2 (0 : Fin 1) (0 : Fin 1))) :=
  congrFun (final V c) (ix2 i (0 : Fin 1))

end Cert.KernelIdeal.Apply2

end
-- ==== Proof.ApplyRegion3Pay.lean ====
/-
  Region 3 (the node update and readout), the stored block at an entry.

  At every grid point the body normalises the staged [10000, 5] feature block by the staged [1, 5] statistics
  (row by row, ((x − mean) · rsqrt(var + ε)) · scale + shift), multiplies it by the [5, 110] node weights, adds the
  [1, 110] bias row and the product of the staged [10000, 1] message column with the [1, 110] edge weights (a
  contraction over one coordinate), multiplies the [10000, 110] hidden block by the [110, 5] first readout weights,
  adds its bias row, gates by r · logistic r, multiplies by the [5, 5] second readout weights and adds the last bias
  row. The roundings to the short float format are the identity on the extended reals, and each product is a plain
  matrix product into a zero accumulator, i.e. the sum over the contracted coordinate. So entry (p, q) of the stored
  block is the node-level specification evaluated on row p of the two row-blocked operands and on the shared weights.
-/
import proofs.«155275_j36498632081408_2_alg».proof.Proof.Gen.KernelIdeal.Skeleton
import proofs.«155275_j36498632081408_2_alg».proof.Proof.LibRowMax
import proofs.«155275_j36498632081408_2_alg».proof.Proof.NodeSpec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Apply3

open Idealize.ShloMosaic Idealize.ShloMosaic.ValueIdx
open Cert.KernelIdeal Cert.KernelIdeal.Gen Cert.NodeSpec Cert.LibRowMax

/-! ## The four products are plain matrix products -/

theorem dims_node : dot_S10000x5_S5x110_S10000x110_1_0_0_1_n_n = plainDims 10000 5 110 dot_S10000x5_S5x110_S10000x110_1_0_0_1_n_n_wf := rfl
theorem dims_edge : dot_S10000x1_S1x110_S10000x110_1_0_0_1_n_n = plainDims 10000 1 110 dot_S10000x1_S1x110_S10000x110_1_0_0_1_n_n_wf := rfl
theorem dims_read1 : dot_S10000x110_S110x5_S10000x5_1_0_0_1_n_n = plainDims 10000 110 5 dot_S10000x110_S110x5_S10000x5_1_0_0_1_n_n_wf := rfl
theorem dims_read2 : dot_S10000x5_S5x5_S10000x5_1_0_0_1_n_n = plainDims 10000 5 5 dot_S10000x5_S5x5_S10000x5_1_0_0_1_n_n_wf := rfl

/-! ## The normalised features -/

/-- Entry (p, k) of the normalised feature block. -/
theorem norm_apply (v0 : Vec Ideal S10000x5 .f32) (v1 v3 v5 v7 : Vec Ideal S1x5 .f32) (p : Fin 10000) (k : Fin 5) :
    addf (mulf (mulf (subf v0 (broadcastTo S10000x5 v1 broadcasts_S1x5_S10000x5))
        (broadcastTo S10000x5 (rsqrt (addf v3 (broadcast S1x5 (Scalar.ofBits (F := Ideal) .f32 0x3727C5AC#32)))) broadcasts_S1x5_S10000x5))
        (broadcastTo S10000x5 v5 broadcasts_S1x5_S10000x5)) (broadcastTo S10000x5 v7 broadcasts_S1x5_S10000x5) (ix2 p k)
      = bn (v0 (ix2 p k)) (v1 (ix2 (0 : Fin 1) k)) (v3 (ix2 (0 : Fin 1) k)) (v5 (ix2 (0 : Fin 1) k)) (v7 (ix2 (0 : Fin 1) k)) := by
  show ((v0 (ix2 p k) - broadcastTo S10000x5 v1 broadcasts_S1x5_S10000x5 (ix2 p k))
        * broadcastTo S10000x5 (rsqrt (addf v3 (broadcast S1x5 (Scalar.ofBits (F := Ideal) .f32 0x3727C5AC#32)))) broadcasts_S1x5_S10000x5 (ix2 p k))
        * broadcastTo S10000x5 v5 broadcasts_S1x5_S10000x5 (ix2 p k)
        + broadcastTo S10000x5 v7 broadcasts_S1x5_S10000x5 (ix2 p k) = _
  rw [broadcastTo_1b_ab_apply v1 broadcasts_S1x5_S10000x5 p k, broadcastTo_1b_ab_apply v5 broadcasts_S1x5_S10000x5 p k,
    broadcastTo_1b_ab_apply v7 broadcasts_S1x5_S10000x5 p k, broadcastTo_1b_ab_apply _ broadcasts_S1x5_S10000x5 p k]
  rfl

/-! ## The hidden block -/

/-- Entry (p, e) of the hidden block: hidden unit e of the node in row p. -/
theorem hid_apply (v0 : Vec Ideal S10000x5 .f32) (v1 v3 v5 v7 : Vec Ideal S1x5 .f32) (v21 : Vec Ideal S5x110 .f32)
    (v24 : Vec Ideal S1x110 .f32) (v28 : Vec Ideal S10000x1 .f32) (v31 : Vec Ideal S1x110 .f32) (p : Fin 10000) (e : Fin 110) :
    Gen.k3_pay2 (F := Ideal) v0 v1 v3 v5 v7 v21 v24 v28 v31 (ix2 p e)
      = hid (fun k => bn (v0 (ix2 p k)) (v1 (ix2 (0 : Fin 1) k)) (v3 (ix2 (0 : Fin 1) k)) (v5 (ix2 (0 : Fin 1) k)) (v7 (ix2 (0 : Fin 1) k)))
          (v28 (ix2 p (0 : Fin 1))) (fun k e => v21 (ix2 k e)) (fun e => v24 (ix2 (0 : Fin 1) e)) (fun e => v31 (ix2 (0 : Fin 1) e)) e := by
  unfold Gen.k3_pay2
  simp only [shapeCast_self]
  rw [dims_node, dims_edge]
  show (FloatOps.matmul (F := Ideal) (plainDims 10000 5 110 dot_S10000x5_S5x110_S10000x110_1_0_0_1_n_n_wf) none _ _ (constant S10000x110 .f32 0x00000000#32) (ix2 p e)
      + broadcastTo S10000x110 v24 broadcasts_S1x110_S10000x110 (ix2 p e))
      + FloatOps.matmul (F := Ideal) (plainDims 10000 1 110 dot_S10000x1_S1x110_S10000x110_1_0_0_1_n_n_wf) none _ _ (constant S10000x110 .f32 0x00000000#32) (ix2 p e) = _
  rw [matmul_plain_apply, matmul_plain_apply, broadcastTo_1b_ab_apply v24 broadcasts_S1x110_S10000x110 p e]
  unfold hid
  refine congrArg₂ (· + ·) (congrArg (· + v24 (ix2 (0 : Fin 1) e)) (Finset.sum_congr rfl fun k _ => ?_)) (Finset.sum_congr rfl fun k _ => ?_)
  · exact congrArg (· * v21 (ix2 k e)) (norm_apply v0 v1 v3 v5 v7 p k)
  · obtain rfl : k = 0 := Subsingleton.elim k 0
    rfl

/-! ## The readout -/

/-- Entry (p, q) of the stored block, from the hidden block: the two readout layers of the node in row p. -/
theorem read_apply (v35 : FVec Ideal S10000x110 .bf16) (v36 : Vec Ideal S110x5 .f32) (v39 : Vec Ideal S1x5 .f32)
    (v46 : Vec Ideal S5x5 .f32) (v49 : Vec Ideal S1x5 .f32) (p : Fin 10000) (q : Fin 5) :
    Gen.k3_pay1 (F := Ideal) v35 v36 v39 v46 v49 (ix2 p q)
      = outp (fun j => act (fun e => v35 (ix2 p e)) (fun e j => v36 (ix2 e j)) (fun j => v39 (ix2 (0 : Fin 1) j)) j)
          (fun j q => v46 (ix2 j q)) (fun q => v49 (ix2 (0 : Fin 1) q)) q := by
  unfold Gen.k3_pay1
  simp only [shapeCast_self]
  rw [dims_read1, dims_read2]
  show FloatOps.matmul (F := Ideal) (plainDims 10000 5 5 dot_S10000x5_S5x5_S10000x5_1_0_0_1_n_n_wf) none _ _ (constant S10000x5 .f32 0x00000000#32) (ix2 p q)
      + broadcastTo S10000x5 v49 broadcasts_S1x5_S10000x5 (ix2 p q) = _
  rw [matmul_plain_apply, broadcastTo_1b_ab_apply v49 broadcasts_S1x5_S10000x5 p q]
  unfold outp
  refine congrArg (· + v49 (ix2 (0 : Fin 1) q)) (Finset.sum_congr rfl fun j _ => ?_)
  refine congrArg (· * v46 (ix2 j q)) ?_
  have hr : (addf (FloatOps.matmul (F := Ideal) (plainDims 10000 110 5 dot_S10000x110_S110x5_S10000x5_1_0_0_1_n_n_wf) none v35
        (truncf .bf16 v36 bitsLt_bf16_f32) (constant S10000x5 .f32 0x00000000#32)) (broadcastTo S10000x5 v39 broadcasts_S1x5_S10000x5)) (ix2 p j)
      = (∑ e : Fin 110, v35 (ix2 p e) * v36 (ix2 e j)) + v39 (ix2 (0 : Fin 1) j) := by
    show FloatOps.matmul (F := Ideal) (plainDims 10000 110 5 dot_S10000x110_S110x5_S10000x5_1_0_0_1_n_n_wf) none v35
        (truncf .bf16 v36 bitsLt_bf16_f32) (constant S10000x5 .f32 0x00000000#32) (ix2 p j) + broadcastTo S10000x5 v39 broadcasts_S1x5_S10000x5 (ix2 p j) = _
    rw [matmul_plain_apply, broadcastTo_1b_ab_apply v39 broadcasts_S1x5_S10000x5 p j]
    rfl
  show (addf (FloatOps.matmul (F := Ideal) (plainDims 10000 110 5 dot_S10000x110_S110x5_S10000x5_1_0_0_1_n_n_wf) none v35
        (truncf .bf16 v36 bitsLt_bf16_f32) (constant S10000x5 .f32 0x00000000#32)) (broadcastTo S10000x5 v39 broadcasts_S1x5_S10000x5)) (ix2 p j)
      * Ideal.logistic ((addf (FloatOps.matmul (F := Ideal) (plainDims 10000 110 5 dot_S10000x110_S110x5_S10000x5_1_0_0_1_n_n_wf) none v35
        (truncf .bf16 v36 bitsLt_bf16_f32) (constant S10000x5 .f32 0x00000000#32)) (broadcastTo S10000x5 v39 broadcasts_S1x5_S10000x5)) (ix2 p j)) = _
  rw [hr]
  rfl

/-! ## The stored block at an entry -/

/-- Entry (p, q) of the stored block: the node-level specification on row p of the row-blocked operands. -/
theorem node_apply (v0 : Vec Ideal S10000x5 .f32) (v1 v3 v5 v7 : Vec Ideal S1x5 .f32) (v21 : Vec Ideal S5x110 .f32)
    (v24 : Vec Ideal S1x110 .f32) (v28 : Vec Ideal S10000x1 .f32) (v31 : Vec Ideal S1x110 .f32)
    (v36 : Vec Ideal S110x5 .f32) (v39 : Vec Ideal S1x5 .f32) (v46 : Vec Ideal S5x5 .f32) (v49 : Vec Ideal S1x5 .f32)
    (p : Fin 10000) (q : Fin 5) :
    Gen.k3_pay1 (F := Ideal) (Gen.k3_pay2 (F := Ideal) v0 v1 v3 v5 v7 v21 v24 v28 v31) v36 v39 v46 v49 (ix2 p q)
      = outp (fun j => act (fun e =>
            hid (fun k => bn (v0 (ix2 p k)) (v1 (ix2 (0 : Fin 1) k)) (v3 (ix2 (0 : Fin 1) k)) (v5 (ix2 (0 : Fin 1) k)) (v7 (ix2 (0 : Fin 1) k)))
              (v28 (ix2 p (0 : Fin 1))) (fun k e => v21 (ix2 k e)) (fun e => v24 (ix2 (0 : Fin 1) e)) (fun e => v31 (ix2 (0 : Fin 1) e)) e)
          (fun e j => v36 (ix2 e j)) (fun j => v39 (ix2 (0 : Fin 1) j)) j)
          (fun j q => v46 (ix2 j q)) (fun q => v49 (ix2 (0 : Fin 1) q)) q := by
  rw [read_apply]
  simp only [hid_apply]

end Cert.KernelIdeal.Apply3

end
-- ==== Proof.ApplyRegion3.lean ====
/-
  Region 3 (the node update and readout): the output array, entry by entry.

  The region's grid has 100 points; point t stages rows 10000·t … 10000·t + 9999 of the [1000000, 5] feature array
  and of the [1000000, 1] message column, and the eleven small operands (the feature statistics and the weights and
  biases of the three layers) whole and unchanged at every point, and stores the whole [10000, 5] result block at
  block index (t, 0). Entry (p, q) of the stored block is the node-level specification on row p of the two staged
  row blocks, that is on row 10000·t + p of the two arrays. The blocks tile the output array exactly (row r lies in
  the block of point r / 10000), so after the run entry (i, q) of the output array is the specification on row i.
-/
import proofs.«155275_j36498632081408_2_alg».proof.Proof.Gen.KernelIdeal.Frame
import proofs.«155275_j36498632081408_2_alg».proof.Proof.ApplyRegion3Pay
import proofs.«155275_j36498632081408_2_alg».proof.Proof.NodeSpec
import Idealize.ShloMosaic.Lib.Pipeline.Value
import Idealize.ShloMosaic.Lib.ValueLayout
import Idealize.ShloMosaic.Lib.ValueIdx

set_option maxRecDepth 16384

noncomputable section

namespace Cert.KernelIdeal.Apply3

open Idealize.ShloMosaic Idealize.ShloMosaic.TcCoe Idealize.ShloMosaic.ValueIdx Idealize.SL.Sem
open Idealize.ShloMosaic.Pipeline (Dat)
open Cert.KernelIdeal Cert.KernelIdeal.Gen Cert.NodeSpec

theorem hz : (![0, 0] : Fin 2 → Nat) = fun _ => 0 := funext fun a => by fin_cases a <;> rfl

/-! ## The blocks' positions -/

/-- The printed index maps over the grid: the three row-blocked windows' block row is the point, every other block
    index is 0. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = 0
    ∧ win3_11.index t (1 : Fin 2) = 0
    ∧ win3_12.index t (0 : Fin 2) = 0
    ∧ win3_12.index t (1 : Fin 2) = 0
    ∧ win3_13.index t (0 : Fin 2) = t.val
    ∧ win3_13.index t (1 : Fin 2) = 0 :=
  (by decide +kernel : ∀ t : Fin grid3.N, _)

/-- Row a of point t's block is row 10000·t + a of the array. -/
def row (t : Fin cfg3.N) (a : Fin 10000) : Fin 1000000 :=
  ⟨t.val * 10000 + a.val, by have h : t.val < 100 := Nat.lt_of_lt_of_eq t.isLt N_3; have := a.isLt; omega⟩

theorem row_val (t : Fin cfg3.N) (a : Fin 10000) : (row t a).val = t.val * 10000 + a.val := rfl

variable (V : (c : Dev nD) → (b : Ref sig .tc) → Buf (Elt Ideal) ((c : Thread nD τ).loc b))

/-! ## The staged blocks, read off the arrays -/

/-- Window 0's block at point t, at an entry: the entry of its array in row 10000·t + a. -/
theorem rd0 (c : Dev nD) (t : Fin cfg3.N) (a : Fin 10000) (b : Fin 5) :
    (iblk3 V c 0 t : Vec Ideal S10000x5 .f32) (ix2 a b) = V c main_arg0 (ix2 (row t a) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_arg0 _ = V c main_arg0 _
  refine congrArg (V c main_arg0) (funext fun ax => Fin.ext ?_)
  match ax with
  | ⟨0, _⟩ => show win3_0.index t (0 : Fin 2) * 10000 + 1 * a.val = (row t a).val; rw [row_val]; omega
  | ⟨1, _⟩ => show win3_0.index t (1 : Fin 2) * 5 + 1 * b.val = b.val; omega

/-- Window 1's block at point t, at an entry: the entry of its array in row 10000·t + a. -/
theorem rd1 (c : Dev nD) (t : Fin cfg3.N) (a : Fin 10000) :
    (iblk3 V c 1 t : Vec Ideal S10000x1 .f32) (ix2 a (0 : Fin 1)) = V c main_v25 (ix2 (row t a) (0 : Fin 1)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_v25 _ = V c main_v25 _
  refine congrArg (V c main_v25) (funext fun ax => Fin.ext ?_)
  match ax with
  | ⟨0, _⟩ => show win3_1.index t (0 : Fin 2) * 10000 + 1 * a.val = (row t a).val; rw [row_val]; omega
  | ⟨1, _⟩ => show win3_1.index t (1 : Fin 2) * 1 + 1 * 0 = 0; omega

/-- Window 2's block at point t, at an entry: the entry of its array at the same place. -/
theorem rd2 (c : Dev nD) (t : Fin cfg3.N) (b : Fin 5) :
    (iblk3 V c 2 t : Vec Ideal S1x5 .f32) (ix2 (0 : Fin 1) b) = V c main_v2 (ix2 (0 : Fin 1) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_v2 _ = V c main_v2 _
  refine congrArg (V c main_v2) (funext fun ax => Fin.ext ?_)
  match ax with
  | ⟨0, _⟩ => show win3_2.index t (0 : Fin 2) * 1 + 1 * 0 = 0; omega
  | ⟨1, _⟩ => show win3_2.index t (1 : Fin 2) * 5 + 1 * b.val = b.val; omega

/-- Window 3's block at point t, at an entry: the entry of its array at the same place. -/
theorem rd3 (c : Dev nD) (t : Fin cfg3.N) (b : Fin 5) :
    (iblk3 V c 3 t : Vec Ideal S1x5 .f32) (ix2 (0 : Fin 1) b) = V c main_v8 (ix2 (0 : Fin 1) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_v8 _ = V c main_v8 _
  refine congrArg (V c main_v8) (funext fun ax => Fin.ext ?_)
  match ax with
  | ⟨0, _⟩ => show win3_3.index t (0 : Fin 2) * 1 + 1 * 0 = 0; omega
  | ⟨1, _⟩ => show win3_3.index t (1 : Fin 2) * 5 + 1 * b.val = b.val; omega

/-- Window 4's block at point t, at an entry: the entry of its array at the same place. -/
theorem rd4 (c : Dev nD) (t : Fin cfg3.N) (b : Fin 5) :
    (iblk3 V c 4 t : Vec Ideal S1x5 .f32) (ix2 (0 : Fin 1) b) = V c main_v26 (ix2 (0 : Fin 1) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_v26 _ = V c main_v26 _
  refine congrArg (V c main_v26) (funext fun ax => Fin.ext ?_)
  match ax with
  | ⟨0, _⟩ => show win3_4.index t (0 : Fin 2) * 1 + 1 * 0 = 0; omega
  | ⟨1, _⟩ => show win3_4.index t (1 : Fin 2) * 5 + 1 * b.val = b.val; omega

/-- Window 5's block at point t, at an entry: the entry of its array at the same place. -/
theorem rd5 (c : Dev nD) (t : Fin cfg3.N) (b : Fin 5) :
    (iblk3 V c 5 t : Vec Ideal S1x5 .f32) (ix2 (0 : Fin 1) b) = V c main_v27 (ix2 (0 : Fin 1) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_v27 _ = V c main_v27 _
  refine congrArg (V c main_v27) (funext fun ax => Fin.ext ?_)
  match ax with
  | ⟨0, _⟩ => show win3_5.index t (0 : Fin 2) * 1 + 1 * 0 = 0; omega
  | ⟨1, _⟩ => show win3_5.index t (1 : Fin 2) * 5 + 1 * b.val = b.val; omega

/-- Window 6's block at point t, at an entry: the entry of its array at the same place. -/
theorem rd6 (c : Dev nD) (t : Fin cfg3.N) (a : Fin 5) (b : Fin 110) :
    (iblk3 V c 6 t : Vec Ideal S5x110 .f32) (ix2 a b) = V c main_arg8 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_arg8 _ = V c main_arg8 _
  refine congrArg (V c main_arg8) (funext fun ax => Fin.ext ?_)
  match ax with
  | ⟨0, _⟩ => show win3_6.index t (0 : Fin 2) * 5 + 1 * a.val = a.val; omega
  | ⟨1, _⟩ => show win3_6.index t (1 : Fin 2) * 110 + 1 * b.val = b.val; omega

/-- Window 7's block at point t, at an entry: the entry of its array at the same place. -/
theorem rd7 (c : Dev nD) (t : Fin cfg3.N) (b : Fin 110) :
    (iblk3 V c 7 t : Vec Ideal S1x110 .f32) (ix2 (0 : Fin 1) b) = V c main_v28 (ix2 (0 : Fin 1) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_v28 _ = V c main_v28 _
  refine congrArg (V c main_v28) (funext fun ax => Fin.ext ?_)
  match ax with
  | ⟨0, _⟩ => show win3_7.index t (0 : Fin 2) * 1 + 1 * 0 = 0; omega
  | ⟨1, _⟩ => show win3_7.index t (1 : Fin 2) * 110 + 1 * b.val = b.val; omega

/-- Window 8's block at point t, at an entry: the entry of its array at the same place. -/
theorem rd8 (c : Dev nD) (t : Fin cfg3.N) (b : Fin 110) :
    (iblk3 V c 8 t : Vec Ideal S1x110 .f32) (ix2 (0 : Fin 1) b) = V c main_arg10 (ix2 (0 : Fin 1) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_arg10 _ = V c main_arg10 _
  refine congrArg (V c main_arg10) (funext fun ax => Fin.ext ?_)
  match ax with
  | ⟨0, _⟩ => show win3_8.index t (0 : Fin 2) * 1 + 1 * 0 = 0; omega
  | ⟨1, _⟩ => show win3_8.index t (1 : Fin 2) * 110 + 1 * b.val = b.val; omega

/-- Window 9's block at point t, at an entry: the entry of its array at the same place. -/
theorem rd9 (c : Dev nD) (t : Fin cfg3.N) (a : Fin 110) (b : Fin 5) :
    (iblk3 V c 9 t : Vec Ideal S110x5 .f32) (ix2 a b) = V c main_arg11 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_arg11 _ = V c main_arg11 _
  refine congrArg (V c main_arg11) (funext fun ax => Fin.ext ?_)
  match ax with
  | ⟨0, _⟩ => show win3_9.index t (0 : Fin 2) * 110 + 1 * a.val = a.val; omega
  | ⟨1, _⟩ => show win3_9.index t (1 : Fin 2) * 5 + 1 * b.val = b.val; omega

/-- Window 10's block at point t, at an entry: the entry of its array at the same place. -/
theorem rd10 (c : Dev nD) (t : Fin cfg3.N) (b : Fin 5) :
    (iblk3 V c 10 t : Vec Ideal S1x5 .f32) (ix2 (0 : Fin 1) b) = V c main_v29 (ix2 (0 : Fin 1) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_v29 _ = V c main_v29 _
  refine congrArg (V c main_v29) (funext fun ax => Fin.ext ?_)
  match ax with
  | ⟨0, _⟩ => show win3_10.index t (0 : Fin 2) * 1 + 1 * 0 = 0; omega
  | ⟨1, _⟩ => show win3_10.index t (1 : Fin 2) * 5 + 1 * b.val = b.val; omega

/-- Window 11's block at point t, at an entry: the entry of its array at the same place. -/
theorem rd11 (c : Dev nD) (t : Fin cfg3.N) (a : Fin 5) (b : Fin 5) :
    (iblk3 V c 11 t : Vec Ideal S5x5 .f32) (ix2 a b) = V c main_arg13 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_arg13 _ = V c main_arg13 _
  refine congrArg (V c main_arg13) (funext fun ax => Fin.ext ?_)
  match ax with
  | ⟨0, _⟩ => show win3_11.index t (0 : Fin 2) * 5 + 1 * a.val = a.val; omega
  | ⟨1, _⟩ => show win3_11.index t (1 : Fin 2) * 5 + 1 * b.val = b.val; omega

/-- Window 12's block at point t, at an entry: the entry of its array at the same place. -/
theorem rd12 (c : Dev nD) (t : Fin cfg3.N) (b : Fin 5) :
    (iblk3 V c 12 t : Vec Ideal S1x5 .f32) (ix2 (0 : Fin 1) b) = V c main_v30 (ix2 (0 : Fin 1) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  unfold iblk3
  rw [View.read_apply]
  show V c main_v30 _ = V c main_v30 _
  refine congrArg (V c main_v30) (funext fun ax => Fin.ext ?_)
  match ax with
  | ⟨0, _⟩ => show win3_12.index t (0 : Fin 2) * 1 + 1 * 0 = 0; omega
  | ⟨1, _⟩ => show win3_12.index t (1 : Fin 2) * 5 + 1 * b.val = b.val; omega

/-! ## The output array as one function of the arrays the region finds -/

/-- Entry (i, q): the node-level specification on row i of the feature array and of the message column. -/
def node (c : Dev nD) (i : Fin 1000000) (q : Fin 5) : EReal :=
  outp (fun j => act (fun e =>
        hid (fun k => bn (V c main_arg0 (ix2 i k)) (V c main_v2 (ix2 (0 : Fin 1) k)) (V c main_v8 (ix2 (0 : Fin 1) k)) (V c main_v26 (ix2 (0 : Fin 1) k)) (V c main_v27 (ix2 (0 : Fin 1) k)))
          (V c main_v25 (ix2 i (0 : Fin 1))) (fun k e => V c main_arg8 (ix2 k e)) (fun e => V c main_v28 (ix2 (0 : Fin 1) e)) (fun e => V c main_arg10 (ix2 (0 : Fin 1) e)) e)
      (fun e j => V c main_arg11 (ix2 e j)) (fun j => V c main_v29 (ix2 (0 : Fin 1) j)) j)
      (fun j q => V c main_arg13 (ix2 j q)) (fun q => V c main_v30 (ix2 (0 : Fin 1) q)) q

/-- The whole output array. -/
def G (c : Dev nD) : S1000000x5.Idx → EReal := fun j => node V c (j 0) (j 1)

/-- A stored block is any function of the block's entries that agrees with the specification on the staged values. -/
theorem pay_eq_of (x0 : Vec Ideal S10000x5 .f32) (x1 : Vec Ideal S10000x1 .f32) (x2 : Vec Ideal S1x5 .f32) (x3 : Vec Ideal S1x5 .f32) (x4 : Vec Ideal S1x5 .f32) (x5 : Vec Ideal S1x5 .f32) (x6 : Vec Ideal S5x110 .f32) (x7 : Vec Ideal S1x110 .f32) (x8 : Vec Ideal S1x110 .f32) (x9 : Vec Ideal S110x5 .f32) (x10 : Vec Ideal S1x5 .f32) (x11 : Vec Ideal S5x5 .f32) (x12 : Vec Ideal S1x5 .f32)
    (g : S10000x5.Idx → EReal)
    (h : ∀ (p : Fin 10000) (q : Fin 5), g (ix2 p q) = outp (fun j => act (fun e =>
        hid (fun k => bn (x0 (ix2 p k)) (x2 (ix2 (0 : Fin 1) k)) (x3 (ix2 (0 : Fin 1) k)) (x4 (ix2 (0 : Fin 1) k)) (x5 (ix2 (0 : Fin 1) k)))
          (x1 (ix2 p (0 : Fin 1))) (fun k e => x6 (ix2 k e)) (fun e => x7 (ix2 (0 : Fin 1) e)) (fun e => x8 (ix2 (0 : Fin 1) e)) e)
      (fun e j => x9 (ix2 e j)) (fun j => x10 (ix2 (0 : Fin 1) j)) j)
      (fun j q => x11 (ix2 j q)) (fun q => x12 (ix2 (0 : Fin 1) q)) q) :
    Gen.k3_pay1 (F := Ideal) (Gen.k3_pay2 (F := Ideal) x0 x2 x3 x4 x5 x6 x7 x1 x8) x9 x10 x11 x12 = g := by
  funext j
  obtain ⟨p, q, rfl⟩ : ∃ (p : Fin 10000) (q : Fin 5), j = ix2 p q := ⟨j 0, j 1, eq_ix2 j⟩
  rw [node_apply, h]

/-- Where entry (p, q) of point t's output block sits in the output array. -/
theorem emb_out (t : Fin cfg3.N) (p : Fin 10000) (q : Fin 5) :
    ((cfg3.win 13).blk t).view.emb (ix2 p q) = ix2 (row t p) q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext ax; apply Fin.ext
  match ax with
  | ⟨0, _⟩ => show win3_13.index t (0 : Fin 2) * 10000 + 1 * p.val = (row t p).val; rw [row_val]; omega
  | ⟨1, _⟩ => show win3_13.index t (1 : Fin 2) * 5 + 1 * q.val = q.val; omega

/-- What point t writes back is block t of G. -/
theorem flushed_eq (c : Dev nD) (t : Fin cfg3.N) :
    (dat3 (F := Ideal) V c).flushed 13 t = ((cfg3.win 13).blk t).view.read (Elt Ideal) (G V c) := by
  show (cfg3.win 13).cut (grid3.coords t) ((dat3 (F := Ideal) V c).after 13 t) = _
  rw [after3_13]
  unfold out3_13
  rw [View.canon_unit_zero hz]
  simp only [View.ld_unit_zero (S := S10000x5) hz, View.ld_unit_zero (S := S10000x1) hz, View.ld_unit_zero (S := S1x5) hz,
    View.ld_unit_zero (S := S5x110) hz, View.ld_unit_zero (S := S1x110) hz, View.ld_unit_zero (S := S110x5) hz,
    View.ld_unit_zero (S := S5x5) hz]
  refine pay_eq_of (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) _ (fun p q => ?_)
  show G V c (((cfg3.win 13).blk t).view.emb (ix2 p q)) = outp (fun j => act (fun e =>
        hid (fun k => bn ((iblk3 V c 0 t : Vec Ideal S10000x5 .f32) (ix2 p k)) ((iblk3 V c 2 t : Vec Ideal S1x5 .f32) (ix2 (0 : Fin 1) k)) ((iblk3 V c 3 t : Vec Ideal S1x5 .f32) (ix2 (0 : Fin 1) k)) ((iblk3 V c 4 t : Vec Ideal S1x5 .f32) (ix2 (0 : Fin 1) k)) ((iblk3 V c 5 t : Vec Ideal S1x5 .f32) (ix2 (0 : Fin 1) k)))
          ((iblk3 V c 1 t : Vec Ideal S10000x1 .f32) (ix2 p (0 : Fin 1))) (fun k e => (iblk3 V c 6 t : Vec Ideal S5x110 .f32) (ix2 k e)) (fun e => (iblk3 V c 7 t : Vec Ideal S1x110 .f32) (ix2 (0 : Fin 1) e)) (fun e => (iblk3 V c 8 t : Vec Ideal S1x110 .f32) (ix2 (0 : Fin 1) e)) e)
      (fun e j => (iblk3 V c 9 t : Vec Ideal S110x5 .f32) (ix2 e j)) (fun j => (iblk3 V c 10 t : Vec Ideal S1x5 .f32) (ix2 (0 : Fin 1) j)) j)
      (fun j q => (iblk3 V c 11 t : Vec Ideal S5x5 .f32) (ix2 j q)) (fun q => (iblk3 V c 12 t : Vec Ideal S1x5 .f32) (ix2 (0 : Fin 1) q)) q
  rw [emb_out]
  simp only [rd0 V c t, rd1 V c t, rd2 V c t, rd3 V c t, rd4 V c t, rd5 V c t, rd6 V c t, rd7 V c t, rd8 V c t, rd9 V c t, rd10 V c t, rd11 V c t, rd12 V c t]
  rfl

/-! ## The blocks tile the array -/

/-- An index of the output array lies in point t's block iff each coordinate lies in the block's range on its axis. -/
theorem mem_blk (t : Fin cfg3.N) (i : S1000000x5.Idx) :
    i ∈ ((cfg3.win 13).blk t).view.set ↔ ∀ a : Fin 2, win3_13.index t a * S10000x5.size a ≤ (i a).val ∧ (i a).val < win3_13.index t a * S10000x5.size a + S10000x5.size a := by
  show i ∈ ((View.whole main_v31).slice (win3_13.rect t)).set ↔ _
  rw [View.set_slice_whole, Rect.mem_set_unit]
  exact Iff.rfl

/-- Row r lies in the block of point r / 10000, which is written back. -/
theorem cover (i : S1000000x5.Idx) :
    ∃ t : Fin cfg3.N, (cfg3.win 13).flush t = true ∧ i ∈ ((cfg3.win 13).blk t).view.set := by
  have hi0 : (i 0).val < 1000000 := (i 0).isLt
  have hi1 : (i 1).val < 5 := (i 1).isLt
  have hN : cfg3.N = 100 := N_3
  obtain ⟨t, ht⟩ : ∃ t : Fin cfg3.N, t.val = (i 0).val / 10000 := ⟨⟨(i 0).val / 10000, by rw [hN]; omega⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  refine ⟨t, flush3_13 t, ?_⟩
  rw [mem_blk]
  intro a
  match a with
  | ⟨0, _⟩ => show win3_13.index t (0 : Fin 2) * 10000 ≤ (i 0).val ∧ (i 0).val < win3_13.index t (0 : Fin 2) * 10000 + 10000; omega
  | ⟨1, _⟩ => show win3_13.index t (1 : Fin 2) * 5 ≤ (i 1).val ∧ (i 1).val < win3_13.index t (1 : Fin 2) * 5 + 5; omega

/-! ## The output array after the run -/

/-- The whole output array after the region's run. -/
theorem final (c : Dev nD) : (dat3 (F := Ideal) V c).arrAt 13 cfg3.N = G V c :=
  (dat3 (F := Ideal) V c).arrAt_eq_of_cover 13 (G V c) (fun t _ => flushed_eq V c t) cover

/-- Entry (i, q) of the output array: the node-level specification on row i. -/
theorem final3 (c : Dev nD) (i : Fin 1000000) (q : Fin 5) :
    (dat3 (F := Ideal) V c).arrAt 13 cfg3.N (ix2 i q) = outp (fun j => act (fun e =>
        hid (fun k => bn (V c main_arg0 (ix2 i k)) (V c main_v2 (ix2 (0 : Fin 1) k)) (V c main_v8 (ix2 (0 : Fin 1) k)) (V c main_v26 (ix2 (0 : Fin 1) k)) (V c main_v27 (ix2 (0 : Fin 1) k)))
          (V c main_v25 (ix2 i (0 : Fin 1))) (fun k e => V c main_arg8 (ix2 k e)) (fun e => V c main_v28 (ix2 (0 : Fin 1) e)) (fun e => V c main_arg10 (ix2 (0 : Fin 1) e)) e)
      (fun e j => V c main_arg11 (ix2 e j)) (fun j => V c main_v29 (ix2 (0 : Fin 1) j)) j)
      (fun j q => V c main_arg13 (ix2 j q)) (fun q => V c main_v30 (ix2 (0 : Fin 1) q)) q :=
  congrFun (final V c) (ix2 i q)

end Cert.KernelIdeal.Apply3

end
-- ==== Proof.KValue.lean ====
/-
  The idealized kernel program's buffers as the reference's stages. Region by region, from the launch memory: the
  statistics regions leave the column sums and sums of squares, from which the host forms the reference's means and
  (for real inputs) variances; the edge region leaves the reference's normalised edge attributes; their segment sum
  is the reference's message array; the node region leaves the reference's node outputs; their segment sum is the
  reference's result.
-/
import proofs.«155275_j36498632081408_2_alg».proof.Proof.KStats
import proofs.«155275_j36498632081408_2_alg».proof.Proof.StatsRegions
import proofs.«155275_j36498632081408_2_alg».proof.Proof.ApplyRegion2
import proofs.«155275_j36498632081408_2_alg».proof.Proof.ApplyRegion3

set_option maxRecDepth 16384

noncomputable section

namespace Cert.KernelIdeal.Whole

open Idealize.ShloMosaic Idealize.ShloMosaic.TcCoe Idealize.ShloMosaic.ValueIdx
open Idealize.SL.Sem
open Cert.KernelIdeal Cert.KernelIdeal.Gen
open Cert.ReferenceIdeal.Read Cert.ReferenceIdeal.Node Cert.NodeSpec

variable (m : (ℓ : Loc nD τ sig) → Buf (Elt Ideal) ℓ) (ρ : Dev nD → PrngReg) (c : Dev nD)

/-- The node features and the edge attributes as launched. -/
abbrev feat : S1000000x5.Idx → EReal := m ((c : Thread nD τ).loc main_arg0)
abbrev attr : S2000000x1.Idx → EReal := m ((c : Thread nD τ).loc main_arg1)

theorem bn_congr {x x' mu mu' var var' g g' b b' : EReal} (hx : x = x') (hmu : mu = mu') (hvar : var = var')
    (hg : g = g') (hb : b = b') : bn x mu var g b = bn x' mu' var' g' b' := by
  rw [hx, hmu, hvar, hg, hb]

/-! ## The node features' statistics -/

theorem sum_x (k : Fin 5) :
    (W1 m ρ c (Proc.devRef .tc main_v0_0) : S1x5.Idx → EReal) (ix2 (0 : Fin 1) k) = ∑ i : Fin 1000000, feat m c (ix2 i k) :=
  (congrFun (W1_arr m ρ c 1) _).trans (Cert.KernelIdeal.Stats.sum0 (V0 m ρ) c k)

theorem sumsq_x (k : Fin 5) :
    (W1 m ρ c (Proc.devRef .tc main_v0_1) : S1x5.Idx → EReal) (ix2 (0 : Fin 1) k)
      = ∑ i : Fin 1000000, feat m c (ix2 i k) * feat m c (ix2 i k) :=
  (congrFun (W1_arr m ρ c 2) _).trans (Cert.KernelIdeal.Stats.sumsq0 (V0 m ρ) c k)

/-- The node region's output at node `i`, output `q`, from what its operand arrays hold at entry. -/
theorem node_reads (V : (c : Dev nD) → (b : Ref sig .tc) → Buf (Elt Ideal) ((c : Thread nD τ).loc b)) (i : Fin 1000000) (q : Fin 5)
    {a0 : S1000000x5.Idx → EReal} {msg : S1000000x1.Idx → EReal} {a8 : S5x110.Idx → EReal} {a10 : S1x110.Idx → EReal}
    {a11 : S110x5.Idx → EReal} {a13 : S5x5.Idx → EReal} {mu var g b b1 b2 : Fin 5 → EReal} {bg : Fin 110 → EReal}
    (h0 : V c main_arg0 = a0) (hmsg : V c main_v25 = msg) (h8 : V c main_arg8 = a8) (h10 : V c main_arg10 = a10)
    (h11 : V c main_arg11 = a11) (h13 : V c main_arg13 = a13)
    (hmu : ∀ k : Fin 5, V c main_v2 (ix2 (0 : Fin 1) k) = mu k) (hvar : ∀ k : Fin 5, V c main_v8 (ix2 (0 : Fin 1) k) = var k)
    (hg : ∀ k : Fin 5, V c main_v26 (ix2 (0 : Fin 1) k) = g k) (hb : ∀ k : Fin 5, V c main_v27 (ix2 (0 : Fin 1) k) = b k)
    (hbg : ∀ e : Fin 110, V c main_v28 (ix2 (0 : Fin 1) e) = bg e) (hb1 : ∀ j : Fin 5, V c main_v29 (ix2 (0 : Fin 1) j) = b1 j)
    (hb2 : ∀ j : Fin 5, V c main_v30 (ix2 (0 : Fin 1) j) = b2 j) :
    (dat3 (F := Ideal) V c).arrAt 13 cfg3.N (ix2 i q)
      = outp (fun j => act (fun e => hid (fun k => bn (a0 (ix2 i k)) (mu k) (var k) (g k) (b k)) (msg (ix2 i (0 : Fin 1)))
            (fun k e => a8 (ix2 k e)) (fun e => bg e) (fun e => a10 (ix2 (0 : Fin 1) e)) e)
          (fun e j => a11 (ix2 e j)) (fun j => b1 j) j)
        (fun j q => a13 (ix2 j q)) (fun q => b2 q) q := by
  rw [Cert.KernelIdeal.Apply3.final3 V c i q]
  subst h0 hmsg h8 h10 h11 h13
  simp only [hmu, hvar, hg, hb, hbg, hb1, hb2]

theorem sum_e :
    (W3 m ρ c (Proc.devRef .tc main_v9_0) : S1x1.Idx → EReal) (ix2 (0 : Fin 1) (0 : Fin 1))
      = ∑ i : Fin 2000000, attr m c (ix2 i (0 : Fin 1)) := by
  have h := Cert.KernelIdeal.Stats.sum1 (V2 m ρ) c
  have hx : Cert.KernelIdeal.Stats.X1 (V2 m ρ) c = attr m c := at2_main_arg1 m ρ c
  rw [hx] at h
  exact (congrFun (W3_arr m ρ c 1) _).trans h

theorem sumsq_e :
    (W3 m ρ c (Proc.devRef .tc main_v9_1) : S1x1.Idx → EReal) (ix2 (0 : Fin 1) (0 : Fin 1))
      = ∑ i : Fin 2000000, attr m c (ix2 i (0 : Fin 1)) * attr m c (ix2 i (0 : Fin 1)) := by
  have h := Cert.KernelIdeal.Stats.sumsq1 (V2 m ρ) c
  have hx : Cert.KernelIdeal.Stats.X1 (V2 m ρ) c = attr m c := at2_main_arg1 m ρ c
  rw [hx] at h
  exact (congrFun (W3_arr m ρ c 2) _).trans h

variable (hfin0 : ∀ j, ∃ r : ℝ, feat m c j = (r : EReal)) (hfin1 : ∀ j, ∃ r : ℝ, attr m c j = (r : EReal))
include hfin0 hfin1

theorem mean_x (k : Fin 5) :
    (W6 m ρ c (Proc.devRef .tc main_v2) : S1x5.Idx → EReal) (ix2 (0 : Fin 1) k) = muX (feat m c) k := by
  rw [at6_main_v2_from2, v2_at, sum_x]
  exact (stats_million (fun i => feat m c (ix2 i k)) (fun i => hfin0 _)).1

theorem var_x (k : Fin 5) :
    (W6 m ρ c (Proc.devRef .tc main_v8) : S1x5.Idx → EReal) (ix2 (0 : Fin 1) k) = varX (feat m c) k := by
  rw [at6_main_v8_from2, v8_at, sum_x, sumsq_x]
  exact (stats_million (fun i => feat m c (ix2 i k)) (fun i => hfin0 _)).2

/-! ## The edge attributes' statistics -/

theorem mean_e :
    (W4 m ρ c (Proc.devRef .tc main_v11) : S1x1.Idx → EReal) (ix2 (0 : Fin 1) (0 : Fin 1)) = muE (attr m c) := by
  rw [v11_at, sum_e]
  exact (stats_two_million (fun i => attr m c (ix2 i (0 : Fin 1))) (fun i => hfin1 _)).1

theorem var_e :
    (W4 m ρ c (Proc.devRef .tc main_v17) : S1x1.Idx → EReal) (ix2 (0 : Fin 1) (0 : Fin 1)) = varE (attr m c) := by
  rw [v17_at, sum_e, sumsq_e]
  exact (stats_two_million (fun i => attr m c (ix2 i (0 : Fin 1))) (fun i => hfin1 _)).2

/-! ## The normalised edge attributes and the messages -/

theorem edges :
    (W5 m ρ c (Proc.devRef .tc main_v20) : S2000000x1.Idx → EReal)
      = val_main_v49 (F := Ideal) (m ((c : Thread nD τ).loc main_arg1)) (m ((c : Thread nD τ).loc main_arg6)) (m ((c : Thread nD τ).loc main_arg7)) := by
  funext j
  obtain ⟨i, u, rfl⟩ : ∃ (i : Fin 2000000) (u : Fin 1), j = ix2 i u := ⟨j 0, j 1, eq_ix2 j⟩
  obtain rfl : u = 0 := Subsingleton.elim u 0
  rw [Cert.ReferenceIdeal.Node.eb]
  refine ((congrFun (W5_arr m ρ c 5) _).trans (Cert.KernelIdeal.Apply2.final2 (V4 m ρ) c i)).trans ?_
  exact bn_congr (congrFun (at4_main_arg1 m ρ c) _) (mean_e m ρ c hfin0 hfin1) (var_e m ρ c hfin0 hfin1)
    ((v18_at m ρ c 0).trans (congrFun (at3_main_arg6 m ρ c) _)) ((v19_at m ρ c 0).trans (congrFun (at3_main_arg7 m ρ c) _))

theorem messages :
    (W6 m ρ c (Proc.devRef .tc main_v25) : S1000000x1.Idx → EReal)
      = val_main_v58 (F := Ideal) (m ((c : Thread nD τ).loc main_arg1)) (m ((c : Thread nD τ).loc main_arg3)) (m ((c : Thread nD τ).loc main_arg6)) (m ((c : Thread nD τ).loc main_arg7)) := by
  rw [v25_eq, at5_main_arg3, edges m ρ c hfin0 hfin1]
  rfl

/-! ## The node region and the pooled result -/

theorem nodes :
    (W7 m ρ c (Proc.devRef .tc main_v31) : S1000000x5.Idx → EReal)
      = val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext j
  obtain ⟨i, q, rfl⟩ : ∃ (i : Fin 1000000) (q : Fin 5), j = ix2 i q := ⟨j 0, j 1, eq_ix2 j⟩
  rw [Cert.ReferenceIdeal.Node.node]
  refine (congrFun (W7_arr m ρ c 13) _).trans ?_
  exact node_reads c (V6 m ρ) i q (at6_main_arg0 m ρ c) (messages m ρ c hfin0 hfin1) (at6_main_arg8 m ρ c)
    (at6_main_arg10 m ρ c) (at6_main_arg11 m ρ c) (at6_main_arg13 m ρ c)
    (mean_x m ρ c hfin0 hfin1) (var_x m ρ c hfin0 hfin1)
    (fun k => (v26_at m ρ c k).trans (congrFun (at5_main_arg4 m ρ c) _))
    (fun k => (v27_at m ρ c k).trans (congrFun (at5_main_arg5 m ρ c) _))
    (fun e => (v28_at m ρ c e).trans (congrFun (at5_main_arg9 m ρ c) _))
    (fun j => (v29_at m ρ c j).trans (congrFun (at5_main_arg12 m ρ c) _))
    (fun j => (v30_at m ρ c j).trans (congrFun (at5_main_arg14 m ρ c) _))

/-- The kernel program's result buffer after its last host stretch is the reference's result term of the launch
    arrays, when the node features and the edge attributes are real. -/
theorem result :
    W8 m ρ c (Proc.devRef .tc main_v34)
      = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (v34_eq m ρ c).trans ?_
  rw [at7_main_arg2, nodes m ρ c hfin0 hfin1]
  rfl

end Cert.KernelIdeal.Whole

end
-- ==== Proof.Finite.lean ====
/-
  What the precondition gives the proof: the node features and the edge attributes are real numbers. The precondition
  is a conjunction of thirteen tests "every entry of |a| is below +∞", one per floating-point input; the two for the
  feature matrix and the edge-attribute column sit innermost. An extended real whose absolute value is below +∞ is a
  real number.
-/
import proofs.«155275_j36498632081408_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

noncomputable section

namespace Cert.Finite

open Idealize.ShloMosaic Cert.Pre_finite_inputs Cert.Pre_finite_inputs.Facts

instance : Subsingleton S_.Idx := ⟨fun a b => funext fun d => d.elim0⟩

/-- An extended real whose absolute value compares below the pattern of +∞ is a real number. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- A conjunction of two one-bit words that is 1, at an index, has both words 1 there. -/
theorem peel {s : Shape} (A B : IVec s 1) (i : s.Idx) (h : andi A B i = 1#1) : A i = 1#1 ∧ B i = 1#1 :=
  IntOp.andi_eq_one.mp h

variable [hPre : Cert.Pre_finite_inputs.Facts]

/-- Under the precondition the feature matrix and the edge-attribute column hold real numbers. -/
theorem reals_of_pre (a0 : FVec Ideal S1000000x5 .f32) (a1 : FVec Ideal S2000000x1 .f32) (a2 : IVec S1000000 32)
    (a3 : IVec S2x2000000 32) (a4 a5 : FVec Ideal S5 .f32) (a6 a7 : FVec Ideal S1 .f32) (a8 : FVec Ideal S5x110 .f32)
    (a9 : FVec Ideal S110 .f32) (a10 : FVec Ideal S1x110 .f32) (a11 : FVec Ideal S110x5 .f32) (a12 : FVec Ideal S5 .f32)
    (a13 : FVec Ideal S5x5 .f32) (a14 : FVec Ideal S5 .f32)
    (h : fn (F := Ideal) a0 a1 a2 a3 a4 a5 a6 a7 a8 a9 a10 a11 a12 a13 a14 = fun _ => 1#1) :
    (∀ i, ∃ r : ℝ, a0 i = (r : EReal)) ∧ (∀ i, ∃ r : ℝ, a1 i = (r : EReal)) := by
  have h0 := congrFun h ValueIdx.ix0
  dsimp only [fn, fn_part1, fn_part2, fn_part3] at h0
  have p1 := (peel _ _ _ h0).1
  have p2 := (peel _ _ _ p1).1
  have p3 := (peel _ _ _ p2).1
  have p4 := (peel _ _ _ p3).1
  have p5 := (peel _ _ _ p4).1
  have p6 := (peel _ _ _ p5).1
  have p7 := (peel _ _ _ p6).1
  have p8 := (peel _ _ _ p7).1
  have p9 := (peel _ _ _ p8).1
  have p10 := (peel _ _ _ p9).1
  have p11 := (peel _ _ _ p10).1
  have p12 := peel _ _ _ p11
  refine ⟨fun i => ?_, fun i => ?_⟩
  · have hi := Host.reduce_andi_all _ _ _ _ _ p12.1 i
    have hb : broadcastInDim S1000000x5 ![] bcast_S_S1000000x5 (constant (F := Ideal) S_ .f32 0x7F800000#32) i
        = Ideal.ofBits .f32 0x7F800000#32 :=
      broadcastInDim_apply _ bcast_S_S1000000x5 _ i (fun a => a.elim0) (fun a => a.elim0)
    refine real_of_abs_lt (a0 i) ?_
    rw [← hb]; exact hi
  · have hi := Host.reduce_andi_all _ _ _ _ _ p12.2 i
    have hb : broadcastInDim S2000000x1 ![] bcast_S_S2000000x1 (constant (F := Ideal) S_ .f32 0x7F800000#32) i
        = Ideal.ofBits .f32 0x7F800000#32 :=
      broadcastInDim_apply _ bcast_S_S2000000x1 _ i (fun a => a.elim0) (fun a => a.elim0)
    refine real_of_abs_lt (a1 i) ?_
    rw [← hb]; exact hi

end Cert.Finite

end
-- ==== Proof.lean ====
/-
  The certificate. The kernel program computes a graph readout in four tiled regions among host operations: two
  regions accumulate, block by block, the column sums and sums of squares of the node features and of the edge
  attribute; the host turns them into batch means and variances (mean of squares minus squared mean, clamped at zero);
  a third region normalises the edge attributes, which the host sums into their destination nodes; a fourth region
  normalises each node's features, applies the message-passing layer and the two readout layers with the
  r · logistic r gate, one block of ten thousand nodes at a time; the host sums the node outputs into their graphs.
  The reference does the same with whole-array operations, its variance being the mean squared deviation about the
  mean. On the extended reals the two agree when the features and attributes are real numbers, which the
  precondition gives: block-wise sums are sums (addition is associative and commutative), and for real samples the
  two variance formulas coincide and the clamp is idle. Every other step is the same function entry by entry: a
  change of number format is the identity, a matrix product into a zero accumulator is the sum of products, and
  the two segment sums are applied to equal arrays.
  The three frames are the generated ones (the reference's is its generated run with the result dropped); the
  idealization rewrote nothing, so its soundness claim is trivial.
-/
import proofs.«155275_j36498632081408_2_alg».proof.Defs
import proofs.«155275_j36498632081408_2_alg».proof.Proof.Gen.Kernel
import proofs.«155275_j36498632081408_2_alg».proof.Proof.Gen.Kernel.Skeleton
import proofs.«155275_j36498632081408_2_alg».proof.Proof.Gen.Kernel.Launch
import proofs.«155275_j36498632081408_2_alg».proof.Proof.Gen.Kernel.Points
import proofs.«155275_j36498632081408_2_alg».proof.Proof.Gen.Kernel.Frame
import proofs.«155275_j36498632081408_2_alg».proof.Proof.Gen.KernelIdeal
import proofs.«155275_j36498632081408_2_alg».proof.Proof.Gen.KernelIdeal.Skeleton
import proofs.«155275_j36498632081408_2_alg».proof.Proof.Gen.KernelIdeal.Launch
import proofs.«155275_j36498632081408_2_alg».proof.Proof.Gen.KernelIdeal.Points
import proofs.«155275_j36498632081408_2_alg».proof.Proof.Gen.KernelIdeal.Frame
import proofs.«155275_j36498632081408_2_alg».proof.Proof.Gen.ReferenceIdeal
import proofs.«155275_j36498632081408_2_alg».proof.Proof.Gen.ReferenceIdeal.Run
import proofs.«155275_j36498632081408_2_alg».proof.Proof.Gen.ReferenceIdeal.Read
import proofs.«155275_j36498632081408_2_alg».proof.Proof.Gen.Pre_finite_inputs
import proofs.«155275_j36498632081408_2_alg».proof.Proof.KRun
import proofs.«155275_j36498632081408_2_alg».proof.Proof.KValue
import proofs.«155275_j36498632081408_2_alg».proof.Proof.Finite
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's result term of the (agreeing) argument arrays. -/
theorem algebraic : Cert.algebraic_KernelIdeal_ReferenceIdeal := by
  intro m ρ m' ρ' hpre hagree
  have hfin := fun c => Cert.Finite.reals_of_pre _ _ _ _ _ _ _ _ _ _ _ _ _ _ _ (hpre c)
  refine ⟨fun c => Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Whole.result m ρ c (hfin c).1 (hfin c).2), (h c).2⟩)
      (Cert.KernelIdeal.Whole.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v78_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
